-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v163)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v163) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v252) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S2x3x128x128 : Shape := ⟨4, ![2, 3, 128, 128]⟩
abbrev S2x3x128 : Shape := ⟨3, ![2, 3, 128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S2x3x128x128 : S_.BroadcastsInDim S2x3x128x128 (![] : Fin 0 → Fin S2x3x128x128.rank)
  reducesTo_S2x3x128x128_S_d0_1_2_3 : S2x3x128x128.ReducesTo [0, 1, 2, 3] S_
  bcast_S_S2x3x128 : S_.BroadcastsInDim S2x3x128 (![] : Fin 0 → Fin S2x3x128.rank)
  reducesTo_S2x3x128_S_d0_1_2 : S2x3x128.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S2x3x128 .f32) (main_arg9 : FVec F S128x64 .f32) (main_arg10 : FVec F S64 .f32) (main_v33 : IVec S_ 1) : IVec S_ 1 :=
  let main_v34 : FVec F S2x3x128 .f32 := Host.absf main_arg8
  let main_cst_12 : FVec F S_ .f32 := constant S_ .f32 0x7F800000#32
  let main_v35 : FVec F S2x3x128 .f32 := broadcastInDim S2x3x128 ![] bcast_S_S2x3x128 main_cst_12
  let main_v36 : IVec S2x3x128 1 := cmpf .olt main_v34 main_v35
  let main_c_13 : IVec S_ 1 := constantI S_ 1 1#1
  let main_v37 : IVec S_ 1 := (fun x v => Host.reduce IntOp.andi x v reducesTo_S2x3x128_S_d0_1_2 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S2x3x128 .f32) (main_arg6 : FVec F S2x3x128 .f32) (main_arg7 : FVec F S2x3x128 .f32) (main_arg8 : FVec F S2x3x128 .f32) (main_arg9 : FVec F S128x64 .f32) (main_arg10 : FVec F S64 .f32) (main_v13 : IVec S_ 1) (main_v16 : IVec S2x3x128 1) : IVec S_ 1 :=
  let main_c_5 : IVec S_ 1 := constantI S_ 1 1#1
  let main_v17 : IVec S_ 1 := (fun x v => Host.reduce IntOp.andi x v reducesTo_S2x3x128_S_d0_1_2 h_S_) main_v16 main_c_5
  let main_v18 : IVec S_ 1 := andi main_v13 main_v17
  let main_v19 : FVec F S2x3x128 .f32 := Host.absf main_arg5
  let main_cst_6 : FVec F S_ .f32 := constant S_ .f32 0x7F800000#32
  let main_v20 : FVec F S2x3x128 .f32 := broadcastInDim S2x3x128 ![] bcast_S_S2x3x128 main_cst_6
  let main_v21 : IVec S2x3x128 1 := cmpf .olt main_v19 main_v20
  let main_c_7 : IVec S_ 1 := constantI S_ 1 1#1
  let main_v22 : IVec S_ 1 := (fun x v => Host.reduce IntOp.andi x v reducesTo_S2x3x128_S_d0_1_2 h_S_) main_v21 main_c_7
  let main_v23 : IVec S_ 1 := andi main_v18 main_v22
  let main_v24 : FVec F S2x3x128 .f32 := Host.absf main_arg6
  let main_cst_8 : FVec F S_ .f32 := constant S_ .f32 0x7F800000#32
  let main_v25 : FVec F S2x3x128 .f32 := broadcastInDim S2x3x128 ![] bcast_S_S2x3x128 main_cst_8
  let main_v26 : IVec S2x3x128 1 := cmpf .olt main_v24 main_v25
  let main_c_9 : IVec S_ 1 := constantI S_ 1 1#1
  let main_v27 : IVec S_ 1 := (fun x v => Host.reduce IntOp.andi x v reducesTo_S2x3x128_S_d0_1_2 h_S_) main_v26 main_c_9
  let main_v28 : IVec S_ 1 := andi main_v23 main_v27
  let main_v29 : FVec F S2x3x128 .f32 := Host.absf main_arg7
  let main_cst_10 : FVec F S_ .f32 := constant S_ .f32 0x7F800000#32
  let main_v30 : FVec F S2x3x128 .f32 := broadcastInDim S2x3x128 ![] bcast_S_S2x3x128 main_cst_10
  let main_v31 : IVec S2x3x128 1 := cmpf .olt main_v29 main_v30
  let main_c_11 : IVec S_ 1 := constantI S_ 1 1#1
  let main_v32 : IVec S_ 1 := (fun x v => Host.reduce IntOp.andi x v reducesTo_S2x3x128_S_d0_1_2 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S1600000 .f32) (main_arg3 : FVec F S2x3x128x128 .f32) (main_arg4 : FVec F S2x3x128 .f32) (main_arg5 : FVec F S2x3x128 .f32) (main_arg6 : FVec F S2x3x128 .f32) (main_arg7 : FVec F S2x3x128 .f32) (main_arg8 : FVec F S2x3x128 .f32) (main_arg9 : FVec F S128x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S2x3x128x128 .f32 := Host.absf main_arg3
  let main_cst_2 : FVec F S_ .f32 := constant S_ .f32 0x7F800000#32
  let main_v10 : FVec F S2x3x128x128 .f32 := broadcastInDim S2x3x128x128 ![] bcast_S_S2x3x128x128 main_cst_2
  let main_v11 : IVec S2x3x128x128 1 := cmpf .olt main_v9 main_v10
  let main_c_3 : IVec S_ 1 := constantI S_ 1 1#1
  let main_v12 : IVec S_ 1 := (fun x v => Host.reduce IntOp.andi x v reducesTo_S2x3x128x128_S_d0_1_2_3 h_S_) main_v11 main_c_3
  let main_v13 : IVec S_ 1 := andi main_v8 main_v12
  let main_v14 : FVec F S2x3x128 .f32 := Host.absf main_arg4
  let main_cst_4 : FVec F S_ .f32 := constant S_ .f32 0x7F800000#32
  let main_v15 : FVec F S2x3x128 .f32 := broadcastInDim S2x3x128 ![] bcast_S_S2x3x128 main_cst_4
  let main_v16 : IVec S2x3x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S2x3x128x128 : Shape := ⟨4, ![2, 3, 128, 128]⟩
abbrev S2x3x128 : Shape := ⟨3, ![2, 3, 128]⟩
abbrev S128x64 : Shape := ⟨2, ![128, 64]⟩
abbrev S64 : Shape := ⟨1, ![64]⟩
abbrev S1x3x128x128 : Shape := ⟨4, ![1, 3, 128, 128]⟩
abbrev S3x128x128 : Shape := ⟨3, ![3, 128, 128]⟩
abbrev S1x3x128 : Shape := ⟨3, ![1, 3, 128]⟩
abbrev S3x128 : Shape := ⟨2, ![3, 128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 181
  | .vmem => 66
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S2x3x128x128, .f32⟩
  | 4 => ⟨S2x3x128, .f32⟩
  | 5 => ⟨S2x3x128, .f32⟩
  | 6 => ⟨S2x3x128, .f32⟩
  | 7 => ⟨S2x3x128, .f32⟩
  | 8 => ⟨S2x3x128, .f32⟩
  | 9 => ⟨S128x64, .f32⟩
  | 10 => ⟨S64, .f32⟩
  | 11 => ⟨S1x3x128x128, .f32⟩
  | 12 => ⟨S3x128x128, .f32⟩
  | 13 => ⟨S1x3x128, .f32⟩
  | 14 => ⟨S3x128, .f32⟩
  | 15 => ⟨S1x3x128, .f32⟩
  | 16 => ⟨S3x128, .f32⟩
  | 17 => ⟨S1x3x128, .f32⟩
  | 18 => ⟨S3x128, .f32⟩
  | 19 => ⟨S1x3x128, .f32⟩
  | 20 => ⟨S3x128, .f32⟩
  | 21 => ⟨S1x3x128, .f32⟩
  | 22 => ⟨S3x128, .f32⟩
  | 23 => ⟨S1x1600000, .i32⟩
  | 24 => ⟨S1600000, .i32⟩
  | 25 => ⟨S1x1600000, .i32⟩
  | 26 => ⟨S1600000, .i32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x128, .f32⟩
  | 36 => ⟨S_, .f32⟩
  | 37 => ⟨S100000x128, .f32⟩
  | 38 => ⟨S1600000x1, .i32⟩
  | 39 => ⟨S100000x128, .f32⟩
  | 40 => ⟨S100000x128, .f32⟩
  | 41 => ⟨S1x128x128, .f32⟩
  | 42 => ⟨S128x128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S128, .f32⟩
  | 49 => ⟨S1x128, .f32⟩
  | 50 => ⟨S128, .f32⟩
  | 51 => ⟨S1x128, .f32⟩
  | 52 => ⟨S128, .f32⟩
  | 53 => ⟨S1x128, .f32⟩
  | 54 => ⟨S1x128, .f32⟩
  | 55 => ⟨S1x128, .f32⟩
  | 56 => ⟨S1x128, .f32⟩
  | 57 => ⟨S1x128, .f32⟩
  | 58 => ⟨S100000x128, .f32⟩
  | 59 => ⟨S1x128x128, .f32⟩
  | 60 => ⟨S128x128, .f32⟩
  | 61 => ⟨S1x128, .f32⟩
  | 62 => ⟨S128, .f32⟩
  | 63 => ⟨S1x128, .f32⟩
  | 64 => ⟨S128, .f32⟩
  | 65 => ⟨S1x128, .f32⟩
  | 66 => ⟨S128, .f32⟩
  | 67 => ⟨S1x128, .f32⟩
  | 68 => ⟨S128, .f32⟩
  | 69 => ⟨S1x128, .f32⟩
  | 70 => ⟨S128, .f32⟩
  | 71 => ⟨S1x128, .f32⟩
  | 72 => ⟨S1x128, .f32⟩
  | 73 => ⟨S1x128, .f32⟩
  | 74 => ⟨S1x128, .f32⟩
  | 75 => ⟨S1x128, .f32⟩
  | 76 => ⟨S100000x128, .f32⟩
  | 77 => ⟨S1x128x128, .f32⟩
  | 78 => ⟨S128x128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S1x128, .f32⟩
  | 91 => ⟨S1x128, .f32⟩
  | 92 => ⟨S1x128, .f32⟩
  | 93 => ⟨S1x128, .f32⟩
  | 94 => ⟨S100000x128, .f32⟩
  | 95 => ⟨S1x3x128x128, .f32⟩
  | 96 => ⟨S3x128x128, .f32⟩
  | 97 => ⟨S1x3x128, .f32⟩
  | 98 => ⟨S3x128, .f32⟩
  | 99 => ⟨S1x3x128, .f32⟩
  | 100 => ⟨S3x128, .f32⟩
  | 101 => ⟨S1x3x128, .f32⟩
  | 102 => ⟨S3x128, .f32⟩
  | 103 => ⟨S1x3x128, .f32⟩
  | 104 => ⟨S3x128, .f32⟩
  | 105 => ⟨S1x3x128, .f32⟩
  | 106 => ⟨S3x128, .f32⟩
  | 107 => ⟨S1x1600000, .i32⟩
  | 108 => ⟨S1600000, .i32⟩
  | 109 => ⟨S1x1600000, .i32⟩
  | 110 => ⟨S1600000, .i32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x128, .f32⟩
  | 120 => ⟨S_, .f32⟩
  | 121 => ⟨S100000x128, .f32⟩
  | 122 => ⟨S1600000x1, .i32⟩
  | 123 => ⟨S100000x128, .f32⟩
  | 124 => ⟨S100000x128, .f32⟩
  | 125 => ⟨S1x128x128, .f32⟩
  | 126 => ⟨S128x128, .f32⟩
  | 127 => ⟨S1x128, .f32⟩
  | _ => ⟨S100000x128, .f32⟩

abbrev hbmTy0_1 (i : Nat) : BufTy := match i % 128 with
  | 0 => ⟨S128, .f32⟩
  | 1 => ⟨S1x128, .f32⟩
  | 2 => ⟨S128, .f32⟩
  | 3 => ⟨S1x128, .f32⟩
  | 4 => ⟨S128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S1x128, .f32⟩
  | 11 => ⟨S1x128, .f32⟩
  | 12 => ⟨S1x128, .f32⟩
  | 13 => ⟨S1x128, .f32⟩
  | 14 => ⟨S100000x128, .f32⟩
  | 15 => ⟨S1x128x128, .f32⟩
  | 16 => ⟨S128x128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S1x128, .f32⟩
  | 29 => ⟨S1x128, .f32⟩
  | 30 => ⟨S1x128, .f32⟩
  | 31 => ⟨S1x128, .f32⟩
  | 32 => ⟨S100000x128, .f32⟩
  | 33 => ⟨S1x128x128, .f32⟩
  | 34 => ⟨S128x128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S128, .f32⟩
  | 41 => ⟨S1x128, .f32⟩
  | 42 => ⟨S128, .f32⟩
  | 43 => ⟨S1x128, .f32⟩
  | 44 => ⟨S128, .f32⟩
  | 45 => ⟨S1x128, .f32⟩
  | 46 => ⟨S1x128, .f32⟩
  | 47 => ⟨S1x128, .f32⟩
  | 48 => ⟨S1x128, .f32⟩
  | 49 => ⟨S1x128, .f32⟩
  | 50 => ⟨S100000x128, .f32⟩
  | 51 => ⟨S1x64, .f32⟩
  | 52 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S128x64, .f32⟩
  | .local _ .vmem, ⟨63, _⟩ => ⟨S1x64, .f32⟩
  | .local _ .vmem, ⟨64, _⟩ => ⟨S5000x64, .f32⟩
  | .local _ .vmem, ⟨65, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_c_1 : Ref sig .tc := ⟨.hbm, 111, rfl⟩
abbrev main_v97 : Ref sig .tc := ⟨.hbm, 112, rfl⟩
abbrev main_v98 : Ref sig .tc := ⟨.hbm, 113, rfl⟩
abbrev main_c_2 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_cst_3 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg7_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg6_0 : Ref sig .tc := ⟨.vmem, 57, rfl⟩
abbrev cc5_stg7_0 : Ref sig .tc := ⟨.vmem, 58, rfl⟩
abbrev cc5_stg7_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg3_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem7_1 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem6_0 : DmaSem sig := 57
abbrev cc5_sem7_0 : DmaSem sig := 58
abbrev cc5_sem7_1 : DmaSem sig := 59
abbrev cc6_sem0_0 : DmaSem sig := 60
abbrev cc6_sem0_1 : DmaSem sig := 61
abbrev cc6_sem1_0 : DmaSem sig := 62
abbrev cc6_sem2_0 : DmaSem sig := 63
abbrev cc6_sem3_0 : DmaSem sig := 64
abbrev cc6_sem3_1 : DmaSem sig := 65

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x3x128x128_S1x3x128x128_0_0_0_0 : S2x3x128x128.Slices ![0, 0, 0, 0] S1x3x128x128
  shapeCasts_S1x3x128x128_S3x128x128 : S1x3x128x128.ShapeCasts S3x128x128
  slices_S2x3x128_S1x3x128_0_0_0 : S2x3x128.Slices ![0, 0, 0] S1x3x128
  shapeCasts_S1x3x128_S3x128 : S1x3x128.ShapeCasts S3x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  slices_S2x3x128x128_S1x3x128x128_1_0_0_0 : S2x3x128x128.Slices ![1, 0, 0, 0] S1x3x128x128
  slices_S2x3x128_S1x3x128_1_0_0 : S2x3x128.Slices ![1, 0, 0] S1x3x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S100000x128.size a
  hwx4_7 : ∀ i : grid4.Coords, EltTy.bits .f32 = 32 ∨ (Rect.block (s := S100000x128) S5000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S100000x128.size a
  hwx5_7 : ∀ i : grid5.Coords, EltTy.bits .f32 = 32 ∨ (Rect.block (s := S100000x128) S5000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S100000x64.size a
  hwx6_3 : ∀ i : grid6.Coords, EltTy.bits .f32 = 32 ∨ (Rect.block (s := S100000x64) S5000x64.size (cc6_transform_3 i) (hinb6_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v44) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v62) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v75) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v77) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v78) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v79) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v80) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v107) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v109) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v120) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v121) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v122) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v123) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v124) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v125) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v125) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v127) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v138) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v139) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v140) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v141) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v142) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v143) S5000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v143) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v145) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v156) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v157) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v158) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v159) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v160) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v161) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v161) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v162) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v163) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S2x3x128x128 : Shape := ⟨4, ![2, 3, 128, 128]⟩
abbrev S2x3x128 : Shape := ⟨3, ![2, 3, 128]⟩
abbrev S128x64 : Shape := ⟨2, ![128, 64]⟩
abbrev S64 : Shape := ⟨1, ![64]⟩
abbrev S1x3x128x128 : Shape := ⟨4, ![1, 3, 128, 128]⟩
abbrev S3x128x128 : Shape := ⟨3, ![3, 128, 128]⟩
abbrev S1x3x128 : Shape := ⟨3, ![1, 3, 128]⟩
abbrev S3x128 : Shape := ⟨2, ![3, 128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S100000x64 : Shape := ⟨2, ![100000, 64]⟩
abbrev S1x64 : Shape := ⟨2, ![1, 64]⟩
abbrev S100000 : Shape := ⟨1, ![100000]⟩
abbrev S100000x1 : Shape := ⟨2, ![100000, 1]⟩

abbrev nBuf : Space → Nat
  | .hbm => 306
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S2x3x128x128, .f32⟩
  | 4 => ⟨S2x3x128, .f32⟩
  | 5 => ⟨S2x3x128, .f32⟩
  | 6 => ⟨S2x3x128, .f32⟩
  | 7 => ⟨S2x3x128, .f32⟩
  | 8 => ⟨S2x3x128, .f32⟩
  | 9 => ⟨S128x64, .f32⟩
  | 10 => ⟨S64, .f32⟩
  | 11 => ⟨S1x3x128x128, .f32⟩
  | 12 => ⟨S3x128x128, .f32⟩
  | 13 => ⟨S1x3x128, .f32⟩
  | 14 => ⟨S3x128, .f32⟩
  | 15 => ⟨S1x3x128, .f32⟩
  | 16 => ⟨S3x128, .f32⟩
  | 17 => ⟨S1x3x128, .f32⟩
  | 18 => ⟨S3x128, .f32⟩
  | 19 => ⟨S1x3x128, .f32⟩
  | 20 => ⟨S3x128, .f32⟩
  | 21 => ⟨S1x3x128, .f32⟩
  | 22 => ⟨S3x128, .f32⟩
  | 23 => ⟨S1x1600000, .i32⟩
  | 24 => ⟨S1600000, .i32⟩
  | 25 => ⟨S1x1600000, .i32⟩
  | 26 => ⟨S1600000, .i32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x128, .f32⟩
  | 36 => ⟨S_, .f32⟩
  | 37 => ⟨S100000x128, .f32⟩
  | 38 => ⟨S1600000x1, .i32⟩
  | 39 => ⟨S100000x128, .f32⟩
  | 40 => ⟨S100000x128, .f32⟩
  | 41 => ⟨S1x128x128, .f32⟩
  | 42 => ⟨S128x128, .f32⟩
  | 43 => ⟨S100000x128, .f32⟩
  | 44 => ⟨S1x128, .f32⟩
  | 45 => ⟨S128, .f32⟩
  | 46 => ⟨S1x128, .f32⟩
  | 47 => ⟨S100000x128, .f32⟩
  | 48 => ⟨S100000x128, .f32⟩
  | 49 => ⟨S1x128, .f32⟩
  | 50 => ⟨S128, .f32⟩
  | 51 => ⟨S1x128, .f32⟩
  | 52 => ⟨S100000x128, .f32⟩
  | 53 => ⟨S100000x128, .f32⟩
  | 54 => ⟨S1x128, .f32⟩
  | 55 => ⟨S128, .f32⟩
  | 56 => ⟨S_, .f32⟩
  | 57 => ⟨S128, .f32⟩
  | 58 => ⟨S128, .f32⟩
  | 59 => ⟨S128, .f32⟩
  | 60 => ⟨S1x128, .f32⟩
  | 61 => ⟨S100000x128, .f32⟩
  | 62 => ⟨S100000x128, .f32⟩
  | 63 => ⟨S1x128, .f32⟩
  | 64 => ⟨S128, .f32⟩
  | 65 => ⟨S1x128, .f32⟩
  | 66 => ⟨S100000x128, .f32⟩
  | 67 => ⟨S100000x128, .f32⟩
  | 68 => ⟨S1x128, .f32⟩
  | 69 => ⟨S128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S1x128x128, .f32⟩
  | 77 => ⟨S128x128, .f32⟩
  | 78 => ⟨S100000x128, .f32⟩
  | 79 => ⟨S1x128, .f32⟩
  | 80 => ⟨S128, .f32⟩
  | 81 => ⟨S1x128, .f32⟩
  | 82 => ⟨S100000x128, .f32⟩
  | 83 => ⟨S100000x128, .f32⟩
  | 84 => ⟨S1x128, .f32⟩
  | 85 => ⟨S128, .f32⟩
  | 86 => ⟨S1x128, .f32⟩
  | 87 => ⟨S100000x128, .f32⟩
  | 88 => ⟨S100000x128, .f32⟩
  | 89 => ⟨S1x128, .f32⟩
  | 90 => ⟨S128, .f32⟩
  | 91 => ⟨S_, .f32⟩
  | 92 => ⟨S128, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S128, .f32⟩
  | 100 => ⟨S1x128, .f32⟩
  | 101 => ⟨S100000x128, .f32⟩
  | 102 => ⟨S100000x128, .f32⟩
  | 103 => ⟨S1x128, .f32⟩
  | 104 => ⟨S128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S1x128x128, .f32⟩
  | 112 => ⟨S128x128, .f32⟩
  | 113 => ⟨S100000x128, .f32⟩
  | 114 => ⟨S1x128, .f32⟩
  | 115 => ⟨S128, .f32⟩
  | 116 => ⟨S1x128, .f32⟩
  | 117 => ⟨S100000x128, .f32⟩
  | 118 => ⟨S100000x128, .f32⟩
  | 119 => ⟨S1x128, .f32⟩
  | 120 => ⟨S128, .f32⟩
  | 121 => ⟨S1x128, .f32⟩
  | 122 => ⟨S100000x128, .f32⟩
  | 123 => ⟨S100000x128, .f32⟩
  | 124 => ⟨S1x128, .f32⟩
  | 125 => ⟨S128, .f32⟩
  | 126 => ⟨S_, .f32⟩
  | 127 => ⟨S128, .f32⟩
  | _ => ⟨S100000x128, .f32⟩

abbrev hbmTy0_1 (i : Nat) : BufTy := match i % 128 with
  | 0 => ⟨S128, .f32⟩
  | 1 => ⟨S128, .f32⟩
  | 2 => ⟨S1x128, .f32⟩
  | 3 => ⟨S100000x128, .f32⟩
  | 4 => ⟨S100000x128, .f32⟩
  | 5 => ⟨S1x128, .f32⟩
  | 6 => ⟨S128, .f32⟩
  | 7 => ⟨S1x128, .f32⟩
  | 8 => ⟨S100000x128, .f32⟩
  | 9 => ⟨S100000x128, .f32⟩
  | 10 => ⟨S1x128, .f32⟩
  | 11 => ⟨S128, .f32⟩
  | 12 => ⟨S1x128, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S1x3x128x128, .f32⟩
  | 22 => ⟨S3x128x128, .f32⟩
  | 23 => ⟨S1x3x128, .f32⟩
  | 24 => ⟨S3x128, .f32⟩
  | 25 => ⟨S1x3x128, .f32⟩
  | 26 => ⟨S3x128, .f32⟩
  | 27 => ⟨S1x3x128, .f32⟩
  | 28 => ⟨S3x128, .f32⟩
  | 29 => ⟨S1x3x128, .f32⟩
  | 30 => ⟨S3x128, .f32⟩
  | 31 => ⟨S1x3x128, .f32⟩
  | 32 => ⟨S3x128, .f32⟩
  | 33 => ⟨S1x1600000, .i32⟩
  | 34 => ⟨S1600000, .i32⟩
  | 35 => ⟨S1x1600000, .i32⟩
  | 36 => ⟨S1600000, .i32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S100000x128, .f32⟩
  | 51 => ⟨S1x128x128, .f32⟩
  | 52 => ⟨S128x128, .f32⟩
  | 53 => ⟨S100000x128, .f32⟩
  | 54 => ⟨S1x128, .f32⟩
  | 55 => ⟨S128, .f32⟩
  | 56 => ⟨S1x128, .f32⟩
  | 57 => ⟨S100000x128, .f32⟩
  | 58 => ⟨S100000x128, .f32⟩
  | 59 => ⟨S1x128, .f32⟩
  | 60 => ⟨S128, .f32⟩
  | 61 => ⟨S1x128, .f32⟩
  | 62 => ⟨S100000x128, .f32⟩
  | 63 => ⟨S100000x128, .f32⟩
  | 64 => ⟨S1x128, .f32⟩
  | 65 => ⟨S128, .f32⟩
  | 66 => ⟨S_, .f32⟩
  | 67 => ⟨S128, .f32⟩
  | 68 => ⟨S128, .f32⟩
  | 69 => ⟨S128, .f32⟩
  | 70 => ⟨S1x128, .f32⟩
  | 71 => ⟨S100000x128, .f32⟩
  | 72 => ⟨S100000x128, .f32⟩
  | 73 => ⟨S1x128, .f32⟩
  | 74 => ⟨S128, .f32⟩
  | 75 => ⟨S1x128, .f32⟩
  | 76 => ⟨S100000x128, .f32⟩
  | 77 => ⟨S100000x128, .f32⟩
  | 78 => ⟨S1x128, .f32⟩
  | 79 => ⟨S128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S1x128x128, .f32⟩
  | 87 => ⟨S128x128, .f32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S1x128, .f32⟩
  | 95 => ⟨S128, .f32⟩
  | 96 => ⟨S1x128, .f32⟩
  | 97 => ⟨S100000x128, .f32⟩
  | 98 => ⟨S100000x128, .f32⟩
  | 99 => ⟨S1x128, .f32⟩
  | 100 => ⟨S128, .f32⟩
  | 101 => ⟨S_, .f32⟩
  | 102 => ⟨S128, .f32⟩
  | 103 => ⟨S128, .f32⟩
  | 104 => ⟨S128, .f32⟩
  | 105 => ⟨S1x128, .f32⟩
  | 106 => ⟨S100000x128, .f32⟩
  | 107 => ⟨S100000x128, .f32⟩
  | 108 => ⟨S1x128, .f32⟩
  | 109 => ⟨S128, .f32⟩
  | 110 => ⟨S1x128, .f32⟩
  | 111 => ⟨S100000x128, .f32⟩
  | 112 => ⟨S100000x128, .f32⟩
  | 113 => ⟨S1x128, .f32⟩
  | 114 => ⟨S128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S1x128x128, .f32⟩
  | 122 => ⟨S128x128, .f32⟩
  | 123 => ⟨S100000x128, .f32⟩
  | 124 => ⟨S1x128, .f32⟩
  | 125 => ⟨S128, .f32⟩
  | 126 => ⟨S1x128, .f32⟩
  | 127 => ⟨S100000x128, .f32⟩
  | _ => ⟨S100000x128, .f32⟩

abbrev hbmTy0_2 (i : Nat) : BufTy := match i % 128 with
  | 0 => ⟨S100000x128, .f32⟩
  | 1 => ⟨S1x128, .f32⟩
  | 2 => ⟨S128, .f32⟩
  | 3 => ⟨S1x128, .f32⟩
  | 4 => ⟨S100000x128, .f32⟩
  | 5 => ⟨S100000x128, .f32⟩
  | 6 => ⟨S1x128, .f32⟩
  | 7 => ⟨S128, .f32⟩
  | 8 => ⟨S_, .f32⟩
  | 9 => ⟨S128, .f32⟩
  | 10 => ⟨S128, .f32⟩
  | 11 => ⟨S128, .f32⟩
  | 12 => ⟨S1x128, .f32⟩
  | 13 => ⟨S100000x128, .f32⟩
  | 14 => ⟨S100000x128, .f32⟩
  | 15 => ⟨S1x128, .f32⟩
  | 16 => ⟨S128, .f32⟩
  | 17 => ⟨S1x128, .f32⟩
  | 18 => ⟨S100000x128, .f32⟩
  | 19 => ⟨S100000x128, .f32⟩
  | 20 => ⟨S1x128, .f32⟩
  | 21 => ⟨S128, .f32⟩
  | 22 => ⟨S1x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S100000, .f32⟩
  | 37 => ⟨S_, .f32⟩
  | 38 => ⟨S100000, .f32⟩
  | 39 => ⟨S100000, .f32⟩
  | 40 => ⟨S100000x1, .f32⟩
  | 41 => ⟨S100000x64, .f32⟩
  | 42 => ⟨S100000x64, .f32⟩
  | 43 => ⟨S100000x64, .f32⟩
  | 44 => ⟨S_, .f32⟩
  | 45 => ⟨S100000, .f32⟩
  | 46 => ⟨S100000x1, .f32⟩
  | 47 => ⟨S100000x1, .f32⟩
  | 48 => ⟨S100000x64, .f32⟩
  | 49 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_1 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_call0_cst : Ref sig .tc := ⟨.hbm, 73, rfl⟩
abbrev main_call0_v0 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_2 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_call1_cst : Ref sig .tc := ⟨.hbm, 108, rfl⟩
abbrev main_call1_v0 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_cst_3 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_call2_cst : Ref sig .tc := ⟨.hbm, 143, rfl⟩
abbrev main_call2_v0 : Ref sig .tc := ⟨.hbm, 144, rfl⟩
abbrev main_v122 : Ref sig .tc := ⟨.hbm, 145, rfl⟩
abbrev main_call3_cst : Ref sig .tc := ⟨.hbm, 146, rfl⟩
abbrev main_call3_v0 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_c_4 : Ref sig .tc := ⟨.hbm, 165, rfl⟩
abbrev main_v140 : Ref sig .tc := ⟨.hbm, 166, rfl⟩
abbrev main_v141 : Ref sig .tc := ⟨.hbm, 167, rfl⟩
abbrev main_c_5 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_cst_6 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_cst_7 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_call4_cst : Ref sig .tc := ⟨.hbm, 211, rfl⟩
abbrev main_call4_v0 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_cst_8 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_call5_cst : Ref sig .tc := ⟨.hbm, 246, rfl⟩
abbrev main_call5_v0 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_cst_9 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_call6_cst : Ref sig .tc := ⟨.hbm, 281, rfl⟩
abbrev main_call6_v0 : Ref sig .tc := ⟨.hbm, 282, rfl⟩
abbrev main_v246 : Ref sig .tc := ⟨.hbm, 283, rfl⟩
abbrev main_call7_cst : Ref sig .tc := ⟨.hbm, 284, rfl⟩
abbrev main_call7_v0 : Ref sig .tc := ⟨.hbm, 285, rfl⟩
abbrev main_v247 : Ref sig .tc := ⟨.hbm, 286, rfl⟩
abbrev main_v248 : Ref sig .tc := ⟨.hbm, 287, rfl⟩
abbrev main_v249 : Ref sig .tc := ⟨.hbm, 288, rfl⟩
abbrev main_v250 : Ref sig .tc := ⟨.hbm, 289, rfl⟩
abbrev main_v251 : Ref sig .tc := ⟨.hbm, 290, rfl⟩
abbrev main_call8_cst : Ref sig .tc := ⟨.hbm, 291, rfl⟩
abbrev main_call8_v0 : Ref sig .tc := ⟨.hbm, 292, rfl⟩
abbrev main_call8_cst_0 : Ref sig .tc := ⟨.hbm, 293, rfl⟩
abbrev main_call8_v1 : Ref sig .tc := ⟨.hbm, 294, rfl⟩
abbrev main_call8_v2 : Ref sig .tc := ⟨.hbm, 295, rfl⟩
abbrev main_call8_v3 : Ref sig .tc := ⟨.hbm, 296, rfl⟩
abbrev main_call8_v4 : Ref sig .tc := ⟨.hbm, 297, rfl⟩
abbrev main_call8_v5 : Ref sig .tc := ⟨.hbm, 298, rfl⟩
abbrev main_call8_v6 : Ref sig .tc := ⟨.hbm, 299, rfl⟩
abbrev main_call8_cst_1 : Ref sig .tc := ⟨.hbm, 300, rfl⟩
abbrev main_call8_v7 : Ref sig .tc := ⟨.hbm, 301, rfl⟩
abbrev main_call8_v8 : Ref sig .tc := ⟨.hbm, 302, rfl⟩
abbrev main_call8_v9 : Ref sig .tc := ⟨.hbm, 303, rfl⟩
abbrev main_call8_v10 : Ref sig .tc := ⟨.hbm, 304, rfl⟩
abbrev main_v252 : Ref sig .tc := ⟨.hbm, 305, rfl⟩

abbrev nD : Nat := 1
abbrev τ : Topo := Topo.v7x

variable {F : FTy → Type} [FloatOps F]

class Facts₀ : Prop where
  slices_S2x3x128x128_S1x3x128x128_0_0_0_0 : S2x3x128x128.Slices ![0, 0, 0, 0] S1x3x128x128
  shapeCasts_S1x3x128x128_S3x128x128 : S1x3x128x128.ShapeCasts S3x128x128
  slices_S2x3x128_S1x3x128_0_0_0 : S2x3x128.Slices ![0, 0, 0] S1x3x128
  shapeCasts_S1x3x128_S3x128 : S1x3x128.ShapeCasts S3x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  slices_S2x3x128x128_S1x3x128x128_1_0_0_0 : S2x3x128x128.Slices ![1, 0, 0, 0] S1x3x128x128
  slices_S2x3x128_S1x3x128_1_0_0 : S2x3x128.Slices ![1, 0, 0] S1x3x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel's run with its result named: every weakly fair execution of the seven regions and the host
  operations between them terminates without a fault, the result buffer ends holding what the last boundary of the
  run holds there, and the argument arrays end as launched.
-/
import proofs.«114777_j46617575031250_1_alg».proof.Proof.Gen.KernelIdeal.Frame

set_option maxRecDepth 16384

noncomputable section

namespace Cert.Gin.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run of @main over its fourteen segments, its final state read at every unscoped buffer: the result buffer at
    the last boundary's contents, each argument walked back to the launch memory. -/
theorem run_result : θ_run defs (onTc (τ := τ) (main (F := F))) ⟨m, fun _ => 0, ρ⟩ (fun r => ∀ c : Dev nD,
      r.2.mem ((c.tc : Thread nD τ).loc main_v163) = W14 m ρ c (Proc.devRef .tc main_v163)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v163 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.Gin.Ker

end
-- ==== Proof.Spec.lean ====
/-
  The network both programs compute, read at one entry, over the extended reals.

  One layer sends a row `x` of K features to N features: the affine map `x W + b`, the batch normalisation with stored
  statistics `((· - μ) * rsqrt (v + eps)) * g + β` in exactly this order of operations, and the maximum with zero.
  The last stage sends a row to its logits `x W + b` and subtracts from each logit the row's maximum and then the
  logarithm of the sum of the exponentials of the shifted logits.  `net` composes two blocks — a neighbourhood
  aggregation `agg`, kept abstract, followed by three layers — and the last stage.
-/
import Idealize.ShloMosaic.PureOps.Ideal
import Idealize.ShloMosaic.Lib.ValueIdx

noncomputable section

open scoped BigOperators

namespace Cert.Gin

open Idealize.ShloMosaic Idealize.ShloMosaic.ValueIdx

/-- The variance offset of the batch normalisation, as both programs spell it. -/
def eps : EReal := Ideal.ofBits .f32 0x3727C5AC#32

/-- The value a row maximum starts from, as both programs spell it. -/
def negInf : EReal := Ideal.ofBits .f32 0xFF800000#32

/-- Entry `j` of one layer applied to the row `x`. -/
def layerAt {K N : Nat} (x : Fin K → EReal) (w : (⟨2, ![K, N]⟩ : Shape).Idx → EReal) (b g β μ v : Fin N → EReal)
    (j : Fin N) : EReal :=
  max (((((∑ k : Fin K, x k * w (ix2 k j)) + b j) - μ j) * Ideal.rsqrt (v j + eps)) * g j + β j) 0

/-- One layer applied to every row of an array. -/
def layer {R K N : Nat} (h : (⟨2, ![R, K]⟩ : Shape).Idx → EReal) (w : (⟨2, ![K, N]⟩ : Shape).Idx → EReal)
    (b g β μ v : Fin N → EReal) : (⟨2, ![R, N]⟩ : Shape).Idx → EReal :=
  fun i => layerAt (fun k => h (ix2 (i 0) k)) w b g β μ v (i 1)

/-- Entry `j` of the affine map `x W + b`. -/
def logitAt {K N : Nat} (x : Fin K → EReal) (w : (⟨2, ![K, N]⟩ : Shape).Idx → EReal) (b : Fin N → EReal) (j : Fin N) : EReal :=
  (∑ k : Fin K, x k * w (ix2 k j)) + b j

/-- The largest logit of the row, folded from `negInf`. -/
def rowMax {K N : Nat} (x : Fin K → EReal) (w : (⟨2, ![K, N]⟩ : Shape).Idx → EReal) (b : Fin N → EReal) : EReal :=
  (Finset.univ : Finset (Fin N)).fold max negInf (logitAt x w b)

/-- Entry `j` of the last stage applied to the row `x`: the shifted logit less the logarithm of the sum of the
    exponentials of the shifted logits. -/
def headAt {K N : Nat} (x : Fin K → EReal) (w : (⟨2, ![K, N]⟩ : Shape).Idx → EReal) (b : Fin N → EReal) (j : Fin N) : EReal :=
  (logitAt x w b j - rowMax x w b) - Ideal.log (∑ j' : Fin N, Ideal.exp (logitAt x w b j' - rowMax x w b))

/-- The last stage applied to every row of an array. -/
def head {R K N : Nat} (h : (⟨2, ![R, K]⟩ : Shape).Idx → EReal) (w : (⟨2, ![K, N]⟩ : Shape).Idx → EReal)
    (b : Fin N → EReal) : (⟨2, ![R, N]⟩ : Shape).Idx → EReal :=
  fun i => headAt (fun k => h (ix2 (i 0) k)) w b (i 1)

/-- The parameters of one layer: the weight matrix and the five vectors. -/
structure LayerParams (K N : Nat) where
  w : (⟨2, ![K, N]⟩ : Shape).Idx → EReal
  b : Fin N → EReal
  g : Fin N → EReal
  β : Fin N → EReal
  μ : Fin N → EReal
  v : Fin N → EReal

/-- One layer with its parameters bundled. -/
def LayerParams.apply {R K N : Nat} (P : LayerParams K N) (h : (⟨2, ![R, K]⟩ : Shape).Idx → EReal) :
    (⟨2, ![R, N]⟩ : Shape).Idx → EReal :=
  layer h P.w P.b P.g P.β P.μ P.v

/-- The whole network: aggregate, three layers, aggregate, three layers, the last stage. -/
def net {R H C : Nat} (agg : ((⟨2, ![R, H]⟩ : Shape).Idx → EReal) → ((⟨2, ![R, H]⟩ : Shape).Idx → EReal))
    (P0 P1 P2 P3 P4 P5 : LayerParams H H) (fw : (⟨2, ![H, C]⟩ : Shape).Idx → EReal) (fb : Fin C → EReal)
    (x : (⟨2, ![R, H]⟩ : Shape).Idx → EReal) : (⟨2, ![R, C]⟩ : Shape).Idx → EReal :=
  head (P5.apply (P4.apply (P3.apply (agg (P2.apply (P1.apply (P0.apply (agg x)))))))) fw fb

/-- The maximum with zero taken twice is the maximum with zero. -/
theorem max_zero_idem (a : EReal) : max (max a 0) 0 = max a 0 := by
  rw [max_assoc, max_self]

end Cert.Gin

end
-- ==== Proof.ParamsKer.lean ====
/-
  The pieces of the network as this program's text spells them, each a function of the argument arrays: the
  neighbourhood aggregation `h + scatter_add (gather h src) dst` (the source indices wrapped once when negative, as
  jnp indexing does), and, for the branch `a` and the layer `k`, the weight matrix and the five parameter vectors cut
  out of the stacked arguments by a slice and a reshape on each of the two leading axes.
-/
import proofs.«114777_j46617575031250_1_alg».proof.Proof.Gen.KernelIdeal
import proofs.«114777_j46617575031250_1_alg».proof.Proof.Spec

noncomputable section

namespace Cert.Gin.Ker

open Idealize.ShloMosaic Idealize.ShloMosaic.ValueIdx Cert.KernelIdeal Cert.KernelIdeal.Gen Cert.Gin

/-- The source endpoints of the edges, wrapped once when negative. -/
def src (e : IVec S2x1600000 32) : IVec S1600000 32 :=
  select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000)

/-- Every node's features plus the sum of the features of the sources of the edges that end at it. -/
def agg (e : IVec S2x1600000 32) (h : FVec Ideal S100000x128 .f32) : FVec Ideal S100000x128 .f32 :=
  addf h (Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x128_S1600000x1_S1600000x128_1_0_n_n_0_1_1128 h (broadcastInDim S1600000x1 ![0] bcast_S1600000_S1600000x1_0 (src e))))

/-- Branch 0 / branch 1 of a stack of three parameter vectors. -/
def stackA0 (x : FVec Ideal S2x3x128 .f32) : FVec Ideal S3x128 .f32 :=
  shapeCast _ (extractStridedSlice S1x3x128 ![0, 0, 0] x slices_S2x3x128_S1x3x128_0_0_0) shapeCasts_S1x3x128_S3x128
def stackA1 (x : FVec Ideal S2x3x128 .f32) : FVec Ideal S3x128 .f32 :=
  shapeCast _ (extractStridedSlice S1x3x128 ![1, 0, 0] x slices_S2x3x128_S1x3x128_1_0_0) shapeCasts_S1x3x128_S3x128

/-- Layer 0 / 1 / 2 of a branch's three parameter vectors. -/
def vecK0 (s : FVec Ideal S3x128 .f32) : FVec Ideal S128 .f32 :=
  shapeCast _ (extractStridedSlice S1x128 ![0, 0] s slices_S3x128_S1x128_0_0) shapeCasts_S1x128_S128
def vecK1 (s : FVec Ideal S3x128 .f32) : FVec Ideal S128 .f32 :=
  shapeCast _ (extractStridedSlice S1x128 ![1, 0] s slices_S3x128_S1x128_1_0) shapeCasts_S1x128_S128
def vecK2 (s : FVec Ideal S3x128 .f32) : FVec Ideal S128 .f32 :=
  shapeCast _ (extractStridedSlice S1x128 ![2, 0] s slices_S3x128_S1x128_2_0) shapeCasts_S1x128_S128

/-- Branch 0 / branch 1 of the stacked weight matrices. -/
def wstackA0 (x : FVec Ideal S2x3x128x128 .f32) : FVec Ideal S3x128x128 .f32 :=
  shapeCast _ (extractStridedSlice S1x3x128x128 ![0, 0, 0, 0] x slices_S2x3x128x128_S1x3x128x128_0_0_0_0) shapeCasts_S1x3x128x128_S3x128x128
def wstackA1 (x : FVec Ideal S2x3x128x128 .f32) : FVec Ideal S3x128x128 .f32 :=
  shapeCast _ (extractStridedSlice S1x3x128x128 ![1, 0, 0, 0] x slices_S2x3x128x128_S1x3x128x128_1_0_0_0) shapeCasts_S1x3x128x128_S3x128x128

/-- Layer 0 / 1 / 2 of a branch's three weight matrices. -/
def wmatK0 (s : FVec Ideal S3x128x128 .f32) : FVec Ideal S128x128 .f32 :=
  shapeCast _ (extractStridedSlice S1x128x128 ![0, 0, 0] s slices_S3x128x128_S1x128x128_0_0_0) shapeCasts_S1x128x128_S128x128
def wmatK1 (s : FVec Ideal S3x128x128 .f32) : FVec Ideal S128x128 .f32 :=
  shapeCast _ (extractStridedSlice S1x128x128 ![1, 0, 0] s slices_S3x128x128_S1x128x128_1_0_0) shapeCasts_S1x128x128_S128x128
def wmatK2 (s : FVec Ideal S3x128x128 .f32) : FVec Ideal S128x128 .f32 :=
  shapeCast _ (extractStridedSlice S1x128x128 ![2, 0, 0] s slices_S3x128x128_S1x128x128_2_0_0) shapeCasts_S1x128x128_S128x128

/-- A layer's parameters from its weight matrix and its five vectors `b g β μ v`. -/
def params (w : FVec Ideal S128x128 .f32) (b g β μ v : FVec Ideal S128 .f32) : LayerParams 128 128 :=
  ⟨w, fun j => b (ix1 j), fun j => g (ix1 j), fun j => β (ix1 j), fun j => μ (ix1 j), fun j => v (ix1 j)⟩

/-- The six layers' parameters, from the stacked arguments `conv_w conv_b bn_g bn_b bn_m bn_v`. -/
def P0 (x3 : FVec Ideal S2x3x128x128 .f32) (x4 x5 x6 x7 x8 : FVec Ideal S2x3x128 .f32) : LayerParams 128 128 :=
  params (wmatK0 (wstackA0 x3)) (vecK0 (stackA0 x4)) (vecK0 (stackA0 x5)) (vecK0 (stackA0 x6)) (vecK0 (stackA0 x7)) (vecK0 (stackA0 x8))
def P1 (x3 : FVec Ideal S2x3x128x128 .f32) (x4 x5 x6 x7 x8 : FVec Ideal S2x3x128 .f32) : LayerParams 128 128 :=
  params (wmatK1 (wstackA0 x3)) (vecK1 (stackA0 x4)) (vecK1 (stackA0 x5)) (vecK1 (stackA0 x6)) (vecK1 (stackA0 x7)) (vecK1 (stackA0 x8))
def P2 (x3 : FVec Ideal S2x3x128x128 .f32) (x4 x5 x6 x7 x8 : FVec Ideal S2x3x128 .f32) : LayerParams 128 128 :=
  params (wmatK2 (wstackA0 x3)) (vecK2 (stackA0 x4)) (vecK2 (stackA0 x5)) (vecK2 (stackA0 x6)) (vecK2 (stackA0 x7)) (vecK2 (stackA0 x8))
def P3 (x3 : FVec Ideal S2x3x128x128 .f32) (x4 x5 x6 x7 x8 : FVec Ideal S2x3x128 .f32) : LayerParams 128 128 :=
  params (wmatK0 (wstackA1 x3)) (vecK0 (stackA1 x4)) (vecK0 (stackA1 x5)) (vecK0 (stackA1 x6)) (vecK0 (stackA1 x7)) (vecK0 (stackA1 x8))
def P4 (x3 : FVec Ideal S2x3x128x128 .f32) (x4 x5 x6 x7 x8 : FVec Ideal S2x3x128 .f32) : LayerParams 128 128 :=
  params (wmatK1 (wstackA1 x3)) (vecK1 (stackA1 x4)) (vecK1 (stackA1 x5)) (vecK1 (stackA1 x6)) (vecK1 (stackA1 x7)) (vecK1 (stackA1 x8))
def P5 (x3 : FVec Ideal S2x3x128x128 .f32) (x4 x5 x6 x7 x8 : FVec Ideal S2x3x128 .f32) : LayerParams 128 128 :=
  params (wmatK2 (wstackA1 x3)) (vecK2 (stackA1 x4)) (vecK2 (stackA1 x5)) (vecK2 (stackA1 x6)) (vecK2 (stackA1 x7)) (vecK2 (stackA1 x8))

/-- The network of this program's argument arrays. -/
def value (x0 : FVec Ideal S100000x128 .f32) (x1 : IVec S2x1600000 32) (x3 : FVec Ideal S2x3x128x128 .f32)
    (x4 x5 x6 x7 x8 : FVec Ideal S2x3x128 .f32) (x9 : FVec Ideal S128x64 .f32) (x10 : FVec Ideal S64 .f32) :
    FVec Ideal S100000x64 .f32 :=
  net (agg x1) (P0 x3 x4 x5 x6 x7 x8) (P1 x3 x4 x5 x6 x7 x8) (P2 x3 x4 x5 x6 x7 x8) (P3 x3 x4 x5 x6 x7 x8)
    (P4 x3 x4 x5 x6 x7 x8) (P5 x3 x4 x5 x6 x7 x8) x9 (fun j => x10 (ix1 j)) x0

end Cert.Gin.Ker

end
-- ==== Proof.KStretchBase.lean ====
/-
  A stretch of host operations leaves every buffer it does not write as it found it: the one step every walk of a
  buffer's contents back through the program repeats, as a tactic.
-/
import Idealize.ShloMosaic.Lib.StableHlo.Run

namespace Cert.Gin.Ker

open Idealize.ShloMosaic

/-- Closes `StableHlo.after ops W (Proc.devRef .tc b) = W (Proc.devRef .tc b)` for a literal list `ops` none of whose
    operations writes `b`: the list is unfolded, each operation's written buffers are read off, and `b` is told apart
    from each by deciding the inequality of the two references. -/
macro "stretch_keeps " ops:ident : tactic =>
  `(tactic| exact StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

end Cert.Gin.Ker
-- ==== Proof.KStretch0.lean ====
/-
  The first stretch of host operations cuts the first branch out of the stacked parameters, aggregates the input
  features over the edges, and cuts the branch's first layer out of the branch; it writes no argument.
-/
import proofs.«114777_j46617575031250_1_alg».proof.Proof.Gen.KernelIdeal.Launch
import proofs.«114777_j46617575031250_1_alg».proof.Proof.Spec
import proofs.«114777_j46617575031250_1_alg».proof.Proof.ParamsKer
import proofs.«114777_j46617575031250_1_alg».proof.Proof.KStretchBase
import Idealize.ShloMosaic.Lib.StableHlo.Run

set_option maxRecDepth 16384

noncomputable section

namespace Cert.Gin.Ker

open Idealize.ShloMosaic Idealize.ShloMosaic.TcCoe Idealize.ShloMosaic.ValueIdx Idealize.SL.Sem Cert.KernelIdeal Cert.KernelIdeal.Gen Cert.Gin

/-- The branch's three weight matrices. -/
theorem s0_v1 (W : Valuation τ sig (Elt Ideal)) :
    StableHlo.after (hostOps0 (F := Ideal)) W (Proc.devRef .tc main_v1)
      = wstackA0 (W (Proc.devRef .tc main_arg3)) := by
  after_results_simp <;> rfl

/-- The branch's three of each of the five parameter vectors. -/
theorem s0_v3 (W : Valuation τ sig (Elt Ideal)) :
    StableHlo.after (hostOps0 (F := Ideal)) W (Proc.devRef .tc main_v3)
      = stackA0 (W (Proc.devRef .tc main_arg4)) := by
  after_results_simp <;> rfl

theorem s0_v5 (W : Valuation τ sig (Elt Ideal)) :
    StableHlo.after (hostOps0 (F := Ideal)) W (Proc.devRef .tc main_v5)
      = stackA0 (W (Proc.devRef .tc main_arg5)) := by
  after_results_simp <;> rfl

theorem s0_v7 (W : Valuation τ sig (Elt Ideal)) :
    StableHlo.after (hostOps0 (F := Ideal)) W (Proc.devRef .tc main_v7)
      = stackA0 (W (Proc.devRef .tc main_arg6)) := by
  after_results_simp <;> rfl

theorem s0_v9 (W : Valuation τ sig (Elt Ideal)) :
    StableHlo.after (hostOps0 (F := Ideal)) W (Proc.devRef .tc main_v9)
      = stackA0 (W (Proc.devRef .tc main_arg7)) := by
  after_results_simp <;> rfl

theorem s0_v11 (W : Valuation τ sig (Elt Ideal)) :
    StableHlo.after (hostOps0 (F := Ideal)) W (Proc.devRef .tc main_v11)
      = stackA0 (W (Proc.devRef .tc main_arg8)) := by
  after_results_simp <;> rfl

/-- The features aggregated over the edges. -/
theorem s0_v26 (W : Valuation τ sig (Elt Ideal)) :
    StableHlo.after (hostOps0 (F := Ideal)) W (Proc.devRef .tc main_v26)
      = agg (W (Proc.devRef .tc main_arg1)) (W (Proc.devRef .tc main_arg0)) := by
  after_results_simp <;> rfl

/-- The first layer's weight matrix. -/
theorem s0_v28 (W : Valuation τ sig (Elt Ideal)) :
    StableHlo.after (hostOps0 (F := Ideal)) W (Proc.devRef .tc main_v28)
      = wmatK0 (wstackA0 (W (Proc.devRef .tc main_arg3))) := by
  after_results_simp <;> rfl

/-- The first layer's five parameter vectors, each laid out as one row. -/
theorem s0_v39 (W : Valuation τ sig (Elt Ideal)) :
    StableHlo.after (hostOps0 (F := Ideal)) W (Proc.devRef .tc main_v39)
      = shapeCast S1x128 (vecK0 (stackA0 (W (Proc.devRef .tc main_arg4)))) shapeCasts_S128_S1x128 := by
  after_results_simp <;> rfl

theorem s0_v40 (W : Valuation τ sig (Elt Ideal)) :
    StableHlo.after (hostOps0 (F := Ideal)) W (Proc.devRef .tc main_v40)
      = shapeCast S1x128 (vecK0 (stackA0 (W (Proc.devRef .tc main_arg5)))) shapeCasts_S128_S1x128 := by
  after_results_simp <;> rfl

theorem s0_v41 (W : Valuation τ sig (Elt Ideal)) :
    StableHlo.after (hostOps0 (F := Ideal)) W (Proc.devRef .tc main_v41)
      = shapeCast S1x128 (vecK0 (stackA0 (W (Proc.devRef .tc main_arg6)))) shapeCasts_S128_S1x128 := by
  after_results_simp <;> rfl

theorem s0_v42 (W : Valuation τ sig (Elt Ideal)) :
    StableHlo.after (hostOps0 (F := Ideal)) W (Proc.devRef .tc main_v42)
      = shapeCast S1x128 (vecK0 (stackA0 (W (Proc.devRef .tc main_arg7)))) shapeCasts_S128_S1x128 := by
  after_results_simp <;> rfl

theorem s0_v43 (W : Valuation τ sig (Elt Ideal)) :
    StableHlo.after (hostOps0 (F := Ideal)) W (Proc.devRef .tc main_v43)
      = shapeCast S1x128 (vecK0 (stackA0 (W (Proc.devRef .tc main_arg8)))) shapeCasts_S128_S1x128 := by
  after_results_simp <;> rfl

/-! What the stretch does not write it keeps. -/

theorem k0_arg1 (W : Valuation τ sig (Elt Ideal)) :
    StableHlo.after (hostOps0 (F := Ideal)) W (Proc.devRef .tc main_arg1) = W (Proc.devRef .tc main_arg1) := by
  stretch_keeps hostOps0

theorem k0_arg3 (W : Valuation τ sig (Elt Ideal)) :
    StableHlo.after (hostOps0 (F := Ideal)) W (Proc.devRef .tc main_arg3) = W (Proc.devRef .tc main_arg3) := by
  stretch_keeps hostOps0

theorem k0_arg4 (W : Valuation τ sig (Elt Ideal)) :
    StableHlo.after (hostOps0 (F := Ideal)) W (Proc.devRef .tc main_arg4) = W (Proc.devRef .tc main_arg4) := by
  stretch_keeps hostOps0

theorem k0_arg5 (W : Valuation τ sig (Elt Ideal)) :
    StableHlo.after (hostOps0 (F := Ideal)) W (Proc.devRef .tc main_arg5) = W (Proc.devRef .tc main_arg5) := by
  stretch_keeps hostOps0

theorem k0_arg6 (W : Valuation τ sig (Elt Ideal)) :
    StableHlo.after (hostOps0 (F := Ideal)) W (Proc.devRef .tc main_arg6) = W (Proc.devRef .tc main_arg6) := by
  stretch_keeps hostOps0

theorem k0_arg7 (W : Valuation τ sig (Elt Ideal)) :
    StableHlo.after (hostOps0 (F := Ideal)) W (Proc.devRef .tc main_arg7) = W (Proc.devRef .tc main_arg7) := by
  stretch_keeps hostOps0

theorem k0_arg8 (W : Valuation τ sig (Elt Ideal)) :
    StableHlo.after (hostOps0 (F := Ideal)) W (Proc.devRef .tc main_arg8) = W (Proc.devRef .tc main_arg8) := by
  stretch_keeps hostOps0

theorem k0_arg9 (W : Valuation τ sig (Elt Ideal)) :
    StableHlo.after (hostOps0 (F := Ideal)) W (Proc.devRef .tc main_arg9) = W (Proc.devRef .tc main_arg9) := by
  stretch_keeps hostOps0

theorem k0_arg10 (W : Valuation τ sig (Elt Ideal)) :
    StableHlo.after (hostOps0 (F := Ideal)) W (Proc.devRef .tc main_arg10) = W (Proc.devRef .tc main_arg10) := by
  stretch_keeps hostOps0

end Cert.Gin.Ker

end
-- ==== Proof.KStretch1.lean ====
/-
  The stretch of host operations before the second region cuts the first branch's second layer out of the branch's
  stacked parameters; it writes neither an argument, nor the first region's result, nor the branch's stacks.
-/
import proofs.«114777_j46617575031250_1_alg».proof.Proof.Gen.KernelIdeal.Launch
import proofs.«114777_j46617575031250_1_alg».proof.Proof.Spec
import proofs.«114777_j46617575031250_1_alg».proof.Proof.ParamsKer
import proofs.«114777_j46617575031250_1_alg».proof.Proof.KStretchBase
import Idealize.ShloMosaic.Lib.StableHlo.Run

set_option maxRecDepth 16384

noncomputable section

namespace Cert.Gin.Ker

open Idealize.ShloMosaic Idealize.ShloMosaic.TcCoe Idealize.ShloMosaic.ValueIdx Idealize.SL.Sem Cert.KernelIdeal Cert.KernelIdeal.Gen Cert.Gin

/-- The layer's weight matrix, cut out of the branch's three. -/
theorem s1_v46 (W : Valuation τ sig (Elt Ideal)) :
    StableHlo.after (hostOps1 (F := Ideal)) W (Proc.devRef .tc main_v46)
      = wmatK1 (W (Proc.devRef .tc main_v1)) := by
  after_results; rfl

/-- The layer's five parameter vectors, each cut out of the branch's three and laid out as one row. -/
theorem s1_v57 (W : Valuation τ sig (Elt Ideal)) :
    StableHlo.after (hostOps1 (F := Ideal)) W (Proc.devRef .tc main_v57)
      = shapeCast S1x128 (vecK1 (W (Proc.devRef .tc main_v3))) shapeCasts_S128_S1x128 := by
  after_results; rfl

theorem s1_v58 (W : Valuation τ sig (Elt Ideal)) :
    StableHlo.after (hostOps1 (F := Ideal)) W (Proc.devRef .tc main_v58)
      = shapeCast S1x128 (vecK1 (W (Proc.devRef .tc main_v5))) shapeCasts_S128_S1x128 := by
  after_results; rfl

theorem s1_v59 (W : Valuation τ sig (Elt Ideal)) :
    StableHlo.after (hostOps1 (F := Ideal)) W (Proc.devRef .tc main_v59)
      = shapeCast S1x128 (vecK1 (W (Proc.devRef .tc main_v7))) shapeCasts_S128_S1x128 := by
  after_results; rfl

theorem s1_v60 (W : Valuation τ sig (Elt Ideal)) :
    StableHlo.after (hostOps1 (F := Ideal)) W (Proc.devRef .tc main_v60)
      = shapeCast S1x128 (vecK1 (W (Proc.devRef .tc main_v9))) shapeCasts_S128_S1x128 := by
  after_results; rfl

theorem s1_v61 (W : Valuation τ sig (Elt Ideal)) :
    StableHlo.after (hostOps1 (F := Ideal)) W (Proc.devRef .tc main_v61)
      = shapeCast S1x128 (vecK1 (W (Proc.devRef .tc main_v11))) shapeCasts_S128_S1x128 := by
  after_results; rfl

/-! What the stretch does not write it keeps. -/

theorem k1_v44 (W : Valuation τ sig (Elt Ideal)) :
    StableHlo.after (hostOps1 (F := Ideal)) W (Proc.devRef .tc main_v44) = W (Proc.devRef .tc main_v44) := by
  stretch_keeps hostOps1

theorem k1_v1 (W : Valuation τ sig (Elt Ideal)) :
    StableHlo.after (hostOps1 (F := Ideal)) W (Proc.devRef .tc main_v1) = W (Proc.devRef .tc main_v1) := by
  stretch_keeps hostOps1

theorem k1_v3 (W : Valuation τ sig (Elt Ideal)) :
    StableHlo.after (hostOps1 (F := Ideal)) W (Proc.devRef .tc main_v3) = W (Proc.devRef .tc main_v3) := by
  stretch_keeps hostOps1

theorem k1_v5 (W : Valuation τ sig (Elt Ideal)) :
    StableHlo.after (hostOps1 (F := Ideal)) W (Proc.devRef .tc main_v5) = W (Proc.devRef .tc main_v5) := by
  stretch_keeps hostOps1

theorem k1_v7 (W : Valuation τ sig (Elt Ideal)) :
    StableHlo.after (hostOps1 (F := Ideal)) W (Proc.devRef .tc main_v7) = W (Proc.devRef .tc main_v7) := by
  stretch_keeps hostOps1

theorem k1_v9 (W : Valuation τ sig (Elt Ideal)) :
    StableHlo.after (hostOps1 (F := Ideal)) W (Proc.devRef .tc main_v9) = W (Proc.devRef .tc main_v9) := by
  stretch_keeps hostOps1

theorem k1_v11 (W : Valuation τ sig (Elt Ideal)) :
    StableHlo.after (hostOps1 (F := Ideal)) W (Proc.devRef .tc main_v11) = W (Proc.devRef .tc main_v11) := by
  stretch_keeps hostOps1

theorem k1_arg1 (W : Valuation τ sig (Elt Ideal)) :
    StableHlo.after (hostOps1 (F := Ideal)) W (Proc.devRef .tc main_arg1) = W (Proc.devRef .tc main_arg1) := by
  stretch_keeps hostOps1

theorem k1_arg3 (W : Valuation τ sig (Elt Ideal)) :
    StableHlo.after (hostOps1 (F := Ideal)) W (Proc.devRef .tc main_arg3) = W (Proc.devRef .tc main_arg3) := by
  stretch_keeps hostOps1

theorem k1_arg4 (W : Valuation τ sig (Elt Ideal)) :
    StableHlo.after (hostOps1 (F := Ideal)) W (Proc.devRef .tc main_arg4) = W (Proc.devRef .tc main_arg4) := by
  stretch_keeps hostOps1

theorem k1_arg5 (W : Valuation τ sig (Elt Ideal)) :
    StableHlo.after (hostOps1 (F := Ideal)) W (Proc.devRef .tc main_arg5) = W (Proc.devRef .tc main_arg5) := by
  stretch_keeps hostOps1

theorem k1_arg6 (W : Valuation τ sig (Elt Ideal)) :
    StableHlo.after (hostOps1 (F := Ideal)) W (Proc.devRef .tc main_arg6) = W (Proc.devRef .tc main_arg6) := by
  stretch_keeps hostOps1

theorem k1_arg7 (W : Valuation τ sig (Elt Ideal)) :
    StableHlo.after (hostOps1 (F := Ideal)) W (Proc.devRef .tc main_arg7) = W (Proc.devRef .tc main_arg7) := by
  stretch_keeps hostOps1

theorem k1_arg8 (W : Valuation τ sig (Elt Ideal)) :
    StableHlo.after (hostOps1 (F := Ideal)) W (Proc.devRef .tc main_arg8) = W (Proc.devRef .tc main_arg8) := by
  stretch_keeps hostOps1

theorem k1_arg9 (W : Valuation τ sig (Elt Ideal)) :
    StableHlo.after (hostOps1 (F := Ideal)) W (Proc.devRef .tc main_arg9) = W (Proc.devRef .tc main_arg9) := by
  stretch_keeps hostOps1

theorem k1_arg10 (W : Valuation τ sig (Elt Ideal)) :
    StableHlo.after (hostOps1 (F := Ideal)) W (Proc.devRef .tc main_arg10) = W (Proc.devRef .tc main_arg10) := by
  stretch_keeps hostOps1

end Cert.Gin.Ker

end
-- ==== Proof.KStretch2.lean ====
/-
  The stretch of host operations before the third region cuts the first branch's third layer out of the branch's
  stacked parameters; it writes neither an argument, nor the second region's result, nor the branch's stacks.
-/
import proofs.«114777_j46617575031250_1_alg».proof.Proof.Gen.KernelIdeal.Launch
import proofs.«114777_j46617575031250_1_alg».proof.Proof.Spec
import proofs.«114777_j46617575031250_1_alg».proof.Proof.ParamsKer
import proofs.«114777_j46617575031250_1_alg».proof.Proof.KStretchBase
import Idealize.ShloMosaic.Lib.StableHlo.Run

set_option maxRecDepth 16384

noncomputable section

namespace Cert.Gin.Ker

open Idealize.ShloMosaic Idealize.ShloMosaic.TcCoe Idealize.ShloMosaic.ValueIdx Idealize.SL.Sem Cert.KernelIdeal Cert.KernelIdeal.Gen Cert.Gin

/-- The layer's weight matrix, cut out of the branch's three. -/
theorem s2_v64 (W : Valuation τ sig (Elt Ideal)) :
    StableHlo.after (hostOps2 (F := Ideal)) W (Proc.devRef .tc main_v64)
      = wmatK2 (W (Proc.devRef .tc main_v1)) := by
  after_results; rfl

/-- The layer's five parameter vectors, each cut out of the branch's three and laid out as one row. -/
theorem s2_v75 (W : Valuation τ sig (Elt Ideal)) :
    StableHlo.after (hostOps2 (F := Ideal)) W (Proc.devRef .tc main_v75)
      = shapeCast S1x128 (vecK2 (W (Proc.devRef .tc main_v3))) shapeCasts_S128_S1x128 := by
  after_results; rfl

theorem s2_v76 (W : Valuation τ sig (Elt Ideal)) :
    StableHlo.after (hostOps2 (F := Ideal)) W (Proc.devRef .tc main_v76)
      = shapeCast S1x128 (vecK2 (W (Proc.devRef .tc main_v5))) shapeCasts_S128_S1x128 := by
  after_results; rfl

theorem s2_v77 (W : Valuation τ sig (Elt Ideal)) :
    StableHlo.after (hostOps2 (F := Ideal)) W (Proc.devRef .tc main_v77)
      = shapeCast S1x128 (vecK2 (W (Proc.devRef .tc main_v7))) shapeCasts_S128_S1x128 := by
  after_results; rfl

theorem s2_v78 (W : Valuation τ sig (Elt Ideal)) :
    StableHlo.after (hostOps2 (F := Ideal)) W (Proc.devRef .tc main_v78)
      = shapeCast S1x128 (vecK2 (W (Proc.devRef .tc main_v9))) shapeCasts_S128_S1x128 := by
  after_results; rfl

theorem s2_v79 (W : Valuation τ sig (Elt Ideal)) :
    StableHlo.after (hostOps2 (F := Ideal)) W (Proc.devRef .tc main_v79)
      = shapeCast S1x128 (vecK2 (W (Proc.devRef .tc main_v11))) shapeCasts_S128_S1x128 := by
  after_results; rfl

/-! What the stretch does not write it keeps. -/

theorem k2_v62 (W : Valuation τ sig (Elt Ideal)) :
    StableHlo.after (hostOps2 (F := Ideal)) W (Proc.devRef .tc main_v62) = W (Proc.devRef .tc main_v62) := by
  stretch_keeps hostOps2

theorem k2_v1 (W : Valuation τ sig (Elt Ideal)) :
    StableHlo.after (hostOps2 (F := Ideal)) W (Proc.devRef .tc main_v1) = W (Proc.devRef .tc main_v1) := by
  stretch_keeps hostOps2

theorem k2_v3 (W : Valuation τ sig (Elt Ideal)) :
    StableHlo.after (hostOps2 (F := Ideal)) W (Proc.devRef .tc main_v3) = W (Proc.devRef .tc main_v3) := by
  stretch_keeps hostOps2

theorem k2_v5 (W : Valuation τ sig (Elt Ideal)) :
    StableHlo.after (hostOps2 (F := Ideal)) W (Proc.devRef .tc main_v5) = W (Proc.devRef .tc main_v5) := by
  stretch_keeps hostOps2

theorem k2_v7 (W : Valuation τ sig (Elt Ideal)) :
    StableHlo.after (hostOps2 (F := Ideal)) W (Proc.devRef .tc main_v7) = W (Proc.devRef .tc main_v7) := by
  stretch_keeps hostOps2

theorem k2_v9 (W : Valuation τ sig (Elt Ideal)) :
    StableHlo.after (hostOps2 (F := Ideal)) W (Proc.devRef .tc main_v9) = W (Proc.devRef .tc main_v9) := by
  stretch_keeps hostOps2

theorem k2_v11 (W : Valuation τ sig (Elt Ideal)) :
    StableHlo.after (hostOps2 (F := Ideal)) W (Proc.devRef .tc main_v11) = W (Proc.devRef .tc main_v11) := by
  stretch_keeps hostOps2

theorem k2_arg1 (W : Valuation τ sig (Elt Ideal)) :
    StableHlo.after (hostOps2 (F := Ideal)) W (Proc.devRef .tc main_arg1) = W (Proc.devRef .tc main_arg1) := by
  stretch_keeps hostOps2

theorem k2_arg3 (W : Valuation τ sig (Elt Ideal)) :
    StableHlo.after (hostOps2 (F := Ideal)) W (Proc.devRef .tc main_arg3) = W (Proc.devRef .tc main_arg3) := by
  stretch_keeps hostOps2

theorem k2_arg4 (W : Valuation τ sig (Elt Ideal)) :
    StableHlo.after (hostOps2 (F := Ideal)) W (Proc.devRef .tc main_arg4) = W (Proc.devRef .tc main_arg4) := by
  stretch_keeps hostOps2

theorem k2_arg5 (W : Valuation τ sig (Elt Ideal)) :
    StableHlo.after (hostOps2 (F := Ideal)) W (Proc.devRef .tc main_arg5) = W (Proc.devRef .tc main_arg5) := by
  stretch_keeps hostOps2

theorem k2_arg6 (W : Valuation τ sig (Elt Ideal)) :
    StableHlo.after (hostOps2 (F := Ideal)) W (Proc.devRef .tc main_arg6) = W (Proc.devRef .tc main_arg6) := by
  stretch_keeps hostOps2

theorem k2_arg7 (W : Valuation τ sig (Elt Ideal)) :
    StableHlo.after (hostOps2 (F := Ideal)) W (Proc.devRef .tc main_arg7) = W (Proc.devRef .tc main_arg7) := by
  stretch_keeps hostOps2

theorem k2_arg8 (W : Valuation τ sig (Elt Ideal)) :
    StableHlo.after (hostOps2 (F := Ideal)) W (Proc.devRef .tc main_arg8) = W (Proc.devRef .tc main_arg8) := by
  stretch_keeps hostOps2

theorem k2_arg9 (W : Valuation τ sig (Elt Ideal)) :
    StableHlo.after (hostOps2 (F := Ideal)) W (Proc.devRef .tc main_arg9) = W (Proc.devRef .tc main_arg9) := by
  stretch_keeps hostOps2

theorem k2_arg10 (W : Valuation τ sig (Elt Ideal)) :
    StableHlo.after (hostOps2 (F := Ideal)) W (Proc.devRef .tc main_arg10) = W (Proc.devRef .tc main_arg10) := by
  stretch_keeps hostOps2

end Cert.Gin.Ker

end
-- ==== Proof.KStretch3.lean ====
/-
  The stretch of host operations before the fourth region cuts the second branch out of the stacked parameters,
  aggregates the third region's result over the edges, and cuts the branch's first layer out of the branch; it writes
  no argument.
-/
import proofs.«114777_j46617575031250_1_alg».proof.Proof.Gen.KernelIdeal.Launch
import proofs.«114777_j46617575031250_1_alg».proof.Proof.Spec
import proofs.«114777_j46617575031250_1_alg».proof.Proof.ParamsKer
import proofs.«114777_j46617575031250_1_alg».proof.Proof.KStretchBase
import Idealize.ShloMosaic.Lib.StableHlo.Run

set_option maxRecDepth 16384

noncomputable section

namespace Cert.Gin.Ker

open Idealize.ShloMosaic Idealize.ShloMosaic.TcCoe Idealize.ShloMosaic.ValueIdx Idealize.SL.Sem Cert.KernelIdeal Cert.KernelIdeal.Gen Cert.Gin

/-- The branch's three weight matrices. -/
theorem s3_v82 (W : Valuation τ sig (Elt Ideal)) :
    StableHlo.after (hostOps3 (F := Ideal)) W (Proc.devRef .tc main_v82)
      = wstackA1 (W (Proc.devRef .tc main_arg3)) := by
  after_results_simp <;> rfl

/-- The branch's three of each of the five parameter vectors. -/
theorem s3_v84 (W : Valuation τ sig (Elt Ideal)) :
    StableHlo.after (hostOps3 (F := Ideal)) W (Proc.devRef .tc main_v84)
      = stackA1 (W (Proc.devRef .tc main_arg4)) := by
  after_results_simp <;> rfl

theorem s3_v86 (W : Valuation τ sig (Elt Ideal)) :
    StableHlo.after (hostOps3 (F := Ideal)) W (Proc.devRef .tc main_v86)
      = stackA1 (W (Proc.devRef .tc main_arg5)) := by
  after_results_simp <;> rfl

theorem s3_v88 (W : Valuation τ sig (Elt Ideal)) :
    StableHlo.after (hostOps3 (F := Ideal)) W (Proc.devRef .tc main_v88)
      = stackA1 (W (Proc.devRef .tc main_arg6)) := by
  after_results_simp <;> rfl

theorem s3_v90 (W : Valuation τ sig (Elt Ideal)) :
    StableHlo.after (hostOps3 (F := Ideal)) W (Proc.devRef .tc main_v90)
      = stackA1 (W (Proc.devRef .tc main_arg7)) := by
  after_results_simp <;> rfl

theorem s3_v92 (W : Valuation τ sig (Elt Ideal)) :
    StableHlo.after (hostOps3 (F := Ideal)) W (Proc.devRef .tc main_v92)
      = stackA1 (W (Proc.devRef .tc main_arg8)) := by
  after_results_simp <;> rfl

/-- The features aggregated over the edges. -/
theorem s3_v107 (W : Valuation τ sig (Elt Ideal)) :
    StableHlo.after (hostOps3 (F := Ideal)) W (Proc.devRef .tc main_v107)
      = agg (W (Proc.devRef .tc main_arg1)) (W (Proc.devRef .tc main_v80)) := by
  after_results_simp <;> rfl

/-- The first layer's weight matrix. -/
theorem s3_v109 (W : Valuation τ sig (Elt Ideal)) :
    StableHlo.after (hostOps3 (F := Ideal)) W (Proc.devRef .tc main_v109)
      = wmatK0 (wstackA1 (W (Proc.devRef .tc main_arg3))) := by
  after_results_simp <;> rfl

/-- The first layer's five parameter vectors, each laid out as one row. -/
theorem s3_v120 (W : Valuation τ sig (Elt Ideal)) :
    StableHlo.after (hostOps3 (F := Ideal)) W (Proc.devRef .tc main_v120)
      = shapeCast S1x128 (vecK0 (stackA1 (W (Proc.devRef .tc main_arg4)))) shapeCasts_S128_S1x128 := by
  after_results_simp <;> rfl

theorem s3_v121 (W : Valuation τ sig (Elt Ideal)) :
    StableHlo.after (hostOps3 (F := Ideal)) W (Proc.devRef .tc main_v121)
      = shapeCast S1x128 (vecK0 (stackA1 (W (Proc.devRef .tc main_arg5)))) shapeCasts_S128_S1x128 := by
  after_results_simp <;> rfl

theorem s3_v122 (W : Valuation τ sig (Elt Ideal)) :
    StableHlo.after (hostOps3 (F := Ideal)) W (Proc.devRef .tc main_v122)
      = shapeCast S1x128 (vecK0 (stackA1 (W (Proc.devRef .tc main_arg6)))) shapeCasts_S128_S1x128 := by
  after_results_simp <;> rfl

theorem s3_v123 (W : Valuation τ sig (Elt Ideal)) :
    StableHlo.after (hostOps3 (F := Ideal)) W (Proc.devRef .tc main_v123)
      = shapeCast S1x128 (vecK0 (stackA1 (W (Proc.devRef .tc main_arg7)))) shapeCasts_S128_S1x128 := by
  after_results_simp <;> rfl

theorem s3_v124 (W : Valuation τ sig (Elt Ideal)) :
    StableHlo.after (hostOps3 (F := Ideal)) W (Proc.devRef .tc main_v124)
      = shapeCast S1x128 (vecK0 (stackA1 (W (Proc.devRef .tc main_arg8)))) shapeCasts_S128_S1x128 := by
  after_results_simp <;> rfl

/-! What the stretch does not write it keeps. -/

theorem k3_arg9 (W : Valuation τ sig (Elt Ideal)) :
    StableHlo.after (hostOps3 (F := Ideal)) W (Proc.devRef .tc main_arg9) = W (Proc.devRef .tc main_arg9) := by
  stretch_keeps hostOps3

theorem k3_arg10 (W : Valuation τ sig (Elt Ideal)) :
    StableHlo.after (hostOps3 (F := Ideal)) W (Proc.devRef .tc main_arg10) = W (Proc.devRef .tc main_arg10) := by
  stretch_keeps hostOps3

end Cert.Gin.Ker

end
-- ==== Proof.KStretch4.lean ====
/-
  The stretch of host operations before the fifth region cuts the second branch's second layer out of the branch's
  stacked parameters; it writes neither an argument, nor the fourth region's result, nor the branch's stacks.
-/
import proofs.«114777_j46617575031250_1_alg».proof.Proof.Gen.KernelIdeal.Launch
import proofs.«114777_j46617575031250_1_alg».proof.Proof.Spec
import proofs.«114777_j46617575031250_1_alg».proof.Proof.ParamsKer
import proofs.«114777_j46617575031250_1_alg».proof.Proof.KStretchBase
import Idealize.ShloMosaic.Lib.StableHlo.Run

set_option maxRecDepth 16384

noncomputable section

namespace Cert.Gin.Ker

open Idealize.ShloMosaic Idealize.ShloMosaic.TcCoe Idealize.ShloMosaic.ValueIdx Idealize.SL.Sem Cert.KernelIdeal Cert.KernelIdeal.Gen Cert.Gin

/-- The layer's weight matrix, cut out of the branch's three. -/
theorem s4_v127 (W : Valuation τ sig (Elt Ideal)) :
    StableHlo.after (hostOps4 (F := Ideal)) W (Proc.devRef .tc main_v127)
      = wmatK1 (W (Proc.devRef .tc main_v82)) := by
  after_results; rfl

/-- The layer's five parameter vectors, each cut out of the branch's three and laid out as one row. -/
theorem s4_v138 (W : Valuation τ sig (Elt Ideal)) :
    StableHlo.after (hostOps4 (F := Ideal)) W (Proc.devRef .tc main_v138)
      = shapeCast S1x128 (vecK1 (W (Proc.devRef .tc main_v84))) shapeCasts_S128_S1x128 := by
  after_results; rfl

theorem s4_v139 (W : Valuation τ sig (Elt Ideal)) :
    StableHlo.after (hostOps4 (F := Ideal)) W (Proc.devRef .tc main_v139)
      = shapeCast S1x128 (vecK1 (W (Proc.devRef .tc main_v86))) shapeCasts_S128_S1x128 := by
  after_results; rfl

theorem s4_v140 (W : Valuation τ sig (Elt Ideal)) :
    StableHlo.after (hostOps4 (F := Ideal)) W (Proc.devRef .tc main_v140)
      = shapeCast S1x128 (vecK1 (W (Proc.devRef .tc main_v88))) shapeCasts_S128_S1x128 := by
  after_results; rfl

theorem s4_v141 (W : Valuation τ sig (Elt Ideal)) :
    StableHlo.after (hostOps4 (F := Ideal)) W (Proc.devRef .tc main_v141)
      = shapeCast S1x128 (vecK1 (W (Proc.devRef .tc main_v90))) shapeCasts_S128_S1x128 := by
  after_results; rfl

theorem s4_v142 (W : Valuation τ sig (Elt Ideal)) :
    StableHlo.after (hostOps4 (F := Ideal)) W (Proc.devRef .tc main_v142)
      = shapeCast S1x128 (vecK1 (W (Proc.devRef .tc main_v92))) shapeCasts_S128_S1x128 := by
  after_results; rfl

/-! What the stretch does not write it keeps. -/

theorem k4_v125 (W : Valuation τ sig (Elt Ideal)) :
    StableHlo.after (hostOps4 (F := Ideal)) W (Proc.devRef .tc main_v125) = W (Proc.devRef .tc main_v125) := by
  stretch_keeps hostOps4

theorem k4_v82 (W : Valuation τ sig (Elt Ideal)) :
    StableHlo.after (hostOps4 (F := Ideal)) W (Proc.devRef .tc main_v82) = W (Proc.devRef .tc main_v82) := by
  stretch_keeps hostOps4

theorem k4_v84 (W : Valuation τ sig (Elt Ideal)) :
    StableHlo.after (hostOps4 (F := Ideal)) W (Proc.devRef .tc main_v84) = W (Proc.devRef .tc main_v84) := by
  stretch_keeps hostOps4

theorem k4_v86 (W : Valuation τ sig (Elt Ideal)) :
    StableHlo.after (hostOps4 (F := Ideal)) W (Proc.devRef .tc main_v86) = W (Proc.devRef .tc main_v86) := by
  stretch_keeps hostOps4

theorem k4_v88 (W : Valuation τ sig (Elt Ideal)) :
    StableHlo.after (hostOps4 (F := Ideal)) W (Proc.devRef .tc main_v88) = W (Proc.devRef .tc main_v88) := by
  stretch_keeps hostOps4

theorem k4_v90 (W : Valuation τ sig (Elt Ideal)) :
    StableHlo.after (hostOps4 (F := Ideal)) W (Proc.devRef .tc main_v90) = W (Proc.devRef .tc main_v90) := by
  stretch_keeps hostOps4

theorem k4_v92 (W : Valuation τ sig (Elt Ideal)) :
    StableHlo.after (hostOps4 (F := Ideal)) W (Proc.devRef .tc main_v92) = W (Proc.devRef .tc main_v92) := by
  stretch_keeps hostOps4

theorem k4_arg9 (W : Valuation τ sig (Elt Ideal)) :
    StableHlo.after (hostOps4 (F := Ideal)) W (Proc.devRef .tc main_arg9) = W (Proc.devRef .tc main_arg9) := by
  stretch_keeps hostOps4

theorem k4_arg10 (W : Valuation τ sig (Elt Ideal)) :
    StableHlo.after (hostOps4 (F := Ideal)) W (Proc.devRef .tc main_arg10) = W (Proc.devRef .tc main_arg10) := by
  stretch_keeps hostOps4

end Cert.Gin.Ker

end
-- ==== Proof.KStretch5.lean ====
/-
  The stretch of host operations before the sixth region cuts the second branch's third layer out of the branch's
  stacked parameters; it writes neither an argument, nor the fifth region's result, nor the branch's stacks.
-/
import proofs.«114777_j46617575031250_1_alg».proof.Proof.Gen.KernelIdeal.Launch
import proofs.«114777_j46617575031250_1_alg».proof.Proof.Spec
import proofs.«114777_j46617575031250_1_alg».proof.Proof.ParamsKer
import proofs.«114777_j46617575031250_1_alg».proof.Proof.KStretchBase
import Idealize.ShloMosaic.Lib.StableHlo.Run

set_option maxRecDepth 16384

noncomputable section

namespace Cert.Gin.Ker

open Idealize.ShloMosaic Idealize.ShloMosaic.TcCoe Idealize.ShloMosaic.ValueIdx Idealize.SL.Sem Cert.KernelIdeal Cert.KernelIdeal.Gen Cert.Gin

/-- The layer's weight matrix, cut out of the branch's three. -/
theorem s5_v145 (W : Valuation τ sig (Elt Ideal)) :
    StableHlo.after (hostOps5 (F := Ideal)) W (Proc.devRef .tc main_v145)
      = wmatK2 (W (Proc.devRef .tc main_v82)) := by
  after_results; rfl

/-- The layer's five parameter vectors, each cut out of the branch's three and laid out as one row. -/
theorem s5_v156 (W : Valuation τ sig (Elt Ideal)) :
    StableHlo.after (hostOps5 (F := Ideal)) W (Proc.devRef .tc main_v156)
      = shapeCast S1x128 (vecK2 (W (Proc.devRef .tc main_v84))) shapeCasts_S128_S1x128 := by
  after_results; rfl

theorem s5_v157 (W : Valuation τ sig (Elt Ideal)) :
    StableHlo.after (hostOps5 (F := Ideal)) W (Proc.devRef .tc main_v157)
      = shapeCast S1x128 (vecK2 (W (Proc.devRef .tc main_v86))) shapeCasts_S128_S1x128 := by
  after_results; rfl

theorem s5_v158 (W : Valuation τ sig (Elt Ideal)) :
    StableHlo.after (hostOps5 (F := Ideal)) W (Proc.devRef .tc main_v158)
      = shapeCast S1x128 (vecK2 (W (Proc.devRef .tc main_v88))) shapeCasts_S128_S1x128 := by
  after_results; rfl

theorem s5_v159 (W : Valuation τ sig (Elt Ideal)) :
    StableHlo.after (hostOps5 (F := Ideal)) W (Proc.devRef .tc main_v159)
      = shapeCast S1x128 (vecK2 (W (Proc.devRef .tc main_v90))) shapeCasts_S128_S1x128 := by
  after_results; rfl

theorem s5_v160 (W : Valuation τ sig (Elt Ideal)) :
    StableHlo.after (hostOps5 (F := Ideal)) W (Proc.devRef .tc main_v160)
      = shapeCast S1x128 (vecK2 (W (Proc.devRef .tc main_v92))) shapeCasts_S128_S1x128 := by
  after_results; rfl

/-! What the stretch does not write it keeps. -/

theorem k5_v143 (W : Valuation τ sig (Elt Ideal)) :
    StableHlo.after (hostOps5 (F := Ideal)) W (Proc.devRef .tc main_v143) = W (Proc.devRef .tc main_v143) := by
  stretch_keeps hostOps5

theorem k5_v82 (W : Valuation τ sig (Elt Ideal)) :
    StableHlo.after (hostOps5 (F := Ideal)) W (Proc.devRef .tc main_v82) = W (Proc.devRef .tc main_v82) := by
  stretch_keeps hostOps5

theorem k5_v84 (W : Valuation τ sig (Elt Ideal)) :
    StableHlo.after (hostOps5 (F := Ideal)) W (Proc.devRef .tc main_v84) = W (Proc.devRef .tc main_v84) := by
  stretch_keeps hostOps5

theorem k5_v86 (W : Valuation τ sig (Elt Ideal)) :
    StableHlo.after (hostOps5 (F := Ideal)) W (Proc.devRef .tc main_v86) = W (Proc.devRef .tc main_v86) := by
  stretch_keeps hostOps5

theorem k5_v88 (W : Valuation τ sig (Elt Ideal)) :
    StableHlo.after (hostOps5 (F := Ideal)) W (Proc.devRef .tc main_v88) = W (Proc.devRef .tc main_v88) := by
  stretch_keeps hostOps5

theorem k5_v90 (W : Valuation τ sig (Elt Ideal)) :
    StableHlo.after (hostOps5 (F := Ideal)) W (Proc.devRef .tc main_v90) = W (Proc.devRef .tc main_v90) := by
  stretch_keeps hostOps5

theorem k5_v92 (W : Valuation τ sig (Elt Ideal)) :
    StableHlo.after (hostOps5 (F := Ideal)) W (Proc.devRef .tc main_v92) = W (Proc.devRef .tc main_v92) := by
  stretch_keeps hostOps5

theorem k5_arg9 (W : Valuation τ sig (Elt Ideal)) :
    StableHlo.after (hostOps5 (F := Ideal)) W (Proc.devRef .tc main_arg9) = W (Proc.devRef .tc main_arg9) := by
  stretch_keeps hostOps5

theorem k5_arg10 (W : Valuation τ sig (Elt Ideal)) :
    StableHlo.after (hostOps5 (F := Ideal)) W (Proc.devRef .tc main_arg10) = W (Proc.devRef .tc main_arg10) := by
  stretch_keeps hostOps5

end Cert.Gin.Ker

end
-- ==== Proof.KStretch6.lean ====
/-
  The last stretch of host operations lays the last bias vector out as one row and writes nothing else.
-/
import proofs.«114777_j46617575031250_1_alg».proof.Proof.Gen.KernelIdeal.Launch
import proofs.«114777_j46617575031250_1_alg».proof.Proof.Spec
import proofs.«114777_j46617575031250_1_alg».proof.Proof.ParamsKer
import proofs.«114777_j46617575031250_1_alg».proof.Proof.KStretchBase
import Idealize.ShloMosaic.Lib.StableHlo.Run

set_option maxRecDepth 16384

noncomputable section

namespace Cert.Gin.Ker

open Idealize.ShloMosaic Idealize.ShloMosaic.TcCoe Idealize.ShloMosaic.ValueIdx Idealize.SL.Sem Cert.KernelIdeal Cert.KernelIdeal.Gen Cert.Gin

/-- The last bias as one row. -/
theorem s6_v162 (W : Valuation τ sig (Elt Ideal)) :
    StableHlo.after (hostOps6 (F := Ideal)) W (Proc.devRef .tc main_v162)
      = shapeCast S1x64 (W (Proc.devRef .tc main_arg10)) shapeCasts_S64_S1x64 := by
  after_results; rfl

theorem k6_v161 (W : Valuation τ sig (Elt Ideal)) :
    StableHlo.after (hostOps6 (F := Ideal)) W (Proc.devRef .tc main_v161) = W (Proc.devRef .tc main_v161) := by
  stretch_keeps hostOps6

theorem k6_arg9 (W : Valuation τ sig (Elt Ideal)) :
    StableHlo.after (hostOps6 (F := Ideal)) W (Proc.devRef .tc main_arg9) = W (Proc.devRef .tc main_arg9) := by
  stretch_keeps hostOps6

end Cert.Gin.Ker

end
-- ==== Proof.KEntry.lean ====
/-
  What each of the seven kernel regions finds in its operand arrays when it is entered, as functions of the argument
  arrays and of what the previous region left: the host operations between the regions only cut the layer's weight
  matrix and parameter vectors out of the stacked arguments (and, before the first and the fourth region, aggregate the
  features over the edges); no host operation and no region writes an argument or an earlier region's result.
-/
import proofs.«114777_j46617575031250_1_alg».proof.Proof.Gen.KernelIdeal.Frame
import proofs.«114777_j46617575031250_1_alg».proof.Proof.Spec
import proofs.«114777_j46617575031250_1_alg».proof.Proof.ParamsKer
import Idealize.ShloMosaic.Lib.StableHlo.Run
import proofs.«114777_j46617575031250_1_alg».proof.Proof.KStretch0
import proofs.«114777_j46617575031250_1_alg».proof.Proof.KStretch1
import proofs.«114777_j46617575031250_1_alg».proof.Proof.KStretch2
import proofs.«114777_j46617575031250_1_alg».proof.Proof.KStretch3
import proofs.«114777_j46617575031250_1_alg».proof.Proof.KStretch4
import proofs.«114777_j46617575031250_1_alg».proof.Proof.KStretch5
import proofs.«114777_j46617575031250_1_alg».proof.Proof.KStretch6

set_option maxRecDepth 16384

noncomputable section

namespace Cert.Gin.Ker

open Idealize.ShloMosaic Idealize.ShloMosaic.TcCoe Idealize.ShloMosaic.ValueIdx Idealize.SL.Sem Cert.KernelIdeal Cert.KernelIdeal.Gen Cert.Gin

/-- A parameter vector laid out as the one-row matrix a region's window stages. -/
def row (x : FVec Ideal S128 .f32) : FVec Ideal S1x128 .f32 := shapeCast S1x128 x shapeCasts_S128_S1x128

variable (m : (ℓ : Loc nD τ sig) → Buf (Elt Ideal) ℓ) (ρ : Dev nD → PrngReg) (c : Dev nD)

/-! ## The steps of a walk

A buffer's contents at a boundary are read back to an earlier boundary one region and one stretch at a time: a region
leaves every buffer that is not one of its arrays as it found it, and so does a stretch every buffer it does not write. -/

/-- The stretch `ops` writes no operation's result into `b`. -/
abbrev Kept (ops : List (HloOp τ sig (Elt Ideal))) (b : Ref sig .tc) : Prop :=
  ∀ W : Valuation τ sig (Elt Ideal), StableHlo.after ops W (Proc.devRef .tc b) = W (Proc.devRef .tc b)

section Steps

variable (b : Ref sig .tc)

/-- After the first stretch a buffer it does not write holds its launch contents. -/
theorem kept_at1 (k : Kept (hostOps0 (F := Ideal)) b) :
    W1 m ρ c (Proc.devRef .tc b) = m ((c : Thread nD τ).loc b) := (k _).trans rfl

/-- Through region 0 and the stretch after it. -/
theorem thru1 (r : ∀ w, Pipeline.arrRef spec0 w ≠ b) (k : Kept (hostOps1 (F := Ideal)) b) :
    W3 m ρ c (Proc.devRef .tc b) = W1 m ρ c (Proc.devRef .tc b) :=
  (k _).trans (W2_of_ne m ρ c b r)

/-- Through region 1 and the stretch after it. -/
theorem thru2 (r : ∀ w, Pipeline.arrRef spec1 w ≠ b) (k : Kept (hostOps2 (F := Ideal)) b) :
    W5 m ρ c (Proc.devRef .tc b) = W3 m ρ c (Proc.devRef .tc b) :=
  (k _).trans (W4_of_ne m ρ c b r)

/-- Through region 2 and the stretch after it. -/
theorem thru3 (r : ∀ w, Pipeline.arrRef spec2 w ≠ b) (k : Kept (hostOps3 (F := Ideal)) b) :
    W7 m ρ c (Proc.devRef .tc b) = W5 m ρ c (Proc.devRef .tc b) :=
  (k _).trans (W6_of_ne m ρ c b r)

/-- Through region 3 and the stretch after it. -/
theorem thru4 (r : ∀ w, Pipeline.arrRef spec3 w ≠ b) (k : Kept (hostOps4 (F := Ideal)) b) :
    W9 m ρ c (Proc.devRef .tc b) = W7 m ρ c (Proc.devRef .tc b) :=
  (k _).trans (W8_of_ne m ρ c b r)

/-- Through region 4 and the stretch after it. -/
theorem thru5 (r : ∀ w, Pipeline.arrRef spec4 w ≠ b) (k : Kept (hostOps5 (F := Ideal)) b) :
    W11 m ρ c (Proc.devRef .tc b) = W9 m ρ c (Proc.devRef .tc b) :=
  (k _).trans (W10_of_ne m ρ c b r)

/-- Through region 5 and the stretch after it. -/
theorem thru6 (r : ∀ w, Pipeline.arrRef spec5 w ≠ b) (k : Kept (hostOps6 (F := Ideal)) b) :
    W13 m ρ c (Proc.devRef .tc b) = W11 m ρ c (Proc.devRef .tc b) :=
  (k _).trans (W12_of_ne m ρ c b r)

/-- A buffer nothing writes up to the third region's entry holds its launch contents there … -/
theorem arg_at5 (k0 : Kept (hostOps0 (F := Ideal)) b) (k1 : Kept (hostOps1 (F := Ideal)) b) (k2 : Kept (hostOps2 (F := Ideal)) b)
    (r0 : ∀ w, Pipeline.arrRef spec0 w ≠ b) (r1 : ∀ w, Pipeline.arrRef spec1 w ≠ b) :
    W5 m ρ c (Proc.devRef .tc b) = m ((c : Thread nD τ).loc b) :=
  (thru2 m ρ c b r1 k2).trans ((thru1 m ρ c b r0 k1).trans (kept_at1 m ρ c b k0))

/-- … and at the third region's exit. -/
theorem arg_at6 (k0 : Kept (hostOps0 (F := Ideal)) b) (k1 : Kept (hostOps1 (F := Ideal)) b) (k2 : Kept (hostOps2 (F := Ideal)) b)
    (r0 : ∀ w, Pipeline.arrRef spec0 w ≠ b) (r1 : ∀ w, Pipeline.arrRef spec1 w ≠ b) (r2 : ∀ w, Pipeline.arrRef spec2 w ≠ b) :
    W6 m ρ c (Proc.devRef .tc b) = m ((c : Thread nD τ).loc b) :=
  (W6_of_ne m ρ c b r2).trans (arg_at5 m ρ c b k0 k1 k2 r0 r1)

/-- A buffer nothing writes up to the sixth region's exit holds its launch contents there. -/
theorem arg_at12 (k0 : Kept (hostOps0 (F := Ideal)) b) (k1 : Kept (hostOps1 (F := Ideal)) b) (k2 : Kept (hostOps2 (F := Ideal)) b)
    (k3 : Kept (hostOps3 (F := Ideal)) b) (k4 : Kept (hostOps4 (F := Ideal)) b) (k5 : Kept (hostOps5 (F := Ideal)) b)
    (r0 : ∀ w, Pipeline.arrRef spec0 w ≠ b) (r1 : ∀ w, Pipeline.arrRef spec1 w ≠ b) (r2 : ∀ w, Pipeline.arrRef spec2 w ≠ b)
    (r3 : ∀ w, Pipeline.arrRef spec3 w ≠ b) (r4 : ∀ w, Pipeline.arrRef spec4 w ≠ b) (r5 : ∀ w, Pipeline.arrRef spec5 w ≠ b) :
    W12 m ρ c (Proc.devRef .tc b) = m ((c : Thread nD τ).loc b) :=
  (W12_of_ne m ρ c b r5).trans ((thru5 m ρ c b r4 k5).trans ((thru4 m ρ c b r3 k4).trans ((thru3 m ρ c b r2 k3).trans
    (arg_at5 m ρ c b k0 k1 k2 r0 r1))))

end Steps

/-! ## The arguments, where the stretches read them -/

theorem arg1_at6 : W6 m ρ c (Proc.devRef .tc main_arg1) = m ((c : Thread nD τ).loc main_arg1) :=
  arg_at6 m ρ c main_arg1 k0_arg1 k1_arg1 k2_arg1 (by decide) (by decide) (by decide)
theorem arg3_at6 : W6 m ρ c (Proc.devRef .tc main_arg3) = m ((c : Thread nD τ).loc main_arg3) :=
  arg_at6 m ρ c main_arg3 k0_arg3 k1_arg3 k2_arg3 (by decide) (by decide) (by decide)
theorem arg4_at6 : W6 m ρ c (Proc.devRef .tc main_arg4) = m ((c : Thread nD τ).loc main_arg4) :=
  arg_at6 m ρ c main_arg4 k0_arg4 k1_arg4 k2_arg4 (by decide) (by decide) (by decide)
theorem arg5_at6 : W6 m ρ c (Proc.devRef .tc main_arg5) = m ((c : Thread nD τ).loc main_arg5) :=
  arg_at6 m ρ c main_arg5 k0_arg5 k1_arg5 k2_arg5 (by decide) (by decide) (by decide)
theorem arg6_at6 : W6 m ρ c (Proc.devRef .tc main_arg6) = m ((c : Thread nD τ).loc main_arg6) :=
  arg_at6 m ρ c main_arg6 k0_arg6 k1_arg6 k2_arg6 (by decide) (by decide) (by decide)
theorem arg7_at6 : W6 m ρ c (Proc.devRef .tc main_arg7) = m ((c : Thread nD τ).loc main_arg7) :=
  arg_at6 m ρ c main_arg7 k0_arg7 k1_arg7 k2_arg7 (by decide) (by decide) (by decide)
theorem arg8_at6 : W6 m ρ c (Proc.devRef .tc main_arg8) = m ((c : Thread nD τ).loc main_arg8) :=
  arg_at6 m ρ c main_arg8 k0_arg8 k1_arg8 k2_arg8 (by decide) (by decide) (by decide)
theorem arg9_at12 : W12 m ρ c (Proc.devRef .tc main_arg9) = m ((c : Thread nD τ).loc main_arg9) :=
  arg_at12 m ρ c main_arg9 k0_arg9 k1_arg9 k2_arg9 k3_arg9 k4_arg9 k5_arg9 (by decide) (by decide) (by decide) (by decide) (by decide) (by decide)
theorem arg10_at12 : W12 m ρ c (Proc.devRef .tc main_arg10) = m ((c : Thread nD τ).loc main_arg10) :=
  arg_at12 m ρ c main_arg10 k0_arg10 k1_arg10 k2_arg10 k3_arg10 k4_arg10 k5_arg10 (by decide) (by decide) (by decide) (by decide) (by decide) (by decide)

/-! ## The first branch's stacks, cut by the first stretch and read by the two after it -/

theorem v1_at1 : W1 m ρ c (Proc.devRef .tc main_v1) = wstackA0 (m ((c : Thread nD τ).loc main_arg3)) := s0_v1 _
theorem v1_at2 : W2 m ρ c (Proc.devRef .tc main_v1) = wstackA0 (m ((c : Thread nD τ).loc main_arg3)) :=
  (W2_of_ne m ρ c main_v1 (by decide)).trans (v1_at1 m ρ c)
theorem v1_at4 : W4 m ρ c (Proc.devRef .tc main_v1) = wstackA0 (m ((c : Thread nD τ).loc main_arg3)) :=
  (W4_of_ne m ρ c main_v1 (by decide)).trans ((thru1 m ρ c main_v1 (by decide) k1_v1).trans (v1_at1 m ρ c))
theorem v3_at1 : W1 m ρ c (Proc.devRef .tc main_v3) = stackA0 (m ((c : Thread nD τ).loc main_arg4)) := s0_v3 _
theorem v3_at2 : W2 m ρ c (Proc.devRef .tc main_v3) = stackA0 (m ((c : Thread nD τ).loc main_arg4)) :=
  (W2_of_ne m ρ c main_v3 (by decide)).trans (v3_at1 m ρ c)
theorem v3_at4 : W4 m ρ c (Proc.devRef .tc main_v3) = stackA0 (m ((c : Thread nD τ).loc main_arg4)) :=
  (W4_of_ne m ρ c main_v3 (by decide)).trans ((thru1 m ρ c main_v3 (by decide) k1_v3).trans (v3_at1 m ρ c))
theorem v5_at1 : W1 m ρ c (Proc.devRef .tc main_v5) = stackA0 (m ((c : Thread nD τ).loc main_arg5)) := s0_v5 _
theorem v5_at2 : W2 m ρ c (Proc.devRef .tc main_v5) = stackA0 (m ((c : Thread nD τ).loc main_arg5)) :=
  (W2_of_ne m ρ c main_v5 (by decide)).trans (v5_at1 m ρ c)
theorem v5_at4 : W4 m ρ c (Proc.devRef .tc main_v5) = stackA0 (m ((c : Thread nD τ).loc main_arg5)) :=
  (W4_of_ne m ρ c main_v5 (by decide)).trans ((thru1 m ρ c main_v5 (by decide) k1_v5).trans (v5_at1 m ρ c))
theorem v7_at1 : W1 m ρ c (Proc.devRef .tc main_v7) = stackA0 (m ((c : Thread nD τ).loc main_arg6)) := s0_v7 _
theorem v7_at2 : W2 m ρ c (Proc.devRef .tc main_v7) = stackA0 (m ((c : Thread nD τ).loc main_arg6)) :=
  (W2_of_ne m ρ c main_v7 (by decide)).trans (v7_at1 m ρ c)
theorem v7_at4 : W4 m ρ c (Proc.devRef .tc main_v7) = stackA0 (m ((c : Thread nD τ).loc main_arg6)) :=
  (W4_of_ne m ρ c main_v7 (by decide)).trans ((thru1 m ρ c main_v7 (by decide) k1_v7).trans (v7_at1 m ρ c))
theorem v9_at1 : W1 m ρ c (Proc.devRef .tc main_v9) = stackA0 (m ((c : Thread nD τ).loc main_arg7)) := s0_v9 _
theorem v9_at2 : W2 m ρ c (Proc.devRef .tc main_v9) = stackA0 (m ((c : Thread nD τ).loc main_arg7)) :=
  (W2_of_ne m ρ c main_v9 (by decide)).trans (v9_at1 m ρ c)
theorem v9_at4 : W4 m ρ c (Proc.devRef .tc main_v9) = stackA0 (m ((c : Thread nD τ).loc main_arg7)) :=
  (W4_of_ne m ρ c main_v9 (by decide)).trans ((thru1 m ρ c main_v9 (by decide) k1_v9).trans (v9_at1 m ρ c))
theorem v11_at1 : W1 m ρ c (Proc.devRef .tc main_v11) = stackA0 (m ((c : Thread nD τ).loc main_arg8)) := s0_v11 _
theorem v11_at2 : W2 m ρ c (Proc.devRef .tc main_v11) = stackA0 (m ((c : Thread nD τ).loc main_arg8)) :=
  (W2_of_ne m ρ c main_v11 (by decide)).trans (v11_at1 m ρ c)
theorem v11_at4 : W4 m ρ c (Proc.devRef .tc main_v11) = stackA0 (m ((c : Thread nD τ).loc main_arg8)) :=
  (W4_of_ne m ρ c main_v11 (by decide)).trans ((thru1 m ρ c main_v11 (by decide) k1_v11).trans (v11_at1 m ρ c))

/-! ## The second branch's stacks, cut by the fourth stretch and read by the two after it -/

theorem v82_at7 : W7 m ρ c (Proc.devRef .tc main_v82) = wstackA1 (m ((c : Thread nD τ).loc main_arg3)) :=
  (s3_v82 _).trans (congrArg wstackA1 (arg3_at6 m ρ c))
theorem v82_at8 : W8 m ρ c (Proc.devRef .tc main_v82) = wstackA1 (m ((c : Thread nD τ).loc main_arg3)) :=
  (W8_of_ne m ρ c main_v82 (by decide)).trans (v82_at7 m ρ c)
theorem v82_at10 : W10 m ρ c (Proc.devRef .tc main_v82) = wstackA1 (m ((c : Thread nD τ).loc main_arg3)) :=
  (W10_of_ne m ρ c main_v82 (by decide)).trans ((thru4 m ρ c main_v82 (by decide) k4_v82).trans (v82_at7 m ρ c))
theorem v84_at7 : W7 m ρ c (Proc.devRef .tc main_v84) = stackA1 (m ((c : Thread nD τ).loc main_arg4)) :=
  (s3_v84 _).trans (congrArg stackA1 (arg4_at6 m ρ c))
theorem v84_at8 : W8 m ρ c (Proc.devRef .tc main_v84) = stackA1 (m ((c : Thread nD τ).loc main_arg4)) :=
  (W8_of_ne m ρ c main_v84 (by decide)).trans (v84_at7 m ρ c)
theorem v84_at10 : W10 m ρ c (Proc.devRef .tc main_v84) = stackA1 (m ((c : Thread nD τ).loc main_arg4)) :=
  (W10_of_ne m ρ c main_v84 (by decide)).trans ((thru4 m ρ c main_v84 (by decide) k4_v84).trans (v84_at7 m ρ c))
theorem v86_at7 : W7 m ρ c (Proc.devRef .tc main_v86) = stackA1 (m ((c : Thread nD τ).loc main_arg5)) :=
  (s3_v86 _).trans (congrArg stackA1 (arg5_at6 m ρ c))
theorem v86_at8 : W8 m ρ c (Proc.devRef .tc main_v86) = stackA1 (m ((c : Thread nD τ).loc main_arg5)) :=
  (W8_of_ne m ρ c main_v86 (by decide)).trans (v86_at7 m ρ c)
theorem v86_at10 : W10 m ρ c (Proc.devRef .tc main_v86) = stackA1 (m ((c : Thread nD τ).loc main_arg5)) :=
  (W10_of_ne m ρ c main_v86 (by decide)).trans ((thru4 m ρ c main_v86 (by decide) k4_v86).trans (v86_at7 m ρ c))
theorem v88_at7 : W7 m ρ c (Proc.devRef .tc main_v88) = stackA1 (m ((c : Thread nD τ).loc main_arg6)) :=
  (s3_v88 _).trans (congrArg stackA1 (arg6_at6 m ρ c))
theorem v88_at8 : W8 m ρ c (Proc.devRef .tc main_v88) = stackA1 (m ((c : Thread nD τ).loc main_arg6)) :=
  (W8_of_ne m ρ c main_v88 (by decide)).trans (v88_at7 m ρ c)
theorem v88_at10 : W10 m ρ c (Proc.devRef .tc main_v88) = stackA1 (m ((c : Thread nD τ).loc main_arg6)) :=
  (W10_of_ne m ρ c main_v88 (by decide)).trans ((thru4 m ρ c main_v88 (by decide) k4_v88).trans (v88_at7 m ρ c))
theorem v90_at7 : W7 m ρ c (Proc.devRef .tc main_v90) = stackA1 (m ((c : Thread nD τ).loc main_arg7)) :=
  (s3_v90 _).trans (congrArg stackA1 (arg7_at6 m ρ c))
theorem v90_at8 : W8 m ρ c (Proc.devRef .tc main_v90) = stackA1 (m ((c : Thread nD τ).loc main_arg7)) :=
  (W8_of_ne m ρ c main_v90 (by decide)).trans (v90_at7 m ρ c)
theorem v90_at10 : W10 m ρ c (Proc.devRef .tc main_v90) = stackA1 (m ((c : Thread nD τ).loc main_arg7)) :=
  (W10_of_ne m ρ c main_v90 (by decide)).trans ((thru4 m ρ c main_v90 (by decide) k4_v90).trans (v90_at7 m ρ c))
theorem v92_at7 : W7 m ρ c (Proc.devRef .tc main_v92) = stackA1 (m ((c : Thread nD τ).loc main_arg8)) :=
  (s3_v92 _).trans (congrArg stackA1 (arg8_at6 m ρ c))
theorem v92_at8 : W8 m ρ c (Proc.devRef .tc main_v92) = stackA1 (m ((c : Thread nD τ).loc main_arg8)) :=
  (W8_of_ne m ρ c main_v92 (by decide)).trans (v92_at7 m ρ c)
theorem v92_at10 : W10 m ρ c (Proc.devRef .tc main_v92) = stackA1 (m ((c : Thread nD τ).loc main_arg8)) :=
  (W10_of_ne m ρ c main_v92 (by decide)).trans ((thru4 m ρ c main_v92 (by decide) k4_v92).trans (v92_at7 m ρ c))

/-! ## What each region finds -/

/-- Region 0 finds the aggregated input features and the first branch's first layer. -/
theorem entry0 :
    V1 m ρ c main_v26 = agg (m ((c : Thread nD τ).loc main_arg1)) (m ((c : Thread nD τ).loc main_arg0))
    ∧ V1 m ρ c main_v28 = wmatK0 (wstackA0 (m ((c : Thread nD τ).loc main_arg3)))
    ∧ V1 m ρ c main_v39 = row (vecK0 (stackA0 (m ((c : Thread nD τ).loc main_arg4))))
    ∧ V1 m ρ c main_v40 = row (vecK0 (stackA0 (m ((c : Thread nD τ).loc main_arg5))))
    ∧ V1 m ρ c main_v41 = row (vecK0 (stackA0 (m ((c : Thread nD τ).loc main_arg6))))
    ∧ V1 m ρ c main_v42 = row (vecK0 (stackA0 (m ((c : Thread nD τ).loc main_arg7))))
    ∧ V1 m ρ c main_v43 = row (vecK0 (stackA0 (m ((c : Thread nD τ).loc main_arg8)))) :=
  ⟨s0_v26 _, s0_v28 _, s0_v39 _, s0_v40 _, s0_v41 _, s0_v42 _, s0_v43 _⟩

/-- Region 1 finds region 0's result and the first branch's second layer. -/
theorem entry1 :
    V3 m ρ c main_v44 = (dat0 (V1 m ρ) c).arrAt 7 cfg0.N
    ∧ V3 m ρ c main_v46 = wmatK1 (wstackA0 (m ((c : Thread nD τ).loc main_arg3)))
    ∧ V3 m ρ c main_v57 = row (vecK1 (stackA0 (m ((c : Thread nD τ).loc main_arg4))))
    ∧ V3 m ρ c main_v58 = row (vecK1 (stackA0 (m ((c : Thread nD τ).loc main_arg5))))
    ∧ V3 m ρ c main_v59 = row (vecK1 (stackA0 (m ((c : Thread nD τ).loc main_arg6))))
    ∧ V3 m ρ c main_v60 = row (vecK1 (stackA0 (m ((c : Thread nD τ).loc main_arg7))))
    ∧ V3 m ρ c main_v61 = row (vecK1 (stackA0 (m ((c : Thread nD τ).loc main_arg8)))) :=
  ⟨(k1_v44 _).trans (W2_arr m ρ c 7),
    (s1_v46 _).trans (congrArg wmatK1 (v1_at2 m ρ c)),
    (s1_v57 _).trans (congrArg (fun x => row (vecK1 x)) (v3_at2 m ρ c)),
    (s1_v58 _).trans (congrArg (fun x => row (vecK1 x)) (v5_at2 m ρ c)),
    (s1_v59 _).trans (congrArg (fun x => row (vecK1 x)) (v7_at2 m ρ c)),
    (s1_v60 _).trans (congrArg (fun x => row (vecK1 x)) (v9_at2 m ρ c)),
    (s1_v61 _).trans (congrArg (fun x => row (vecK1 x)) (v11_at2 m ρ c))⟩

/-- Region 2 finds region 1's result and the first branch's third layer. -/
theorem entry2 :
    V5 m ρ c main_v62 = (dat1 (V3 m ρ) c).arrAt 7 cfg1.N
    ∧ V5 m ρ c main_v64 = wmatK2 (wstackA0 (m ((c : Thread nD τ).loc main_arg3)))
    ∧ V5 m ρ c main_v75 = row (vecK2 (stackA0 (m ((c : Thread nD τ).loc main_arg4))))
    ∧ V5 m ρ c main_v76 = row (vecK2 (stackA0 (m ((c : Thread nD τ).loc main_arg5))))
    ∧ V5 m ρ c main_v77 = row (vecK2 (stackA0 (m ((c : Thread nD τ).loc main_arg6))))
    ∧ V5 m ρ c main_v78 = row (vecK2 (stackA0 (m ((c : Thread nD τ).loc main_arg7))))
    ∧ V5 m ρ c main_v79 = row (vecK2 (stackA0 (m ((c : Thread nD τ).loc main_arg8)))) :=
  ⟨(k2_v62 _).trans (W4_arr m ρ c 7),
    (s2_v64 _).trans (congrArg wmatK2 (v1_at4 m ρ c)),
    (s2_v75 _).trans (congrArg (fun x => row (vecK2 x)) (v3_at4 m ρ c)),
    (s2_v76 _).trans (congrArg (fun x => row (vecK2 x)) (v5_at4 m ρ c)),
    (s2_v77 _).trans (congrArg (fun x => row (vecK2 x)) (v7_at4 m ρ c)),
    (s2_v78 _).trans (congrArg (fun x => row (vecK2 x)) (v9_at4 m ρ c)),
    (s2_v79 _).trans (congrArg (fun x => row (vecK2 x)) (v11_at4 m ρ c))⟩

/-- Region 3 finds region 2's result aggregated over the edges and the second branch's first layer. -/
theorem entry3 :
    V7 m ρ c main_v107 = agg (m ((c : Thread nD τ).loc main_arg1)) ((dat2 (V5 m ρ) c).arrAt 7 cfg2.N)
    ∧ V7 m ρ c main_v109 = wmatK0 (wstackA1 (m ((c : Thread nD τ).loc main_arg3)))
    ∧ V7 m ρ c main_v120 = row (vecK0 (stackA1 (m ((c : Thread nD τ).loc main_arg4))))
    ∧ V7 m ρ c main_v121 = row (vecK0 (stackA1 (m ((c : Thread nD τ).loc main_arg5))))
    ∧ V7 m ρ c main_v122 = row (vecK0 (stackA1 (m ((c : Thread nD τ).loc main_arg6))))
    ∧ V7 m ρ c main_v123 = row (vecK0 (stackA1 (m ((c : Thread nD τ).loc main_arg7))))
    ∧ V7 m ρ c main_v124 = row (vecK0 (stackA1 (m ((c : Thread nD τ).loc main_arg8)))) :=
  ⟨(s3_v107 _).trans (congrArg₂ agg (arg1_at6 m ρ c) (W6_arr m ρ c 7)),
    (s3_v109 _).trans (congrArg (fun x => wmatK0 (wstackA1 x)) (arg3_at6 m ρ c)),
    (s3_v120 _).trans (congrArg (fun x => row (vecK0 (stackA1 x))) (arg4_at6 m ρ c)),
    (s3_v121 _).trans (congrArg (fun x => row (vecK0 (stackA1 x))) (arg5_at6 m ρ c)),
    (s3_v122 _).trans (congrArg (fun x => row (vecK0 (stackA1 x))) (arg6_at6 m ρ c)),
    (s3_v123 _).trans (congrArg (fun x => row (vecK0 (stackA1 x))) (arg7_at6 m ρ c)),
    (s3_v124 _).trans (congrArg (fun x => row (vecK0 (stackA1 x))) (arg8_at6 m ρ c))⟩

/-- Region 4 finds region 3's result and the second branch's second layer. -/
theorem entry4 :
    V9 m ρ c main_v125 = (dat3 (V7 m ρ) c).arrAt 7 cfg3.N
    ∧ V9 m ρ c main_v127 = wmatK1 (wstackA1 (m ((c : Thread nD τ).loc main_arg3)))
    ∧ V9 m ρ c main_v138 = row (vecK1 (stackA1 (m ((c : Thread nD τ).loc main_arg4))))
    ∧ V9 m ρ c main_v139 = row (vecK1 (stackA1 (m ((c : Thread nD τ).loc main_arg5))))
    ∧ V9 m ρ c main_v140 = row (vecK1 (stackA1 (m ((c : Thread nD τ).loc main_arg6))))
    ∧ V9 m ρ c main_v141 = row (vecK1 (stackA1 (m ((c : Thread nD τ).loc main_arg7))))
    ∧ V9 m ρ c main_v142 = row (vecK1 (stackA1 (m ((c : Thread nD τ).loc main_arg8)))) :=
  ⟨(k4_v125 _).trans (W8_arr m ρ c 7),
    (s4_v127 _).trans (congrArg wmatK1 (v82_at8 m ρ c)),
    (s4_v138 _).trans (congrArg (fun x => row (vecK1 x)) (v84_at8 m ρ c)),
    (s4_v139 _).trans (congrArg (fun x => row (vecK1 x)) (v86_at8 m ρ c)),
    (s4_v140 _).trans (congrArg (fun x => row (vecK1 x)) (v88_at8 m ρ c)),
    (s4_v141 _).trans (congrArg (fun x => row (vecK1 x)) (v90_at8 m ρ c)),
    (s4_v142 _).trans (congrArg (fun x => row (vecK1 x)) (v92_at8 m ρ c))⟩

/-- Region 5 finds region 4's result and the second branch's third layer. -/
theorem entry5 :
    V11 m ρ c main_v143 = (dat4 (V9 m ρ) c).arrAt 7 cfg4.N
    ∧ V11 m ρ c main_v145 = wmatK2 (wstackA1 (m ((c : Thread nD τ).loc main_arg3)))
    ∧ V11 m ρ c main_v156 = row (vecK2 (stackA1 (m ((c : Thread nD τ).loc main_arg4))))
    ∧ V11 m ρ c main_v157 = row (vecK2 (stackA1 (m ((c : Thread nD τ).loc main_arg5))))
    ∧ V11 m ρ c main_v158 = row (vecK2 (stackA1 (m ((c : Thread nD τ).loc main_arg6))))
    ∧ V11 m ρ c main_v159 = row (vecK2 (stackA1 (m ((c : Thread nD τ).loc main_arg7))))
    ∧ V11 m ρ c main_v160 = row (vecK2 (stackA1 (m ((c : Thread nD τ).loc main_arg8)))) :=
  ⟨(k5_v143 _).trans (W10_arr m ρ c 7),
    (s5_v145 _).trans (congrArg wmatK2 (v82_at10 m ρ c)),
    (s5_v156 _).trans (congrArg (fun x => row (vecK2 x)) (v84_at10 m ρ c)),
    (s5_v157 _).trans (congrArg (fun x => row (vecK2 x)) (v86_at10 m ρ c)),
    (s5_v158 _).trans (congrArg (fun x => row (vecK2 x)) (v88_at10 m ρ c)),
    (s5_v159 _).trans (congrArg (fun x => row (vecK2 x)) (v90_at10 m ρ c)),
    (s5_v160 _).trans (congrArg (fun x => row (vecK2 x)) (v92_at10 m ρ c))⟩

/-- Region 6 finds region 5's result, the last weight matrix as launched, and the last bias as one row. -/
theorem entry6 :
    V13 m ρ c main_v161 = (dat5 (V11 m ρ) c).arrAt 7 cfg5.N
    ∧ V13 m ρ c main_arg9 = m ((c : Thread nD τ).loc main_arg9)
    ∧ V13 m ρ c main_v162 = shapeCast S1x64 (m ((c : Thread nD τ).loc main_arg10)) shapeCasts_S64_S1x64 :=
  ⟨(k6_v161 _).trans (W12_arr m ρ c 7),
    (k6_arg9 _).trans (arg9_at12 m ρ c),
    (s6_v162 _).trans (congrArg (fun x => shapeCast S1x64 x shapeCasts_S64_S1x64) (arg10_at12 m ρ c))⟩

end Cert.Gin.Ker

end
-- ==== Proof.LibSageLayer.lean ====
/-
  One dense graph-convolution layer read at one entry, at the ideal values (extended reals, every operation exact; a
  change of float format is the identity).

  `dense A X Wl Wr b p j` is entry (p, j) of `A Wl + X Wr + b`: the two sums over the contracted coordinate of the
  products, added, plus the bias entry. `kernel_layer_apply`: the two products, each of format-narrowed operands and
  accumulated into a zero splat, added, plus a [1, N] bias row laid along every row, is `dense`. `host_layer_apply`: the
  first product plus the bias vector (laid as one row, then along every row), plus the second product, is `dense` too —
  addition of extended reals is commutative and associative, so the bias may be added before or after the second
  product. `relu_host_apply`, `relu_kernel_apply`: the maximum with a zero (a scalar constant broadcast, or a splat of
  the zero word), read at an entry, is `max · 0`. `rowcast_apply`: a vector cast to a one-row matrix reads, at (0, j),
  the vector at j.
-/
import Idealize.ShloMosaic.Lib.ValueLayout
import Idealize.ShloMosaic.Lib.StackMember
import Idealize.ShloMosaic.Lib.KernelVsHost
import Idealize.ShloMosaic.PureOps.Ideal.Laws
import Idealize.ShloMosaic.Lib.Pipeline.Value

noncomputable section

open scoped BigOperators

namespace Cert.Sage

open Idealize.ShloMosaic Idealize.ShloMosaic.ValueIdx Idealize.ShloMosaic.StackMember

/-- Entry (p, j) of `A Wl + X Wr + b`. -/
def dense {R K N : Nat} (A X : (⟨2, ![R, K]⟩ : Shape).Idx → EReal) (Wl Wr : (⟨2, ![K, N]⟩ : Shape).Idx → EReal) (b : Fin N → EReal) (p : Fin R) (j : Fin N) : EReal :=
  (∑ k : Fin K, A (ix2 p k) * Wl (ix2 k j) + ∑ k : Fin K, X (ix2 p k) * Wr (ix2 k j)) + b j

/-- A plain [R, K] by [K, N] product into a zero accumulator, read at (p, j), whatever the operands' formats: the sum
    over the contracted coordinate of the products. -/
theorem matmul0_apply {R K N : Nat} {φ₁ φ₂ : FTy} (prec : Option ContractPrecision)
    (h : FVec Ideal ⟨2, ![R, K]⟩ φ₁) (w : FVec Ideal ⟨2, ![K, N]⟩ φ₂) (p : Fin R) (j : Fin N) :
    matmul (DotDims.plain R K N) prec h w (constant ⟨2, ![R, N]⟩ .f32 0x00000000#32) (ix2 p j)
      = ∑ k : Fin K, h (ix2 p k) * w (ix2 k j) :=
  (congrFun (matmul_zero_eq_dotGeneral _ prec h w) _).trans (dotGeneral_plain_apply prec h w p j)

/-- A vector laid as one row (axis 1 of a [1, N] matrix), read at (0, j), is the vector at j. -/
theorem broadcastInDim_vecRow_apply {α : Type} {N : Nat} (h1 : (⟨1, ![N]⟩ : Shape).BroadcastsInDim ⟨2, ![1, N]⟩ ![1])
    (bl : (⟨1, ![N]⟩ : Shape).Idx → α) (j : Fin N) :
    broadcastInDim ⟨2, ![1, N]⟩ ![1] h1 bl (ix2 (0 : Fin 1) j) = bl (ix1 j) := by
  refine broadcastInDim_apply ![1] h1 bl (ix2 (0 : Fin 1) j) (ix1 j) ?_
  intro a
  match a with
  | ⟨0, _⟩ =>
    show j.val = if N = 1 then 0 else j.val
    split
    · have := j.isLt; omega
    · rfl

/-- The kernel's layer: the two products of format-narrowed operands into zero accumulators, added, plus the bias row
    laid along every row. The dimension numbers are any record equal to the plain ones. -/
theorem kernel_layer_apply {R K N : Nat} (D : DotDims ⟨2, ![R, K]⟩ ⟨2, ![K, N]⟩ ⟨2, ![R, N]⟩) (hD : D = DotDims.plain R K N)
    (a x : FVec Ideal ⟨2, ![R, K]⟩ .f32) (wl wr : FVec Ideal ⟨2, ![K, N]⟩ .f32) (b : FVec Ideal ⟨2, ![1, N]⟩ .f32)
    (ht : FTy.bits .bf16 < FTy.bits .f32) (hb : (⟨2, ![1, N]⟩ : Shape).Broadcasts ⟨2, ![R, N]⟩) (p : Fin R) (j : Fin N) :
    addf (addf (matmul D none (truncf .bf16 a ht) (truncf .bf16 wl ht) (constant ⟨2, ![R, N]⟩ .f32 0x00000000#32))
               (matmul D none (truncf .bf16 x ht) (truncf .bf16 wr ht) (constant ⟨2, ![R, N]⟩ .f32 0x00000000#32)))
         (broadcastTo ⟨2, ![R, N]⟩ b hb) (ix2 p j)
      = dense a x wl wr (fun j => b (ix2 (0 : Fin 1) j)) p j := by
  subst hD
  rw [addf_apply, addf_apply, broadcastTo_1b_ab_apply, matmul0_apply, matmul0_apply]
  rfl

/-- The host's layer: the first product plus the bias (a vector laid as one row, the row laid along every row), plus
    the second product. The bias is added before the second product here and after it in `dense`; the two sums agree. -/
theorem host_layer_apply {R K N : Nat} (D : DotDims ⟨2, ![R, K]⟩ ⟨2, ![K, N]⟩ ⟨2, ![R, N]⟩) (hD : D = DotDims.plain R K N)
    (A X : FVec Ideal ⟨2, ![R, K]⟩ .f32) (Wl Wr : FVec Ideal ⟨2, ![K, N]⟩ .f32) (bl : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (j : Fin N) :
    addf (addf (Host.dotGeneral D none A Wl) (broadcastInDim ⟨2, ![R, N]⟩ ![0, 1] h2 (broadcastInDim ⟨2, ![1, N]⟩ ![1] h1 bl)))
         (Host.dotGeneral D none X Wr) (ix2 p j)
      = dense A X Wl Wr (fun j => bl (ix1 j)) p j := by
  subst hD
  rw [addf_apply, addf_apply, broadcastInDim_oneRow_apply, broadcastInDim_vecRow_apply, dotGeneral_plain_apply,
    dotGeneral_plain_apply]
  unfold dense
  exact add_right_comm _ _ _

/-- The maximum with a scalar zero constant broadcast to the shape, read at an entry. -/
theorem relu_host_apply {s : Shape} (v : FVec Ideal s .f32) (h : (⟨0, ![]⟩ : Shape).BroadcastsInDim s ![]) (i : s.Idx) :
    maximumf v (broadcastInDim s ![] h (constant (F := Ideal) ⟨0, ![]⟩ .f32 0x00000000#32)) i = max (v i) 0 := by
  rw [maximumf_apply]
  refine congrArg (max (v i)) ?_
  refine (broadcastInDim_apply ![] h (constant (F := Ideal) ⟨0, ![]⟩ .f32 0x00000000#32) i (fun a => a.elim0)
    (fun a => a.elim0)).trans ?_
  rw [constant_apply, Ideal.ofBits_zero_f32]

/-- The maximum with a splat of the zero word, read at an entry. -/
theorem relu_kernel_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- A vector cast to a one-row matrix reads, at (0, j), the vector at j. -/
theorem rowcast_apply {α : Type} {N : Nat} (bl : (⟨1, ![N]⟩ : Shape).Idx → α) (h : (⟨1, ![N]⟩ : Shape).ShapeCasts ⟨2, ![1, N]⟩) (j : Fin N) :
    shapeCast ⟨2, ![1, N]⟩ bl h (ix2 (0 : Fin 1) j) = bl (ix1 j) :=
  shapeCast_apply bl h (ix2 (0 : Fin 1) j) (ix1 j) (by
    rw [Shape.rowMajor_val_two, Shape.rowMajor_val_one]; show j.val = 0 * N + j.val; omega)

end Cert.Sage

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.Ops.lean ====
/-
  The two kernel bodies' stored values read at one entry, over the extended reals: the fused layer's value at
  (p, q) is the layer applied to row p of the feature block, and the last body's value at (p, q) is the last stage
  applied to row p — the matrix product into a zero accumulator is the sum over the contracted coordinate, a change of
  float format is the identity, a one-row parameter laid along the rows reads its entry (0, q), the row maximum is the
  fold of max from the starting value, and the row sum of exponentials is a finite sum.

  Each statement is first proved for arbitrary extents and for any dimension-number record equal to the plain
  [R, K] x [K, N] one (layer_gen, logit_gen, softmax_gen); the two bodies are instances.
-/
import proofs.«114777_j46617575031250_1_alg».proof.Proof.Gen.KernelIdeal.Skeleton
import proofs.«114777_j46617575031250_1_alg».proof.Proof.Spec
import proofs.«114777_j46617575031250_1_alg».proof.Proof.LibSageLayer
import proofs.«114777_j46617575031250_1_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gin.Ops

open Idealize.ShloMosaic Idealize.ShloMosaic.ValueIdx Cert.KernelIdeal Cert.KernelIdeal.Gen Cert.Gin

/-! ## The operations at an index, for arbitrary extents -/

/-- An exponential of a vector, read at an index, is the exponential of the element. -/
theorem exp_apply {s : Shape} {φ : FTy} (x : FVec Ideal s φ) (i : s.Idx) : exp x i = Ideal.exp (x i) := rfl

/-- A logarithm of a vector, read at an index, is the logarithm of the element. -/
theorem log_apply {s : Shape} {φ : FTy} (x : FVec Ideal s φ) (i : s.Idx) : log x i = Ideal.log (x i) := rfl

/-- The fused layer read at (p, q): the product of the format-narrowed operands into a zero accumulator, plus the bias
    row, less the mean row, times the reciprocal square root of the variance row plus the offset, times the scale row,
    plus the shift row, and the maximum with zero. -/
theorem layer_gen {R K N : Nat} (D : DotDims ⟨2, ![R, K]⟩ ⟨2, ![K, N]⟩ ⟨2, ![R, N]⟩) (hD : D = DotDims.plain R K N)
    (x : FVec Ideal ⟨2, ![R, K]⟩ .f32) (w : FVec Ideal ⟨2, ![K, N]⟩ .f32) (b μ v g β : FVec Ideal ⟨2, ![1, N]⟩ .f32)
    (ht : FTy.bits .bf16 < FTy.bits .f32)
    (hx : (⟨2, ![R, K]⟩ : Shape).ShapeCasts ⟨2, ![R, K]⟩) (hw : (⟨2, ![K, N]⟩ : Shape).ShapeCasts ⟨2, ![K, N]⟩)
    (h1 : (⟨2, ![1, N]⟩ : Shape).ShapeCasts ⟨2, ![1, N]⟩) (hb : (⟨2, ![1, N]⟩ : Shape).Broadcasts ⟨2, ![R, N]⟩)
    (p : Fin R) (q : Fin N) :
    maximumf (addf (mulf (mulf (subf (addf
        (matmul D none (truncf .bf16 (shapeCast ⟨2, ![R, K]⟩ x hx) ht) (truncf .bf16 (shapeCast ⟨2, ![K, N]⟩ w hw) ht)
          (constant ⟨2, ![R, N]⟩ .f32 0x00000000#32))
        (broadcastTo ⟨2, ![R, N]⟩ (shapeCast ⟨2, ![1, N]⟩ b h1) hb))
        (broadcastTo ⟨2, ![R, N]⟩ (shapeCast ⟨2, ![1, N]⟩ μ h1) hb))
        (broadcastTo ⟨2, ![R, N]⟩ (rsqrt (addf (shapeCast ⟨2, ![1, N]⟩ v h1)
          (broadcast ⟨2, ![1, N]⟩ (Scalar.ofBits (F := Ideal) .f32 0x3727C5AC#32)))) hb))
        (broadcastTo ⟨2, ![R, N]⟩ (shapeCast ⟨2, ![1, N]⟩ g h1) hb))
        (broadcastTo ⟨2, ![R, N]⟩ (shapeCast ⟨2, ![1, N]⟩ β h1) hb))
      (broadcast ⟨2, ![R, N]⟩ (Scalar.ofBits (F := Ideal) .f32 0x00000000#32)) (ix2 p q)
    = layerAt (fun k => x (ix2 p k)) w (fun j => b (ix2 (0 : Fin 1) j)) (fun j => g (ix2 (0 : Fin 1) j))
        (fun j => β (ix2 (0 : Fin 1) j)) (fun j => μ (ix2 (0 : Fin 1) j)) (fun j => v (ix2 (0 : Fin 1) j)) q := by
  subst hD
  rw [Cert.Sage.relu_kernel_apply, addf_apply, mulf_apply, mulf_apply, subf_apply, addf_apply]
  simp only [broadcastTo_1b_ab_apply, shapeCast_self]
  rw [Cert.Sage.matmul0_apply]
  rfl

/-- The last stage's logits read at (p, j): the product of the format-narrowed operands into a zero accumulator plus
    the bias row. -/
theorem logit_gen {R K N : Nat} (D : DotDims ⟨2, ![R, K]⟩ ⟨2, ![K, N]⟩ ⟨2, ![R, N]⟩) (hD : D = DotDims.plain R K N)
    (x : FVec Ideal ⟨2, ![R, K]⟩ .f32) (w : FVec Ideal ⟨2, ![K, N]⟩ .f32) (b : FVec Ideal ⟨2, ![1, N]⟩ .f32)
    (ht : FTy.bits .bf16 < FTy.bits .f32)
    (hx : (⟨2, ![R, K]⟩ : Shape).ShapeCasts ⟨2, ![R, K]⟩)
    (h1 : (⟨2, ![1, N]⟩ : Shape).ShapeCasts ⟨2, ![1, N]⟩) (hb : (⟨2, ![1, N]⟩ : Shape).Broadcasts ⟨2, ![R, N]⟩)
    (p : Fin R) (j : Fin N) :
    addf (matmul D none (truncf .bf16 (shapeCast ⟨2, ![R, K]⟩ x hx) ht) (truncf .bf16 w ht)
          (constant ⟨2, ![R, N]⟩ .f32 0x00000000#32))
        (broadcastTo ⟨2, ![R, N]⟩ (shapeCast ⟨2, ![1, N]⟩ b h1) hb) (ix2 p j)
    = logitAt (fun k => x (ix2 p k)) w (fun j => b (ix2 (0 : Fin 1) j)) j := by
  subst hD
  rw [addf_apply, broadcastTo_1b_ab_apply, shapeCast_self, shapeCast_self, Cert.Sage.matmul0_apply]
  rfl

/-- Over a [R, N] array reduced along its second axis, the index over row p with coordinate k inserted is (p, k). -/
theorem lift_row {R N : Nat} (hr : (⟨2, ![R, N]⟩ : Shape).Reduces [1] ⟨1, ![R]⟩) (p : Fin R) (k : Fin N) :
    hr.lift (ix1 p) k = ix2 p k := by
  funext a
  match a with
  | ⟨0, _⟩ => exact Fin.ext rfl
  | ⟨1, _⟩ => exact Fin.ext rfl

/-- The row maximum of z, cast to a column and laid along the row, read at (p, c): the fold of max over row p from the
    starting value. -/
theorem rowmax_gen {R N : Nat} (z : FVec Ideal ⟨2, ![R, N]⟩ .f32)
    (hr : (⟨2, ![R, N]⟩ : Shape).Reduces [1] ⟨1, ![R]⟩) (hφ : FKind.Formats .f32)
    (hmax : (0xFF800000#32 : BitVec (FTy.bits .f32)) = FKind.maximumf.neutral .f32 hφ)
    (hc : (⟨1, ![R]⟩ : Shape).ShapeCasts ⟨2, ![R, 1]⟩) (hbc : (⟨2, ![R, 1]⟩ : Shape).Broadcasts ⟨2, ![R, N]⟩)
    (p : Fin R) (c : Fin N) :
    broadcastTo ⟨2, ![R, N]⟩ (shapeCast ⟨2, ![R, 1]⟩
        (multiReduction .maximumf [1] ⟨1, ![R]⟩ z 0xFF800000#32 hr hφ hmax) hc) hbc (ix2 p c)
      = (Finset.univ : Finset (Fin N)).fold max negInf (fun j => z (ix2 p j)) := by
  rw [PhysLoss.broadcastTo_a1_ab_apply, PhysLoss.shapeCast_a_a1_apply, Ideal.multiReduction_maximumf_single]
  have hz : (z ∘ hr.lift (ix1 p)) = fun j : Fin N => z (ix2 p j) := funext fun k => congrArg z (lift_row hr p k)
  rw [hz]
  rfl

/-- The last stage after the logits z, read at (p, q): the shifted logit less the logarithm of the row sum of the
    exponentials of the shifted logits. -/
theorem softmax_gen {R N : Nat} (z : FVec Ideal ⟨2, ![R, N]⟩ .f32)
    (hr : (⟨2, ![R, N]⟩ : Shape).Reduces [1] ⟨1, ![R]⟩) (hφ : FKind.Formats .f32)
    (hmax : (0xFF800000#32 : BitVec (FTy.bits .f32)) = FKind.maximumf.neutral .f32 hφ)
    (hadd : (0x00000000#32 : BitVec (FTy.bits .f32)) = FKind.add.neutral .f32 hφ)
    (hc : (⟨1, ![R]⟩ : Shape).ShapeCasts ⟨2, ![R, 1]⟩) (hbc : (⟨2, ![R, 1]⟩ : Shape).Broadcasts ⟨2, ![R, N]⟩)
    (p : Fin R) (q : Fin N) :
    subf (subf z (broadcastTo ⟨2, ![R, N]⟩ (shapeCast ⟨2, ![R, 1]⟩
          (multiReduction .maximumf [1] ⟨1, ![R]⟩ z 0xFF800000#32 hr hφ hmax) hc) hbc))
      (broadcastTo ⟨2, ![R, N]⟩ (log (shapeCast ⟨2, ![R, 1]⟩ (multiReduction .add [1] ⟨1, ![R]⟩
        (exp (subf z (broadcastTo ⟨2, ![R, N]⟩ (shapeCast ⟨2, ![R, 1]⟩
          (multiReduction .maximumf [1] ⟨1, ![R]⟩ z 0xFF800000#32 hr hφ hmax) hc) hbc)))
        0x00000000#32 hr hφ hadd) hc)) hbc) (ix2 p q)
    = (z (ix2 p q) - (Finset.univ : Finset (Fin N)).fold max negInf (fun j => z (ix2 p j)))
      - Ideal.log (∑ j : Fin N,
          Ideal.exp (z (ix2 p j) - (Finset.univ : Finset (Fin N)).fold max negInf (fun j => z (ix2 p j)))) := by
  rw [subf_apply, subf_apply, rowmax_gen, PhysLoss.broadcastTo_a1_ab_apply, log_apply,
    PhysLoss.shapeCast_a_a1_apply, Ideal.multiReduction_add_single]
  refine congrArg (fun t : EReal =>
    (z (ix2 p q) - (Finset.univ : Finset (Fin N)).fold max negInf (fun j => z (ix2 p j))) - Ideal.log t) ?_
  refine Finset.sum_congr rfl fun (k : Fin N) _ => ?_
  rw [lift_row hr p k, exp_apply, subf_apply, rowmax_gen z hr hφ hmax hc hbc p k]

/-! ## The two bodies -/

/-- The fused layer's stored value at (p, q): the loads are the feature block, the weight matrix, and the one-row
    parameters in the order b, μ, v, g, β. -/
theorem pay_layer (v0 : Vec Ideal S5000x128 .f32) (v3 : Vec Ideal S128x128 .f32) (v7 v11 v15 v22 v26 : Vec Ideal S1x128 .f32)
    (p : Fin 5000) (q : Fin 128) :
    k0_pay1 (F := Ideal) v0 v3 v7 v11 v15 v22 v26 (ix2 p q)
      = layerAt (fun k => v0 (ix2 p k)) v3 (fun j => v7 (ix2 (0 : Fin 1) j)) (fun j => v22 (ix2 (0 : Fin 1) j))
          (fun j => v26 (ix2 (0 : Fin 1) j)) (fun j => v11 (ix2 (0 : Fin 1) j)) (fun j => v15 (ix2 (0 : Fin 1) j)) q :=
  layer_gen dot_S5000x128_S128x128_S5000x128_1_0_0_1_n_n rfl v0 v3 v7 v11 v15 v22 v26 bitsLt_bf16_f32
    shapeCasts_S5000x128_S5000x128 shapeCasts_S128x128_S128x128 shapeCasts_S1x128_S1x128 broadcasts_S1x128_S5000x128 p q

/-- The last body's stored value at (p, q). -/
theorem pay_head (v0 : Vec Ideal S5000x128 .f32) (v3 : Vec Ideal S128x64 .f32) (v6 : Vec Ideal S1x64 .f32)
    (p : Fin 5000) (q : Fin 64) :
    k6_pay1 (F := Ideal) v0 v3 v6 (ix2 p q)
      = headAt (fun k => v0 (ix2 p k)) v3 (fun j => v6 (ix2 (0 : Fin 1) j)) q := by
  have hz := fun j : Fin 64 => logit_gen dot_S5000x128_S128x64_S5000x64_1_0_0_1_n_n rfl v0 v3 v6 bitsLt_bf16_f32
    shapeCasts_S5000x128_S5000x128 shapeCasts_S1x64_S1x64 broadcasts_S1x64_S5000x64 p j
  refine (softmax_gen _ reduces_S5000x64_S5000 (.inl rfl) rfl rfl shapeCasts_S5000_S5000x1 broadcasts_S5000x1_S5000x64
    p q).trans ?_
  simp only [hz]
  rfl

end Cert.Gin.Ops

end
-- ==== Proof.KRegion0.lean ====
/-
  Region 0's result array is one layer of the arrays the region finds: grid point t computes rows 5000 t … 5000 t + 4999,
  each row from the same row of the feature array, the whole weight matrix and the whole one-row parameters, and the
  twenty row blocks fill the array.
-/
import proofs.«114777_j46617575031250_1_alg».proof.Proof.Gen.KernelIdeal.Frame
import proofs.«114777_j46617575031250_1_alg».proof.Proof.Spec
import proofs.«114777_j46617575031250_1_alg».proof.Proof.Ops
import Idealize.ShloMosaic.Lib.Pipeline.Value

set_option maxRecDepth 16384

noncomputable section

namespace Cert.Gin.Ker

open Idealize.ShloMosaic Idealize.ShloMosaic.TcCoe Idealize.ShloMosaic.ValueIdx Idealize.SL.Sem Cert.KernelIdeal Cert.KernelIdeal.Gen Cert.Gin
open Idealize.ShloMosaic.Pipeline (Dat)

theorem origin2 : (![0, 0] : Fin 2 → Nat) = fun _ => 0 := funext fun a => by fin_cases a <;> rfl

/-- The fused layer's stored value at an entry of the block is the layer of the arrays at the entry of the array the
    block's entry sits at, when the feature block is rows r·5000 … of the feature array and the other loads are the
    whole weight matrix and the whole one-row parameters. -/
theorem layer_point (x0 : Vec Ideal S5000x128 .f32) (x1 : Vec Ideal S128x128 .f32) (x2 x3 x4 x5 x6 : Vec Ideal S1x128 .f32)
    (H : S100000x128.Idx → EReal) (Wm : S128x128.Idx → EReal) (B G Be Mu Va : S1x128.Idx → EReal) (r : ℕ) (hr : r < 20)
    (h0 : ∀ (p : Fin 5000) (k : Fin 128) (hb : r * 5000 + p.val < 100000), x0 (ix2 p k) = H (ix2 (⟨r * 5000 + p.val, hb⟩ : Fin 100000) k))
    (h1 : x1 = Wm) (h2 : x2 = B) (h3 : x3 = G) (h4 : x4 = Be) (h5 : x5 = Mu) (h6 : x6 = Va)
    (y : S5000x128.Idx) (i : S100000x128.Idx) (hi0 : (i 0).val = r * 5000 + (y 0).val) (hi1 : (i 1).val = (y 1).val) :
    k0_pay1 (F := Ideal) x0 x1 x2 x5 x6 x3 x4 y
      = layer (R := 100000) (K := 128) (N := 128) H Wm (fun j => B (ix2 (0 : Fin 1) j)) (fun j => G (ix2 (0 : Fin 1) j))
          (fun j => Be (ix2 (0 : Fin 1) j)) (fun j => Mu (ix2 (0 : Fin 1) j)) (fun j => Va (ix2 (0 : Fin 1) j)) i := by
  subst h1 h2 h3 h4 h5 h6
  obtain ⟨p, q, rfl⟩ : ∃ (p : Fin 5000) (q : Fin 128), y = ix2 p q := ⟨y 0, y 1, eq_ix2 y⟩
  have hb : r * 5000 + p.val < 100000 := by have := p.isLt; omega
  obtain ⟨P, Q, rfl⟩ : ∃ (P : Fin 100000) (Q : Fin 128), i = ix2 P Q := ⟨i 0, i 1, eq_ix2 i⟩
  have hP : P = ⟨r * 5000 + p.val, hb⟩ := Fin.ext hi0
  have hQ : Q = q := Fin.ext hi1
  subst hP hQ
  rw [Ops.pay_layer]
  show layerAt _ _ _ _ _ _ _ _ = layerAt _ _ _ _ _ _ _ _
  congr 1
  funext k
  exact h0 p k hb

section Region0

variable (V : (c : Dev nD) → (b : Ref sig .tc) → Buf (Elt Ideal) ((c : Thread nD τ).loc b)) (c : Dev nD)

/-- Region 0's result as one function of the arrays it finds. -/
def res0 : S100000x128.Idx → EReal :=
  layer (R := 100000) (K := 128) (N := 128) (V c main_v26) (V c main_v28) (fun j => V c main_v39 (ix2 (0 : Fin 1) j))
    (fun j => V c main_v40 (ix2 (0 : Fin 1) j)) (fun j => V c main_v41 (ix2 (0 : Fin 1) j))
    (fun j => V c main_v42 (ix2 (0 : Fin 1) j)) (fun j => V c main_v43 (ix2 (0 : Fin 1) j))

/-- The printed index maps over the grid: the feature and result windows move one row block per point, the weight
    matrix and the parameter rows stay at the origin. -/
theorem idx0 : ∀ t : Fin cfg0.N, win0_0.index t (0 : Fin 2) = t.val ∧ win0_0.index t (1 : Fin 2) = 0
    ∧ win0_7.index t (0 : Fin 2) = t.val ∧ win0_7.index t (1 : Fin 2) = 0
    ∧ (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0) :=
  (by decide +kernel : ∀ t : Fin grid0.N, _)

/-- What point t writes back is block t of the layer of the arrays the region finds. -/
theorem flushed0 (t : Fin cfg0.N) :
    (dat0 V c).flushed 7 t = ((cfg0.win 7).blk t).view.read (Elt Ideal) (res0 V c) := by
  show (cfg0.win 7).cut (grid0.coords t) ((dat0 V c).after 7 t) = _
  rw [after0_7]
  unfold out0_7
  rw [View.canon_unit_zero origin2]
  simp only [View.ld_unit_zero (S := S5000x128) origin2, View.ld_unit_zero (S := S128x128) origin2,
    View.ld_unit_zero (S := S1x128) origin2]
  obtain ⟨e00, e01, e70, e71, e1, e2, e3, e4, e5, e6⟩ := idx0 t
  funext y
  show k0_pay1 (F := Ideal) (iblk0 V c 0 t) (iblk0 V c 1 t) (iblk0 V c 2 t) (iblk0 V c 5 t) (iblk0 V c 6 t) (iblk0 V c 3 t) (iblk0 V c 4 t) y
    = res0 V c (((cfg0.win 7).blk t).view.emb y)
  have b1 : iblk0 V c 1 t = V c main_v28 := by
    funext z
    show V c main_v28 (((cfg0.win 1).blk t).view.emb z) = V c main_v28 z
    refine congrArg _ (funext fun a => Fin.ext ?_)
    match a with
    | ⟨0, _⟩ => show win0_1.index t (0 : Fin 2) * 128 + 1 * (z 0).val = (z 0).val; rw [e1 0]; omega
    | ⟨1, _⟩ => show win0_1.index t (1 : Fin 2) * 128 + 1 * (z 1).val = (z 1).val; rw [e1 1]; omega
  have b2 : iblk0 V c 2 t = V c main_v39 := by
    funext z
    show V c main_v39 (((cfg0.win 2).blk t).view.emb z) = V c main_v39 z
    refine congrArg _ (funext fun a => Fin.ext ?_)
    match a with
    | ⟨0, _⟩ => show win0_2.index t (0 : Fin 2) * 1 + 1 * (z 0).val = (z 0).val; rw [e2 0]; omega
    | ⟨1, _⟩ => show win0_2.index t (1 : Fin 2) * 128 + 1 * (z 1).val = (z 1).val; rw [e2 1]; omega
  have b3 : iblk0 V c 3 t = V c main_v40 := by
    funext z
    show V c main_v40 (((cfg0.win 3).blk t).view.emb z) = V c main_v40 z
    refine congrArg _ (funext fun a => Fin.ext ?_)
    match a with
    | ⟨0, _⟩ => show win0_3.index t (0 : Fin 2) * 1 + 1 * (z 0).val = (z 0).val; rw [e3 0]; omega
    | ⟨1, _⟩ => show win0_3.index t (1 : Fin 2) * 128 + 1 * (z 1).val = (z 1).val; rw [e3 1]; omega
  have b4 : iblk0 V c 4 t = V c main_v41 := by
    funext z
    show V c main_v41 (((cfg0.win 4).blk t).view.emb z) = V c main_v41 z
    refine congrArg _ (funext fun a => Fin.ext ?_)
    match a with
    | ⟨0, _⟩ => show win0_4.index t (0 : Fin 2) * 1 + 1 * (z 0).val = (z 0).val; rw [e4 0]; omega
    | ⟨1, _⟩ => show win0_4.index t (1 : Fin 2) * 128 + 1 * (z 1).val = (z 1).val; rw [e4 1]; omega
  have b5 : iblk0 V c 5 t = V c main_v42 := by
    funext z
    show V c main_v42 (((cfg0.win 5).blk t).view.emb z) = V c main_v42 z
    refine congrArg _ (funext fun a => Fin.ext ?_)
    match a with
    | ⟨0, _⟩ => show win0_5.index t (0 : Fin 2) * 1 + 1 * (z 0).val = (z 0).val; rw [e5 0]; omega
    | ⟨1, _⟩ => show win0_5.index t (1 : Fin 2) * 128 + 1 * (z 1).val = (z 1).val; rw [e5 1]; omega
  have b6 : iblk0 V c 6 t = V c main_v43 := by
    funext z
    show V c main_v43 (((cfg0.win 6).blk t).view.emb z) = V c main_v43 z
    refine congrArg _ (funext fun a => Fin.ext ?_)
    match a with
    | ⟨0, _⟩ => show win0_6.index t (0 : Fin 2) * 1 + 1 * (z 0).val = (z 0).val; rw [e6 0]; omega
    | ⟨1, _⟩ => show win0_6.index t (1 : Fin 2) * 128 + 1 * (z 1).val = (z 1).val; rw [e6 1]; omega
  have ht : t.val < 20 := t.isLt
  refine layer_point _ _ _ _ _ _ _ (V c main_v26) _ _ _ _ _ _ t.val ht ?_ b1 b2 b3 b4 b5 b6 y _ ?_ ?_
  · intro p k hb
    show V c main_v26 (((cfg0.win 0).blk t).view.emb (ix2 p k)) = V c main_v26 _
    refine congrArg _ (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  · show win0_7.index t (0 : Fin 2) * 5000 + 1 * (y 0).val = t.val * 5000 + (y 0).val
    rw [e70]; omega
  · show win0_7.index t (1 : Fin 2) * 128 + 1 * (y 1).val = (y 1).val
    rw [e71]; omega

/-- An index of the result array is in point t's block iff each coordinate is in the block's range on its axis. -/
theorem mem_blk0 (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v44).slice (win0_7.rect t)).set ↔ _
  rw [View.set_slice_whole, Rect.mem_set_unit]
  exact Iff.rfl

/-- The twenty row blocks fill the result array, so it ends holding the layer of the arrays the region finds. -/
theorem final0 : (dat0 V c).arrAt 7 cfg0.N = res0 V c :=
  (dat0 V c).arrAt_eq_of_cover 7 (res0 V c) (fun t _ => flushed0 V c t) fun i => by
    have hi0 : (i 0).val < 100000 := (i 0).isLt
    have hi1 : (i 1).val < 128 := (i 1).isLt
    have ht : (i 0).val / 5000 < 20 := by omega
    refine ⟨⟨(i 0).val / 5000, ht⟩, flush0_7 _, ?_⟩
    rw [mem_blk0]
    obtain ⟨-, -, e70, e71, -⟩ := idx0 ⟨(i 0).val / 5000, ht⟩
    intro a
    match a with
    | ⟨0, _⟩ =>
      show win0_7.index ⟨(i 0).val / 5000, ht⟩ (0 : Fin 2) * 5000 ≤ (i 0).val
        ∧ (i 0).val < win0_7.index ⟨(i 0).val / 5000, ht⟩ (0 : Fin 2) * 5000 + 5000
      rw [e70]; show (i 0).val / 5000 * 5000 ≤ (i 0).val ∧ (i 0).val < (i 0).val / 5000 * 5000 + 5000; omega
    | ⟨1, _⟩ =>
      show win0_7.index ⟨(i 0).val / 5000, ht⟩ (1 : Fin 2) * 128 ≤ (i 1).val
        ∧ (i 1).val < win0_7.index ⟨(i 0).val / 5000, ht⟩ (1 : Fin 2) * 128 + 128
      rw [e71]; omega

end Region0

end Cert.Gin.Ker

end
-- ==== Proof.KRegion1.lean ====
/-
  Region 1's result array is one layer of the arrays the region finds: the same body, grid and windows as region 0
  over its own operand arrays — grid point t computes rows 5000 t … 5000 t + 4999 and the twenty row blocks fill the array.
-/
import proofs.«114777_j46617575031250_1_alg».proof.Proof.KRegion0

set_option maxRecDepth 16384

noncomputable section

namespace Cert.Gin.Ker

open Idealize.ShloMosaic Idealize.ShloMosaic.TcCoe Idealize.ShloMosaic.ValueIdx Idealize.SL.Sem Cert.KernelIdeal Cert.KernelIdeal.Gen Cert.Gin
open Idealize.ShloMosaic.Pipeline (Dat)

section Region1

variable (V : (c : Dev nD) → (b : Ref sig .tc) → Buf (Elt Ideal) ((c : Thread nD τ).loc b)) (c : Dev nD)

/-- Region 1's result as one function of the arrays it finds. -/
def res1 : S100000x128.Idx → EReal :=
  layer (R := 100000) (K := 128) (N := 128) (V c main_v44) (V c main_v46) (fun j => V c main_v57 (ix2 (0 : Fin 1) j))
    (fun j => V c main_v58 (ix2 (0 : Fin 1) j)) (fun j => V c main_v59 (ix2 (0 : Fin 1) j))
    (fun j => V c main_v60 (ix2 (0 : Fin 1) j)) (fun j => V c main_v61 (ix2 (0 : Fin 1) j))

/-- The printed index maps over the grid: the feature and result windows move one row block per point, the weight
    matrix and the parameter rows stay at the origin. -/
theorem idx1 : ∀ t : Fin cfg1.N, win1_0.index t (0 : Fin 2) = t.val ∧ win1_0.index t (1 : Fin 2) = 0
    ∧ win1_7.index t (0 : Fin 2) = t.val ∧ win1_7.index t (1 : Fin 2) = 0
    ∧ (∀ a : Fin 2, win1_1.index t a = 0) ∧ (∀ a : Fin 2, win1_2.index t a = 0) ∧ (∀ a : Fin 2, win1_3.index t a = 0)
    ∧ (∀ a : Fin 2, win1_4.index t a = 0) ∧ (∀ a : Fin 2, win1_5.index t a = 0) ∧ (∀ a : Fin 2, win1_6.index t a = 0) :=
  (by decide +kernel : ∀ t : Fin grid1.N, _)

/-- What point t writes back is block t of the layer of the arrays the region finds. -/
theorem flushed1 (t : Fin cfg1.N) :
    (dat1 V c).flushed 7 t = ((cfg1.win 7).blk t).view.read (Elt Ideal) (res1 V c) := by
  show (cfg1.win 7).cut (grid1.coords t) ((dat1 V c).after 7 t) = _
  rw [after1_7]
  unfold out1_7
  rw [View.canon_unit_zero origin2]
  simp only [View.ld_unit_zero (S := S5000x128) origin2, View.ld_unit_zero (S := S128x128) origin2,
    View.ld_unit_zero (S := S1x128) origin2]
  obtain ⟨e00, e01, e70, e71, e1, e2, e3, e4, e5, e6⟩ := idx1 t
  funext y
  show k0_pay1 (F := Ideal) (iblk1 V c 0 t) (iblk1 V c 1 t) (iblk1 V c 2 t) (iblk1 V c 5 t) (iblk1 V c 6 t) (iblk1 V c 3 t) (iblk1 V c 4 t) y
    = res1 V c (((cfg1.win 7).blk t).view.emb y)
  have b1 : iblk1 V c 1 t = V c main_v46 := by
    funext z
    show V c main_v46 (((cfg1.win 1).blk t).view.emb z) = V c main_v46 z
    refine congrArg _ (funext fun a => Fin.ext ?_)
    match a with
    | ⟨0, _⟩ => show win1_1.index t (0 : Fin 2) * 128 + 1 * (z 0).val = (z 0).val; rw [e1 0]; omega
    | ⟨1, _⟩ => show win1_1.index t (1 : Fin 2) * 128 + 1 * (z 1).val = (z 1).val; rw [e1 1]; omega
  have b2 : iblk1 V c 2 t = V c main_v57 := by
    funext z
    show V c main_v57 (((cfg1.win 2).blk t).view.emb z) = V c main_v57 z
    refine congrArg _ (funext fun a => Fin.ext ?_)
    match a with
    | ⟨0, _⟩ => show win1_2.index t (0 : Fin 2) * 1 + 1 * (z 0).val = (z 0).val; rw [e2 0]; omega
    | ⟨1, _⟩ => show win1_2.index t (1 : Fin 2) * 128 + 1 * (z 1).val = (z 1).val; rw [e2 1]; omega
  have b3 : iblk1 V c 3 t = V c main_v58 := by
    funext z
    show V c main_v58 (((cfg1.win 3).blk t).view.emb z) = V c main_v58 z
    refine congrArg _ (funext fun a => Fin.ext ?_)
    match a with
    | ⟨0, _⟩ => show win1_3.index t (0 : Fin 2) * 1 + 1 * (z 0).val = (z 0).val; rw [e3 0]; omega
    | ⟨1, _⟩ => show win1_3.index t (1 : Fin 2) * 128 + 1 * (z 1).val = (z 1).val; rw [e3 1]; omega
  have b4 : iblk1 V c 4 t = V c main_v59 := by
    funext z
    show V c main_v59 (((cfg1.win 4).blk t).view.emb z) = V c main_v59 z
    refine congrArg _ (funext fun a => Fin.ext ?_)
    match a with
    | ⟨0, _⟩ => show win1_4.index t (0 : Fin 2) * 1 + 1 * (z 0).val = (z 0).val; rw [e4 0]; omega
    | ⟨1, _⟩ => show win1_4.index t (1 : Fin 2) * 128 + 1 * (z 1).val = (z 1).val; rw [e4 1]; omega
  have b5 : iblk1 V c 5 t = V c main_v60 := by
    funext z
    show V c main_v60 (((cfg1.win 5).blk t).view.emb z) = V c main_v60 z
    refine congrArg _ (funext fun a => Fin.ext ?_)
    match a with
    | ⟨0, _⟩ => show win1_5.index t (0 : Fin 2) * 1 + 1 * (z 0).val = (z 0).val; rw [e5 0]; omega
    | ⟨1, _⟩ => show win1_5.index t (1 : Fin 2) * 128 + 1 * (z 1).val = (z 1).val; rw [e5 1]; omega
  have b6 : iblk1 V c 6 t = V c main_v61 := by
    funext z
    show V c main_v61 (((cfg1.win 6).blk t).view.emb z) = V c main_v61 z
    refine congrArg _ (funext fun a => Fin.ext ?_)
    match a with
    | ⟨0, _⟩ => show win1_6.index t (0 : Fin 2) * 1 + 1 * (z 0).val = (z 0).val; rw [e6 0]; omega
    | ⟨1, _⟩ => show win1_6.index t (1 : Fin 2) * 128 + 1 * (z 1).val = (z 1).val; rw [e6 1]; omega
  have ht : t.val < 20 := t.isLt
  refine layer_point _ _ _ _ _ _ _ (V c main_v44) _ _ _ _ _ _ t.val ht ?_ b1 b2 b3 b4 b5 b6 y _ ?_ ?_
  · intro p k hb
    show V c main_v44 (((cfg1.win 0).blk t).view.emb (ix2 p k)) = V c main_v44 _
    refine congrArg _ (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 128 + 1 * k.val = k.val; rw [e01]; omega
  · show win1_7.index t (0 : Fin 2) * 5000 + 1 * (y 0).val = t.val * 5000 + (y 0).val
    rw [e70]; omega
  · show win1_7.index t (1 : Fin 2) * 128 + 1 * (y 1).val = (y 1).val
    rw [e71]; omega

/-- An index of the result array is in point t's block iff each coordinate is in the block's range on its axis. -/
theorem mem_blk1 (t : Fin cfg1.N) (i : S100000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v62).slice (win1_7.rect t)).set ↔ _
  rw [View.set_slice_whole, Rect.mem_set_unit]
  exact Iff.rfl

/-- The twenty row blocks fill the result array, so it ends holding the layer of the arrays the region finds. -/
theorem final1 : (dat1 V c).arrAt 7 cfg1.N = res1 V c :=
  (dat1 V c).arrAt_eq_of_cover 7 (res1 V c) (fun t _ => flushed1 V c t) fun i => by
    have hi0 : (i 0).val < 100000 := (i 0).isLt
    have hi1 : (i 1).val < 128 := (i 1).isLt
    have ht : (i 0).val / 5000 < 20 := by omega
    refine ⟨⟨(i 0).val / 5000, ht⟩, flush1_7 _, ?_⟩
    rw [mem_blk1]
    obtain ⟨-, -, e70, e71, -⟩ := idx1 ⟨(i 0).val / 5000, ht⟩
    intro a
    match a with
    | ⟨0, _⟩ =>
      show win1_7.index ⟨(i 0).val / 5000, ht⟩ (0 : Fin 2) * 5000 ≤ (i 0).val
        ∧ (i 0).val < win1_7.index ⟨(i 0).val / 5000, ht⟩ (0 : Fin 2) * 5000 + 5000
      rw [e70]; show (i 0).val / 5000 * 5000 ≤ (i 0).val ∧ (i 0).val < (i 0).val / 5000 * 5000 + 5000; omega
    | ⟨1, _⟩ =>
      show win1_7.index ⟨(i 0).val / 5000, ht⟩ (1 : Fin 2) * 128 ≤ (i 1).val
        ∧ (i 1).val < win1_7.index ⟨(i 0).val / 5000, ht⟩ (1 : Fin 2) * 128 + 128
      rw [e71]; omega

end Region1

end Cert.Gin.Ker

end
-- ==== Proof.KRegion2.lean ====
/-
  Region 2's result array is one layer of the arrays the region finds: the same body, grid and windows as region 0
  over its own operand arrays — grid point t computes rows 5000 t … 5000 t + 4999 and the twenty row blocks fill the array.
-/
import proofs.«114777_j46617575031250_1_alg».proof.Proof.KRegion0

set_option maxRecDepth 16384

noncomputable section

namespace Cert.Gin.Ker

open Idealize.ShloMosaic Idealize.ShloMosaic.TcCoe Idealize.ShloMosaic.ValueIdx Idealize.SL.Sem Cert.KernelIdeal Cert.KernelIdeal.Gen Cert.Gin
open Idealize.ShloMosaic.Pipeline (Dat)

section Region2

variable (V : (c : Dev nD) → (b : Ref sig .tc) → Buf (Elt Ideal) ((c : Thread nD τ).loc b)) (c : Dev nD)

/-- Region 2's result as one function of the arrays it finds. -/
def res2 : S100000x128.Idx → EReal :=
  layer (R := 100000) (K := 128) (N := 128) (V c main_v62) (V c main_v64) (fun j => V c main_v75 (ix2 (0 : Fin 1) j))
    (fun j => V c main_v76 (ix2 (0 : Fin 1) j)) (fun j => V c main_v77 (ix2 (0 : Fin 1) j))
    (fun j => V c main_v78 (ix2 (0 : Fin 1) j)) (fun j => V c main_v79 (ix2 (0 : Fin 1) j))

/-- The printed index maps over the grid: the feature and result windows move one row block per point, the weight
    matrix and the parameter rows stay at the origin. -/
theorem idx2 : ∀ t : Fin cfg2.N, win2_0.index t (0 : Fin 2) = t.val ∧ win2_0.index t (1 : Fin 2) = 0
    ∧ win2_7.index t (0 : Fin 2) = t.val ∧ win2_7.index t (1 : Fin 2) = 0
    ∧ (∀ a : Fin 2, win2_1.index t a = 0) ∧ (∀ a : Fin 2, win2_2.index t a = 0) ∧ (∀ a : Fin 2, win2_3.index t a = 0)
    ∧ (∀ a : Fin 2, win2_4.index t a = 0) ∧ (∀ a : Fin 2, win2_5.index t a = 0) ∧ (∀ a : Fin 2, win2_6.index t a = 0) :=
  (by decide +kernel : ∀ t : Fin grid2.N, _)

/-- What point t writes back is block t of the layer of the arrays the region finds. -/
theorem flushed2 (t : Fin cfg2.N) :
    (dat2 V c).flushed 7 t = ((cfg2.win 7).blk t).view.read (Elt Ideal) (res2 V c) := by
  show (cfg2.win 7).cut (grid2.coords t) ((dat2 V c).after 7 t) = _
  rw [after2_7]
  unfold out2_7
  rw [View.canon_unit_zero origin2]
  simp only [View.ld_unit_zero (S := S5000x128) origin2, View.ld_unit_zero (S := S128x128) origin2,
    View.ld_unit_zero (S := S1x128) origin2]
  obtain ⟨e00, e01, e70, e71, e1, e2, e3, e4, e5, e6⟩ := idx2 t
  funext y
  show k0_pay1 (F := Ideal) (iblk2 V c 0 t) (iblk2 V c 1 t) (iblk2 V c 2 t) (iblk2 V c 5 t) (iblk2 V c 6 t) (iblk2 V c 3 t) (iblk2 V c 4 t) y
    = res2 V c (((cfg2.win 7).blk t).view.emb y)
  have b1 : iblk2 V c 1 t = V c main_v64 := by
    funext z
    show V c main_v64 (((cfg2.win 1).blk t).view.emb z) = V c main_v64 z
    refine congrArg _ (funext fun a => Fin.ext ?_)
    match a with
    | ⟨0, _⟩ => show win2_1.index t (0 : Fin 2) * 128 + 1 * (z 0).val = (z 0).val; rw [e1 0]; omega
    | ⟨1, _⟩ => show win2_1.index t (1 : Fin 2) * 128 + 1 * (z 1).val = (z 1).val; rw [e1 1]; omega
  have b2 : iblk2 V c 2 t = V c main_v75 := by
    funext z
    show V c main_v75 (((cfg2.win 2).blk t).view.emb z) = V c main_v75 z
    refine congrArg _ (funext fun a => Fin.ext ?_)
    match a with
    | ⟨0, _⟩ => show win2_2.index t (0 : Fin 2) * 1 + 1 * (z 0).val = (z 0).val; rw [e2 0]; omega
    | ⟨1, _⟩ => show win2_2.index t (1 : Fin 2) * 128 + 1 * (z 1).val = (z 1).val; rw [e2 1]; omega
  have b3 : iblk2 V c 3 t = V c main_v76 := by
    funext z
    show V c main_v76 (((cfg2.win 3).blk t).view.emb z) = V c main_v76 z
    refine congrArg _ (funext fun a => Fin.ext ?_)
    match a with
    | ⟨0, _⟩ => show win2_3.index t (0 : Fin 2) * 1 + 1 * (z 0).val = (z 0).val; rw [e3 0]; omega
    | ⟨1, _⟩ => show win2_3.index t (1 : Fin 2) * 128 + 1 * (z 1).val = (z 1).val; rw [e3 1]; omega
  have b4 : iblk2 V c 4 t = V c main_v77 := by
    funext z
    show V c main_v77 (((cfg2.win 4).blk t).view.emb z) = V c main_v77 z
    refine congrArg _ (funext fun a => Fin.ext ?_)
    match a with
    | ⟨0, _⟩ => show win2_4.index t (0 : Fin 2) * 1 + 1 * (z 0).val = (z 0).val; rw [e4 0]; omega
    | ⟨1, _⟩ => show win2_4.index t (1 : Fin 2) * 128 + 1 * (z 1).val = (z 1).val; rw [e4 1]; omega
  have b5 : iblk2 V c 5 t = V c main_v78 := by
    funext z
    show V c main_v78 (((cfg2.win 5).blk t).view.emb z) = V c main_v78 z
    refine congrArg _ (funext fun a => Fin.ext ?_)
    match a with
    | ⟨0, _⟩ => show win2_5.index t (0 : Fin 2) * 1 + 1 * (z 0).val = (z 0).val; rw [e5 0]; omega
    | ⟨1, _⟩ => show win2_5.index t (1 : Fin 2) * 128 + 1 * (z 1).val = (z 1).val; rw [e5 1]; omega
  have b6 : iblk2 V c 6 t = V c main_v79 := by
    funext z
    show V c main_v79 (((cfg2.win 6).blk t).view.emb z) = V c main_v79 z
    refine congrArg _ (funext fun a => Fin.ext ?_)
    match a with
    | ⟨0, _⟩ => show win2_6.index t (0 : Fin 2) * 1 + 1 * (z 0).val = (z 0).val; rw [e6 0]; omega
    | ⟨1, _⟩ => show win2_6.index t (1 : Fin 2) * 128 + 1 * (z 1).val = (z 1).val; rw [e6 1]; omega
  have ht : t.val < 20 := t.isLt
  refine layer_point _ _ _ _ _ _ _ (V c main_v62) _ _ _ _ _ _ t.val ht ?_ b1 b2 b3 b4 b5 b6 y _ ?_ ?_
  · intro p k hb
    show V c main_v62 (((cfg2.win 0).blk t).view.emb (ix2 p k)) = V c main_v62 _
    refine congrArg _ (funext fun a => Fin.ext ?_)
    match a with
    | ⟨0, _⟩ => show win2_0.index t (0 : Fin 2) * 5000 + 1 * p.val = t.val * 5000 + p.val; rw [e00]; omega
    | ⟨1, _⟩ => show win2_0.index t (1 : Fin 2) * 128 + 1 * k.val = k.val; rw [e01]; omega
  · show win2_7.index t (0 : Fin 2) * 5000 + 1 * (y 0).val = t.val * 5000 + (y 0).val
    rw [e70]; omega
  · show win2_7.index t (1 : Fin 2) * 128 + 1 * (y 1).val = (y 1).val
    rw [e71]; omega

/-- An index of the result array is in point t's block iff each coordinate is in the block's range on its axis. -/
theorem mem_blk2 (t : Fin cfg2.N) (i : S100000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v80).slice (win2_7.rect t)).set ↔ _
  rw [View.set_slice_whole, Rect.mem_set_unit]
  exact Iff.rfl

/-- The twenty row blocks fill the result array, so it ends holding the layer of the arrays the region finds. -/
theorem final2 : (dat2 V c).arrAt 7 cfg2.N = res2 V c :=
  (dat2 V c).arrAt_eq_of_cover 7 (res2 V c) (fun t _ => flushed2 V c t) fun i => by
    have hi0 : (i 0).val < 100000 := (i 0).isLt
    have hi1 : (i 1).val < 128 := (i 1).isLt
    have ht : (i 0).val / 5000 < 20 := by omega
    refine ⟨⟨(i 0).val / 5000, ht⟩, flush2_7 _, ?_⟩
    rw [mem_blk2]
    obtain ⟨-, -, e70, e71, -⟩ := idx2 ⟨(i 0).val / 5000, ht⟩
    intro a
    match a with
    | ⟨0, _⟩ =>
      show win2_7.index ⟨(i 0).val / 5000, ht⟩ (0 : Fin 2) * 5000 ≤ (i 0).val
        ∧ (i 0).val < win2_7.index ⟨(i 0).val / 5000, ht⟩ (0 : Fin 2) * 5000 + 5000
      rw [e70]; show (i 0).val / 5000 * 5000 ≤ (i 0).val ∧ (i 0).val < (i 0).val / 5000 * 5000 + 5000; omega
    | ⟨1, _⟩ =>
      show win2_7.index ⟨(i 0).val / 5000, ht⟩ (1 : Fin 2) * 128 ≤ (i 1).val
        ∧ (i 1).val < win2_7.index ⟨(i 0).val / 5000, ht⟩ (1 : Fin 2) * 128 + 128
      rw [e71]; omega

end Region2

end Cert.Gin.Ker

end
-- ==== Proof.KRegion3.lean ====
/-
  Region 3's result array is one layer of the arrays the region finds: the same body, grid and windows as region 0
  over its own operand arrays — grid point t computes rows 5000 t … 5000 t + 4999 and the twenty row blocks fill the array.
-/
import proofs.«114777_j46617575031250_1_alg».proof.Proof.KRegion0

set_option maxRecDepth 16384

noncomputable section

namespace Cert.Gin.Ker

open Idealize.ShloMosaic Idealize.ShloMosaic.TcCoe Idealize.ShloMosaic.ValueIdx Idealize.SL.Sem Cert.KernelIdeal Cert.KernelIdeal.Gen Cert.Gin
open Idealize.ShloMosaic.Pipeline (Dat)

section Region3

variable (V : (c : Dev nD) → (b : Ref sig .tc) → Buf (Elt Ideal) ((c : Thread nD τ).loc b)) (c : Dev nD)

/-- Region 3's result as one function of the arrays it finds. -/
def res3 : S100000x128.Idx → EReal :=
  layer (R := 100000) (K := 128) (N := 128) (V c main_v107) (V c main_v109) (fun j => V c main_v120 (ix2 (0 : Fin 1) j))
    (fun j => V c main_v121 (ix2 (0 : Fin 1) j)) (fun j => V c main_v122 (ix2 (0 : Fin 1) j))
    (fun j => V c main_v123 (ix2 (0 : Fin 1) j)) (fun j => V c main_v124 (ix2 (0 : Fin 1) j))

/-- The printed index maps over the grid: the feature and result windows move one row block per point, the weight
    matrix and the parameter rows stay at the origin. -/
theorem idx3 : ∀ t : Fin cfg3.N, win3_0.index t (0 : Fin 2) = t.val ∧ win3_0.index t (1 : Fin 2) = 0
    ∧ win3_7.index t (0 : Fin 2) = t.val ∧ win3_7.index t (1 : Fin 2) = 0
    ∧ (∀ a : Fin 2, win3_1.index t a = 0) ∧ (∀ a : Fin 2, win3_2.index t a = 0) ∧ (∀ a : Fin 2, win3_3.index t a = 0)
    ∧ (∀ a : Fin 2, win3_4.index t a = 0) ∧ (∀ a : Fin 2, win3_5.index t a = 0) ∧ (∀ a : Fin 2, win3_6.index t a = 0) :=
  (by decide +kernel : ∀ t : Fin grid3.N, _)

/-- What point t writes back is block t of the layer of the arrays the region finds. -/
theorem flushed3 (t : Fin cfg3.N) :
    (dat3 V c).flushed 7 t = ((cfg3.win 7).blk t).view.read (Elt Ideal) (res3 V c) := by
  show (cfg3.win 7).cut (grid3.coords t) ((dat3 V c).after 7 t) = _
  rw [after3_7]
  unfold out3_7
  rw [View.canon_unit_zero origin2]
  simp only [View.ld_unit_zero (S := S5000x128) origin2, View.ld_unit_zero (S := S128x128) origin2,
    View.ld_unit_zero (S := S1x128) origin2]
  obtain ⟨e00, e01, e70, e71, e1, e2, e3, e4, e5, e6⟩ := idx3 t
  funext y
  show k0_pay1 (F := Ideal) (iblk3 V c 0 t) (iblk3 V c 1 t) (iblk3 V c 2 t) (iblk3 V c 5 t) (iblk3 V c 6 t) (iblk3 V c 3 t) (iblk3 V c 4 t) y
    = res3 V c (((cfg3.win 7).blk t).view.emb y)
  have b1 : iblk3 V c 1 t = V c main_v109 := by
    funext z
    show V c main_v109 (((cfg3.win 1).blk t).view.emb z) = V c main_v109 z
    refine congrArg _ (funext fun a => Fin.ext ?_)
    match a with
    | ⟨0, _⟩ => show win3_1.index t (0 : Fin 2) * 128 + 1 * (z 0).val = (z 0).val; rw [e1 0]; omega
    | ⟨1, _⟩ => show win3_1.index t (1 : Fin 2) * 128 + 1 * (z 1).val = (z 1).val; rw [e1 1]; omega
  have b2 : iblk3 V c 2 t = V c main_v120 := by
    funext z
    show V c main_v120 (((cfg3.win 2).blk t).view.emb z) = V c main_v120 z
    refine congrArg _ (funext fun a => Fin.ext ?_)
    match a with
    | ⟨0, _⟩ => show win3_2.index t (0 : Fin 2) * 1 + 1 * (z 0).val = (z 0).val; rw [e2 0]; omega
    | ⟨1, _⟩ => show win3_2.index t (1 : Fin 2) * 128 + 1 * (z 1).val = (z 1).val; rw [e2 1]; omega
  have b3 : iblk3 V c 3 t = V c main_v121 := by
    funext z
    show V c main_v121 (((cfg3.win 3).blk t).view.emb z) = V c main_v121 z
    refine congrArg _ (funext fun a => Fin.ext ?_)
    match a with
    | ⟨0, _⟩ => show win3_3.index t (0 : Fin 2) * 1 + 1 * (z 0).val = (z 0).val; rw [e3 0]; omega
    | ⟨1, _⟩ => show win3_3.index t (1 : Fin 2) * 128 + 1 * (z 1).val = (z 1).val; rw [e3 1]; omega
  have b4 : iblk3 V c 4 t = V c main_v122 := by
    funext z
    show V c main_v122 (((cfg3.win 4).blk t).view.emb z) = V c main_v122 z
    refine congrArg _ (funext fun a => Fin.ext ?_)
    match a with
    | ⟨0, _⟩ => show win3_4.index t (0 : Fin 2) * 1 + 1 * (z 0).val = (z 0).val; rw [e4 0]; omega
    | ⟨1, _⟩ => show win3_4.index t (1 : Fin 2) * 128 + 1 * (z 1).val = (z 1).val; rw [e4 1]; omega
  have b5 : iblk3 V c 5 t = V c main_v123 := by
    funext z
    show V c main_v123 (((cfg3.win 5).blk t).view.emb z) = V c main_v123 z
    refine congrArg _ (funext fun a => Fin.ext ?_)
    match a with
    | ⟨0, _⟩ => show win3_5.index t (0 : Fin 2) * 1 + 1 * (z 0).val = (z 0).val; rw [e5 0]; omega
    | ⟨1, _⟩ => show win3_5.index t (1 : Fin 2) * 128 + 1 * (z 1).val = (z 1).val; rw [e5 1]; omega
  have b6 : iblk3 V c 6 t = V c main_v124 := by
    funext z
    show V c main_v124 (((cfg3.win 6).blk t).view.emb z) = V c main_v124 z
    refine congrArg _ (funext fun a => Fin.ext ?_)
    match a with
    | ⟨0, _⟩ => show win3_6.index t (0 : Fin 2) * 1 + 1 * (z 0).val = (z 0).val; rw [e6 0]; omega
    | ⟨1, _⟩ => show win3_6.index t (1 : Fin 2) * 128 + 1 * (z 1).val = (z 1).val; rw [e6 1]; omega
  have ht : t.val < 20 := t.isLt
  refine layer_point _ _ _ _ _ _ _ (V c main_v107) _ _ _ _ _ _ t.val ht ?_ b1 b2 b3 b4 b5 b6 y _ ?_ ?_
  · intro p k hb
    show V c main_v107 (((cfg3.win 0).blk t).view.emb (ix2 p k)) = V c main_v107 _
    refine congrArg _ (funext fun a => Fin.ext ?_)
    match a with
    | ⟨0, _⟩ => show win3_0.index t (0 : Fin 2) * 5000 + 1 * p.val = t.val * 5000 + p.val; rw [e00]; omega
    | ⟨1, _⟩ => show win3_0.index t (1 : Fin 2) * 128 + 1 * k.val = k.val; rw [e01]; omega
  · show win3_7.index t (0 : Fin 2) * 5000 + 1 * (y 0).val = t.val * 5000 + (y 0).val
    rw [e70]; omega
  · show win3_7.index t (1 : Fin 2) * 128 + 1 * (y 1).val = (y 1).val
    rw [e71]; omega

/-- An index of the result array is in point t's block iff each coordinate is in the block's range on its axis. -/
theorem mem_blk3 (t : Fin cfg3.N) (i : S100000x128.Idx) :
    i ∈ ((cfg3.win 7).blk t).view.set ↔ ∀ a : Fin 2, win3_7.index t a * S5000x128.size a ≤ (i a).val
      ∧ (i a).val < win3_7.index t a * S5000x128.size a + S5000x128.size a := by
  show i ∈ ((View.whole main_v125).slice (win3_7.rect t)).set ↔ _
  rw [View.set_slice_whole, Rect.mem_set_unit]
  exact Iff.rfl

/-- The twenty row blocks fill the result array, so it ends holding the layer of the arrays the region finds. -/
theorem final3 : (dat3 V c).arrAt 7 cfg3.N = res3 V c :=
  (dat3 V c).arrAt_eq_of_cover 7 (res3 V c) (fun t _ => flushed3 V c t) fun i => by
    have hi0 : (i 0).val < 100000 := (i 0).isLt
    have hi1 : (i 1).val < 128 := (i 1).isLt
    have ht : (i 0).val / 5000 < 20 := by omega
    refine ⟨⟨(i 0).val / 5000, ht⟩, flush3_7 _, ?_⟩
    rw [mem_blk3]
    obtain ⟨-, -, e70, e71, -⟩ := idx3 ⟨(i 0).val / 5000, ht⟩
    intro a
    match a with
    | ⟨0, _⟩ =>
      show win3_7.index ⟨(i 0).val / 5000, ht⟩ (0 : Fin 2) * 5000 ≤ (i 0).val
        ∧ (i 0).val < win3_7.index ⟨(i 0).val / 5000, ht⟩ (0 : Fin 2) * 5000 + 5000
      rw [e70]; show (i 0).val / 5000 * 5000 ≤ (i 0).val ∧ (i 0).val < (i 0).val / 5000 * 5000 + 5000; omega
    | ⟨1, _⟩ =>
      show win3_7.index ⟨(i 0).val / 5000, ht⟩ (1 : Fin 2) * 128 ≤ (i 1).val
        ∧ (i 1).val < win3_7.index ⟨(i 0).val / 5000, ht⟩ (1 : Fin 2) * 128 + 128
      rw [e71]; omega

end Region3

end Cert.Gin.Ker

end
-- ==== Proof.KRegion4.lean ====
/-
  Region 4's result array is one layer of the arrays the region finds: the same body, grid and windows as region 0
  over its own operand arrays — grid point t computes rows 5000 t … 5000 t + 4999 and the twenty row blocks fill the array.
-/
import proofs.«114777_j46617575031250_1_alg».proof.Proof.KRegion0

set_option maxRecDepth 16384

noncomputable section

namespace Cert.Gin.Ker

open Idealize.ShloMosaic Idealize.ShloMosaic.TcCoe Idealize.ShloMosaic.ValueIdx Idealize.SL.Sem Cert.KernelIdeal Cert.KernelIdeal.Gen Cert.Gin
open Idealize.ShloMosaic.Pipeline (Dat)

section Region4

variable (V : (c : Dev nD) → (b : Ref sig .tc) → Buf (Elt Ideal) ((c : Thread nD τ).loc b)) (c : Dev nD)

/-- Region 4's result as one function of the arrays it finds. -/
def res4 : S100000x128.Idx → EReal :=
  layer (R := 100000) (K := 128) (N := 128) (V c main_v125) (V c main_v127) (fun j => V c main_v138 (ix2 (0 : Fin 1) j))
    (fun j => V c main_v139 (ix2 (0 : Fin 1) j)) (fun j => V c main_v140 (ix2 (0 : Fin 1) j))
    (fun j => V c main_v141 (ix2 (0 : Fin 1) j)) (fun j => V c main_v142 (ix2 (0 : Fin 1) j))

/-- The printed index maps over the grid: the feature and result windows move one row block per point, the weight
    matrix and the parameter rows stay at the origin. -/
theorem idx4 : ∀ t : Fin cfg4.N, win4_0.index t (0 : Fin 2) = t.val ∧ win4_0.index t (1 : Fin 2) = 0
    ∧ win4_7.index t (0 : Fin 2) = t.val ∧ win4_7.index t (1 : Fin 2) = 0
    ∧ (∀ a : Fin 2, win4_1.index t a = 0) ∧ (∀ a : Fin 2, win4_2.index t a = 0) ∧ (∀ a : Fin 2, win4_3.index t a = 0)
    ∧ (∀ a : Fin 2, win4_4.index t a = 0) ∧ (∀ a : Fin 2, win4_5.index t a = 0) ∧ (∀ a : Fin 2, win4_6.index t a = 0) :=
  (by decide +kernel : ∀ t : Fin grid4.N, _)

/-- What point t writes back is block t of the layer of the arrays the region finds. -/
theorem flushed4 (t : Fin cfg4.N) :
    (dat4 V c).flushed 7 t = ((cfg4.win 7).blk t).view.read (Elt Ideal) (res4 V c) := by
  show (cfg4.win 7).cut (grid4.coords t) ((dat4 V c).after 7 t) = _
  rw [after4_7]
  unfold out4_7
  rw [View.canon_unit_zero origin2]
  simp only [View.ld_unit_zero (S := S5000x128) origin2, View.ld_unit_zero (S := S128x128) origin2,
    View.ld_unit_zero (S := S1x128) origin2]
  obtain ⟨e00, e01, e70, e71, e1, e2, e3, e4, e5, e6⟩ := idx4 t
  funext y
  show k0_pay1 (F := Ideal) (iblk4 V c 0 t) (iblk4 V c 1 t) (iblk4 V c 2 t) (iblk4 V c 5 t) (iblk4 V c 6 t) (iblk4 V c 3 t) (iblk4 V c 4 t) y
    = res4 V c (((cfg4.win 7).blk t).view.emb y)
  have b1 : iblk4 V c 1 t = V c main_v127 := by
    funext z
    show V c main_v127 (((cfg4.win 1).blk t).view.emb z) = V c main_v127 z
    refine congrArg _ (funext fun a => Fin.ext ?_)
    match a with
    | ⟨0, _⟩ => show win4_1.index t (0 : Fin 2) * 128 + 1 * (z 0).val = (z 0).val; rw [e1 0]; omega
    | ⟨1, _⟩ => show win4_1.index t (1 : Fin 2) * 128 + 1 * (z 1).val = (z 1).val; rw [e1 1]; omega
  have b2 : iblk4 V c 2 t = V c main_v138 := by
    funext z
    show V c main_v138 (((cfg4.win 2).blk t).view.emb z) = V c main_v138 z
    refine congrArg _ (funext fun a => Fin.ext ?_)
    match a with
    | ⟨0, _⟩ => show win4_2.index t (0 : Fin 2) * 1 + 1 * (z 0).val = (z 0).val; rw [e2 0]; omega
    | ⟨1, _⟩ => show win4_2.index t (1 : Fin 2) * 128 + 1 * (z 1).val = (z 1).val; rw [e2 1]; omega
  have b3 : iblk4 V c 3 t = V c main_v139 := by
    funext z
    show V c main_v139 (((cfg4.win 3).blk t).view.emb z) = V c main_v139 z
    refine congrArg _ (funext fun a => Fin.ext ?_)
    match a with
    | ⟨0, _⟩ => show win4_3.index t (0 : Fin 2) * 1 + 1 * (z 0).val = (z 0).val; rw [e3 0]; omega
    | ⟨1, _⟩ => show win4_3.index t (1 : Fin 2) * 128 + 1 * (z 1).val = (z 1).val; rw [e3 1]; omega
  have b4 : iblk4 V c 4 t = V c main_v140 := by
    funext z
    show V c main_v140 (((cfg4.win 4).blk t).view.emb z) = V c main_v140 z
    refine congrArg _ (funext fun a => Fin.ext ?_)
    match a with
    | ⟨0, _⟩ => show win4_4.index t (0 : Fin 2) * 1 + 1 * (z 0).val = (z 0).val; rw [e4 0]; omega
    | ⟨1, _⟩ => show win4_4.index t (1 : Fin 2) * 128 + 1 * (z 1).val = (z 1).val; rw [e4 1]; omega
  have b5 : iblk4 V c 5 t = V c main_v141 := by
    funext z
    show V c main_v141 (((cfg4.win 5).blk t).view.emb z) = V c main_v141 z
    refine congrArg _ (funext fun a => Fin.ext ?_)
    match a with
    | ⟨0, _⟩ => show win4_5.index t (0 : Fin 2) * 1 + 1 * (z 0).val = (z 0).val; rw [e5 0]; omega
    | ⟨1, _⟩ => show win4_5.index t (1 : Fin 2) * 128 + 1 * (z 1).val = (z 1).val; rw [e5 1]; omega
  have b6 : iblk4 V c 6 t = V c main_v142 := by
    funext z
    show V c main_v142 (((cfg4.win 6).blk t).view.emb z) = V c main_v142 z
    refine congrArg _ (funext fun a => Fin.ext ?_)
    match a with
    | ⟨0, _⟩ => show win4_6.index t (0 : Fin 2) * 1 + 1 * (z 0).val = (z 0).val; rw [e6 0]; omega
    | ⟨1, _⟩ => show win4_6.index t (1 : Fin 2) * 128 + 1 * (z 1).val = (z 1).val; rw [e6 1]; omega
  have ht : t.val < 20 := t.isLt
  refine layer_point _ _ _ _ _ _ _ (V c main_v125) _ _ _ _ _ _ t.val ht ?_ b1 b2 b3 b4 b5 b6 y _ ?_ ?_
  · intro p k hb
    show V c main_v125 (((cfg4.win 0).blk t).view.emb (ix2 p k)) = V c main_v125 _
    refine congrArg _ (funext fun a => Fin.ext ?_)
    match a with
    | ⟨0, _⟩ => show win4_0.index t (0 : Fin 2) * 5000 + 1 * p.val = t.val * 5000 + p.val; rw [e00]; omega
    | ⟨1, _⟩ => show win4_0.index t (1 : Fin 2) * 128 + 1 * k.val = k.val; rw [e01]; omega
  · show win4_7.index t (0 : Fin 2) * 5000 + 1 * (y 0).val = t.val * 5000 + (y 0).val
    rw [e70]; omega
  · show win4_7.index t (1 : Fin 2) * 128 + 1 * (y 1).val = (y 1).val
    rw [e71]; omega

/-- An index of the result array is in point t's block iff each coordinate is in the block's range on its axis. -/
theorem mem_blk4 (t : Fin cfg4.N) (i : S100000x128.Idx) :
    i ∈ ((cfg4.win 7).blk t).view.set ↔ ∀ a : Fin 2, win4_7.index t a * S5000x128.size a ≤ (i a).val
      ∧ (i a).val < win4_7.index t a * S5000x128.size a + S5000x128.size a := by
  show i ∈ ((View.whole main_v143).slice (win4_7.rect t)).set ↔ _
  rw [View.set_slice_whole, Rect.mem_set_unit]
  exact Iff.rfl

/-- The twenty row blocks fill the result array, so it ends holding the layer of the arrays the region finds. -/
theorem final4 : (dat4 V c).arrAt 7 cfg4.N = res4 V c :=
  (dat4 V c).arrAt_eq_of_cover 7 (res4 V c) (fun t _ => flushed4 V c t) fun i => by
    have hi0 : (i 0).val < 100000 := (i 0).isLt
    have hi1 : (i 1).val < 128 := (i 1).isLt
    have ht : (i 0).val / 5000 < 20 := by omega
    refine ⟨⟨(i 0).val / 5000, ht⟩, flush4_7 _, ?_⟩
    rw [mem_blk4]
    obtain ⟨-, -, e70, e71, -⟩ := idx4 ⟨(i 0).val / 5000, ht⟩
    intro a
    match a with
    | ⟨0, _⟩ =>
      show win4_7.index ⟨(i 0).val / 5000, ht⟩ (0 : Fin 2) * 5000 ≤ (i 0).val
        ∧ (i 0).val < win4_7.index ⟨(i 0).val / 5000, ht⟩ (0 : Fin 2) * 5000 + 5000
      rw [e70]; show (i 0).val / 5000 * 5000 ≤ (i 0).val ∧ (i 0).val < (i 0).val / 5000 * 5000 + 5000; omega
    | ⟨1, _⟩ =>
      show win4_7.index ⟨(i 0).val / 5000, ht⟩ (1 : Fin 2) * 128 ≤ (i 1).val
        ∧ (i 1).val < win4_7.index ⟨(i 0).val / 5000, ht⟩ (1 : Fin 2) * 128 + 128
      rw [e71]; omega

end Region4

end Cert.Gin.Ker

end
-- ==== Proof.KRegion5.lean ====
/-
  Region 5's result array is one layer of the arrays the region finds: the same body, grid and windows as region 0
  over its own operand arrays — grid point t computes rows 5000 t … 5000 t + 4999 and the twenty row blocks fill the array.
-/
import proofs.«114777_j46617575031250_1_alg».proof.Proof.KRegion0

set_option maxRecDepth 16384

noncomputable section

namespace Cert.Gin.Ker

open Idealize.ShloMosaic Idealize.ShloMosaic.TcCoe Idealize.ShloMosaic.ValueIdx Idealize.SL.Sem Cert.KernelIdeal Cert.KernelIdeal.Gen Cert.Gin
open Idealize.ShloMosaic.Pipeline (Dat)

section Region5

variable (V : (c : Dev nD) → (b : Ref sig .tc) → Buf (Elt Ideal) ((c : Thread nD τ).loc b)) (c : Dev nD)

/-- Region 5's result as one function of the arrays it finds. -/
def res5 : S100000x128.Idx → EReal :=
  layer (R := 100000) (K := 128) (N := 128) (V c main_v143) (V c main_v145) (fun j => V c main_v156 (ix2 (0 : Fin 1) j))
    (fun j => V c main_v157 (ix2 (0 : Fin 1) j)) (fun j => V c main_v158 (ix2 (0 : Fin 1) j))
    (fun j => V c main_v159 (ix2 (0 : Fin 1) j)) (fun j => V c main_v160 (ix2 (0 : Fin 1) j))

/-- The printed index maps over the grid: the feature and result windows move one row block per point, the weight
    matrix and the parameter rows stay at the origin. -/
theorem idx5 : ∀ t : Fin cfg5.N, win5_0.index t (0 : Fin 2) = t.val ∧ win5_0.index t (1 : Fin 2) = 0
    ∧ win5_7.index t (0 : Fin 2) = t.val ∧ win5_7.index t (1 : Fin 2) = 0
    ∧ (∀ a : Fin 2, win5_1.index t a = 0) ∧ (∀ a : Fin 2, win5_2.index t a = 0) ∧ (∀ a : Fin 2, win5_3.index t a = 0)
    ∧ (∀ a : Fin 2, win5_4.index t a = 0) ∧ (∀ a : Fin 2, win5_5.index t a = 0) ∧ (∀ a : Fin 2, win5_6.index t a = 0) :=
  (by decide +kernel : ∀ t : Fin grid5.N, _)

/-- What point t writes back is block t of the layer of the arrays the region finds. -/
theorem flushed5 (t : Fin cfg5.N) :
    (dat5 V c).flushed 7 t = ((cfg5.win 7).blk t).view.read (Elt Ideal) (res5 V c) := by
  show (cfg5.win 7).cut (grid5.coords t) ((dat5 V c).after 7 t) = _
  rw [after5_7]
  unfold out5_7
  rw [View.canon_unit_zero origin2]
  simp only [View.ld_unit_zero (S := S5000x128) origin2, View.ld_unit_zero (S := S128x128) origin2,
    View.ld_unit_zero (S := S1x128) origin2]
  obtain ⟨e00, e01, e70, e71, e1, e2, e3, e4, e5, e6⟩ := idx5 t
  funext y
  show k0_pay1 (F := Ideal) (iblk5 V c 0 t) (iblk5 V c 1 t) (iblk5 V c 2 t) (iblk5 V c 5 t) (iblk5 V c 6 t) (iblk5 V c 3 t) (iblk5 V c 4 t) y
    = res5 V c (((cfg5.win 7).blk t).view.emb y)
  have b1 : iblk5 V c 1 t = V c main_v145 := by
    funext z
    show V c main_v145 (((cfg5.win 1).blk t).view.emb z) = V c main_v145 z
    refine congrArg _ (funext fun a => Fin.ext ?_)
    match a with
    | ⟨0, _⟩ => show win5_1.index t (0 : Fin 2) * 128 + 1 * (z 0).val = (z 0).val; rw [e1 0]; omega
    | ⟨1, _⟩ => show win5_1.index t (1 : Fin 2) * 128 + 1 * (z 1).val = (z 1).val; rw [e1 1]; omega
  have b2 : iblk5 V c 2 t = V c main_v156 := by
    funext z
    show V c main_v156 (((cfg5.win 2).blk t).view.emb z) = V c main_v156 z
    refine congrArg _ (funext fun a => Fin.ext ?_)
    match a with
    | ⟨0, _⟩ => show win5_2.index t (0 : Fin 2) * 1 + 1 * (z 0).val = (z 0).val; rw [e2 0]; omega
    | ⟨1, _⟩ => show win5_2.index t (1 : Fin 2) * 128 + 1 * (z 1).val = (z 1).val; rw [e2 1]; omega
  have b3 : iblk5 V c 3 t = V c main_v157 := by
    funext z
    show V c main_v157 (((cfg5.win 3).blk t).view.emb z) = V c main_v157 z
    refine congrArg _ (funext fun a => Fin.ext ?_)
    match a with
    | ⟨0, _⟩ => show win5_3.index t (0 : Fin 2) * 1 + 1 * (z 0).val = (z 0).val; rw [e3 0]; omega
    | ⟨1, _⟩ => show win5_3.index t (1 : Fin 2) * 128 + 1 * (z 1).val = (z 1).val; rw [e3 1]; omega
  have b4 : iblk5 V c 4 t = V c main_v158 := by
    funext z
    show V c main_v158 (((cfg5.win 4).blk t).view.emb z) = V c main_v158 z
    refine congrArg _ (funext fun a => Fin.ext ?_)
    match a with
    | ⟨0, _⟩ => show win5_4.index t (0 : Fin 2) * 1 + 1 * (z 0).val = (z 0).val; rw [e4 0]; omega
    | ⟨1, _⟩ => show win5_4.index t (1 : Fin 2) * 128 + 1 * (z 1).val = (z 1).val; rw [e4 1]; omega
  have b5 : iblk5 V c 5 t = V c main_v159 := by
    funext z
    show V c main_v159 (((cfg5.win 5).blk t).view.emb z) = V c main_v159 z
    refine congrArg _ (funext fun a => Fin.ext ?_)
    match a with
    | ⟨0, _⟩ => show win5_5.index t (0 : Fin 2) * 1 + 1 * (z 0).val = (z 0).val; rw [e5 0]; omega
    | ⟨1, _⟩ => show win5_5.index t (1 : Fin 2) * 128 + 1 * (z 1).val = (z 1).val; rw [e5 1]; omega
  have b6 : iblk5 V c 6 t = V c main_v160 := by
    funext z
    show V c main_v160 (((cfg5.win 6).blk t).view.emb z) = V c main_v160 z
    refine congrArg _ (funext fun a => Fin.ext ?_)
    match a with
    | ⟨0, _⟩ => show win5_6.index t (0 : Fin 2) * 1 + 1 * (z 0).val = (z 0).val; rw [e6 0]; omega
    | ⟨1, _⟩ => show win5_6.index t (1 : Fin 2) * 128 + 1 * (z 1).val = (z 1).val; rw [e6 1]; omega
  have ht : t.val < 20 := t.isLt
  refine layer_point _ _ _ _ _ _ _ (V c main_v143) _ _ _ _ _ _ t.val ht ?_ b1 b2 b3 b4 b5 b6 y _ ?_ ?_
  · intro p k hb
    show V c main_v143 (((cfg5.win 0).blk t).view.emb (ix2 p k)) = V c main_v143 _
    refine congrArg _ (funext fun a => Fin.ext ?_)
    match a with
    | ⟨0, _⟩ => show win5_0.index t (0 : Fin 2) * 5000 + 1 * p.val = t.val * 5000 + p.val; rw [e00]; omega
    | ⟨1, _⟩ => show win5_0.index t (1 : Fin 2) * 128 + 1 * k.val = k.val; rw [e01]; omega
  · show win5_7.index t (0 : Fin 2) * 5000 + 1 * (y 0).val = t.val * 5000 + (y 0).val
    rw [e70]; omega
  · show win5_7.index t (1 : Fin 2) * 128 + 1 * (y 1).val = (y 1).val
    rw [e71]; omega

/-- An index of the result array is in point t's block iff each coordinate is in the block's range on its axis. -/
theorem mem_blk5 (t : Fin cfg5.N) (i : S100000x128.Idx) :
    i ∈ ((cfg5.win 7).blk t).view.set ↔ ∀ a : Fin 2, win5_7.index t a * S5000x128.size a ≤ (i a).val
      ∧ (i a).val < win5_7.index t a * S5000x128.size a + S5000x128.size a := by
  show i ∈ ((View.whole main_v161).slice (win5_7.rect t)).set ↔ _
  rw [View.set_slice_whole, Rect.mem_set_unit]
  exact Iff.rfl

/-- The twenty row blocks fill the result array, so it ends holding the layer of the arrays the region finds. -/
theorem final5 : (dat5 V c).arrAt 7 cfg5.N = res5 V c :=
  (dat5 V c).arrAt_eq_of_cover 7 (res5 V c) (fun t _ => flushed5 V c t) fun i => by
    have hi0 : (i 0).val < 100000 := (i 0).isLt
    have hi1 : (i 1).val < 128 := (i 1).isLt
    have ht : (i 0).val / 5000 < 20 := by omega
    refine ⟨⟨(i 0).val / 5000, ht⟩, flush5_7 _, ?_⟩
    rw [mem_blk5]
    obtain ⟨-, -, e70, e71, -⟩ := idx5 ⟨(i 0).val / 5000, ht⟩
    intro a
    match a with
    | ⟨0, _⟩ =>
      show win5_7.index ⟨(i 0).val / 5000, ht⟩ (0 : Fin 2) * 5000 ≤ (i 0).val
        ∧ (i 0).val < win5_7.index ⟨(i 0).val / 5000, ht⟩ (0 : Fin 2) * 5000 + 5000
      rw [e70]; show (i 0).val / 5000 * 5000 ≤ (i 0).val ∧ (i 0).val < (i 0).val / 5000 * 5000 + 5000; omega
    | ⟨1, _⟩ =>
      show win5_7.index ⟨(i 0).val / 5000, ht⟩ (1 : Fin 2) * 128 ≤ (i 1).val
        ∧ (i 1).val < win5_7.index ⟨(i 0).val / 5000, ht⟩ (1 : Fin 2) * 128 + 128
      rw [e71]; omega

end Region5

end Cert.Gin.Ker

end
-- ==== Proof.KRegion6.lean ====
/-
  The last region's result array is the last stage of the arrays the region finds: grid point t computes rows
  5000 t … 5000 t + 4999, each row from the same row of the feature array, the whole weight matrix and the whole bias
  row, and the twenty row blocks fill the array.
-/
import proofs.«114777_j46617575031250_1_alg».proof.Proof.Gen.KernelIdeal.Frame
import proofs.«114777_j46617575031250_1_alg».proof.Proof.Spec
import proofs.«114777_j46617575031250_1_alg».proof.Proof.Ops
import Idealize.ShloMosaic.Lib.Pipeline.Value

set_option maxRecDepth 16384

noncomputable section

namespace Cert.Gin.Ker

open Idealize.ShloMosaic Idealize.ShloMosaic.TcCoe Idealize.ShloMosaic.ValueIdx Idealize.SL.Sem Cert.KernelIdeal Cert.KernelIdeal.Gen Cert.Gin
open Idealize.ShloMosaic.Pipeline (Dat)

/-- The zero offsets of a rank-2 access, as a constant function. -/
theorem origin6 : (![0, 0] : Fin 2 → Nat) = fun _ => 0 := funext fun a => by fin_cases a <;> rfl

/-- The last body's stored value at an entry of the block is the last stage of the arrays at the entry of the array the
    block's entry sits at, when the feature block is rows r·5000 … of the feature array and the other loads are the
    whole weight matrix and the whole bias row. -/
theorem head_point (x0 : Vec Ideal S5000x128 .f32) (x1 : Vec Ideal S128x64 .f32) (x2 : Vec Ideal S1x64 .f32)
    (H : S100000x128.Idx → EReal) (Wm : S128x64.Idx → EReal) (B : S1x64.Idx → EReal) (r : ℕ) (hr : r < 20)
    (h0 : ∀ (p : Fin 5000) (k : Fin 128) (hb : r * 5000 + p.val < 100000), x0 (ix2 p k) = H (ix2 (⟨r * 5000 + p.val, hb⟩ : Fin 100000) k))
    (h1 : x1 = Wm) (h2 : x2 = B)
    (y : S5000x64.Idx) (i : S100000x64.Idx) (hi0 : (i 0).val = r * 5000 + (y 0).val) (hi1 : (i 1).val = (y 1).val) :
    k6_pay1 (F := Ideal) x0 x1 x2 y
      = head (R := 100000) (K := 128) (N := 64) H Wm (fun j => B (ix2 (0 : Fin 1) j)) i := by
  subst h1 h2
  obtain ⟨p, q, rfl⟩ : ∃ (p : Fin 5000) (q : Fin 64), y = ix2 p q := ⟨y 0, y 1, eq_ix2 y⟩
  have hb : r * 5000 + p.val < 100000 := by have := p.isLt; omega
  obtain ⟨P, Q, rfl⟩ : ∃ (P : Fin 100000) (Q : Fin 64), i = ix2 P Q := ⟨i 0, i 1, eq_ix2 i⟩
  have hP : P = ⟨r * 5000 + p.val, hb⟩ := Fin.ext hi0
  have hQ : Q = q := Fin.ext hi1
  subst hP hQ
  rw [Ops.pay_head]
  show headAt _ _ _ _ = headAt _ _ _ _
  congr 1
  funext k
  exact h0 p k hb

section Region6

variable (V : (c : Dev nD) → (b : Ref sig .tc) → Buf (Elt Ideal) ((c : Thread nD τ).loc b)) (c : Dev nD)

/-- The last region's result as one function of the arrays it finds. -/
def res6 : S100000x64.Idx → EReal :=
  head (R := 100000) (K := 128) (N := 64) (V c main_v161) (V c main_arg9) (fun j => V c main_v162 (ix2 (0 : Fin 1) j))

/-- The printed index maps over the grid: the feature and result windows move one row block per point, the weight
    matrix and the bias row stay at the origin. -/
theorem idx6 : ∀ t : Fin cfg6.N, win6_0.index t (0 : Fin 2) = t.val ∧ win6_0.index t (1 : Fin 2) = 0
    ∧ win6_3.index t (0 : Fin 2) = t.val ∧ win6_3.index t (1 : Fin 2) = 0
    ∧ (∀ a : Fin 2, win6_1.index t a = 0) ∧ (∀ a : Fin 2, win6_2.index t a = 0) :=
  (by decide +kernel : ∀ t : Fin grid6.N, _)

/-- What point t writes back is block t of the last stage of the arrays the region finds. -/
theorem flushed6 (t : Fin cfg6.N) :
    (dat6 V c).flushed 3 t = ((cfg6.win 3).blk t).view.read (Elt Ideal) (res6 V c) := by
  show (cfg6.win 3).cut (grid6.coords t) ((dat6 V c).after 3 t) = _
  rw [after6_3]
  unfold out6_3
  rw [View.canon_unit_zero origin6]
  simp only [View.ld_unit_zero (S := S5000x128) origin6, View.ld_unit_zero (S := S128x64) origin6,
    View.ld_unit_zero (S := S1x64) origin6]
  obtain ⟨e00, e01, e30, e31, e1, e2⟩ := idx6 t
  funext y
  show k6_pay1 (F := Ideal) (iblk6 V c 0 t) (iblk6 V c 1 t) (iblk6 V c 2 t) y
    = res6 V c (((cfg6.win 3).blk t).view.emb y)
  have b1 : iblk6 V c 1 t = V c main_arg9 := by
    funext z
    show V c main_arg9 (((cfg6.win 1).blk t).view.emb z) = V c main_arg9 z
    refine congrArg _ (funext fun a => Fin.ext ?_)
    match a with
    | ⟨0, _⟩ => show win6_1.index t (0 : Fin 2) * 128 + 1 * (z 0).val = (z 0).val; rw [e1 0]; omega
    | ⟨1, _⟩ => show win6_1.index t (1 : Fin 2) * 64 + 1 * (z 1).val = (z 1).val; rw [e1 1]; omega
  have b2 : iblk6 V c 2 t = V c main_v162 := by
    funext z
    show V c main_v162 (((cfg6.win 2).blk t).view.emb z) = V c main_v162 z
    refine congrArg _ (funext fun a => Fin.ext ?_)
    match a with
    | ⟨0, _⟩ => show win6_2.index t (0 : Fin 2) * 1 + 1 * (z 0).val = (z 0).val; rw [e2 0]; omega
    | ⟨1, _⟩ => show win6_2.index t (1 : Fin 2) * 64 + 1 * (z 1).val = (z 1).val; rw [e2 1]; omega
  have ht : t.val < 20 := t.isLt
  refine head_point _ _ _ (V c main_v161) _ _ t.val ht ?_ b1 b2 y _ ?_ ?_
  · intro p k hb
    show V c main_v161 (((cfg6.win 0).blk t).view.emb (ix2 p k)) = V c main_v161 _
    refine congrArg _ (funext fun a => Fin.ext ?_)
    match a with
    | ⟨0, _⟩ => show win6_0.index t (0 : Fin 2) * 5000 + 1 * p.val = t.val * 5000 + p.val; rw [e00]; omega
    | ⟨1, _⟩ => show win6_0.index t (1 : Fin 2) * 128 + 1 * k.val = k.val; rw [e01]; omega
  · show win6_3.index t (0 : Fin 2) * 5000 + 1 * (y 0).val = t.val * 5000 + (y 0).val
    rw [e30]; omega
  · show win6_3.index t (1 : Fin 2) * 64 + 1 * (y 1).val = (y 1).val
    rw [e31]; omega

/-- The result array after the region: every row lies in the block of the point its row number divided by 5000 names,
    so the twenty blocks fill the array with the last stage of the arrays the region finds. -/
theorem final6 : (dat6 V c).arrAt 3 cfg6.N = res6 V c :=
  (dat6 V c).arrAt_eq_of_cover 3 (res6 V c) (fun t _ => flushed6 V c t) fun (i : S100000x64.Idx) => by
    have hi0 : (i 0).val < 100000 := (i 0).isLt
    have hi1 : (i 1).val < 64 := (i 1).isLt
    have htN : (i 0).val / 5000 < 20 := by omega
    obtain ⟨t, htv⟩ : ∃ t : Fin cfg6.N, t.val = (i 0).val / 5000 := ⟨⟨(i 0).val / 5000, htN⟩, rfl⟩
    obtain ⟨e00, e01, e30, e31, e1, e2⟩ := idx6 t
    refine ⟨t, flush6_3 t, ?_⟩
    show i ∈ ((View.whole main_v163).slice (win6_3.rect t)).set
    rw [View.set_slice_whole, Rect.mem_set_unit]
    intro a
    match a with
    | ⟨0, _⟩ =>
      show win6_3.index t (0 : Fin 2) * 5000 ≤ (i 0).val ∧ (i 0).val < win6_3.index t (0 : Fin 2) * 5000 + 5000
      rw [e30, htv]; omega
    | ⟨1, _⟩ =>
      show win6_3.index t (1 : Fin 2) * 64 ≤ (i 1).val ∧ (i 1).val < win6_3.index t (1 : Fin 2) * 64 + 64
      rw [e31]; omega

end Region6

end Cert.Gin.Ker

end
-- ==== Proof.KValue.lean ====
/-
  The kernel's result as the network of its arguments: the last region's array is the last stage of the sixth layer's
  features; each layer's features are the layer of the previous ones with the parameters the host operations cut out of
  the stacked arguments; the first and the fourth layer read the aggregation of what came before.
-/
import proofs.«114777_j46617575031250_1_alg».proof.Proof.KEntry
import proofs.«114777_j46617575031250_1_alg».proof.Proof.KRegion0
import proofs.«114777_j46617575031250_1_alg».proof.Proof.KRegion1
import proofs.«114777_j46617575031250_1_alg».proof.Proof.KRegion2
import proofs.«114777_j46617575031250_1_alg».proof.Proof.KRegion3
import proofs.«114777_j46617575031250_1_alg».proof.Proof.KRegion4
import proofs.«114777_j46617575031250_1_alg».proof.Proof.KRegion5
import proofs.«114777_j46617575031250_1_alg».proof.Proof.KRegion6
import proofs.«114777_j46617575031250_1_alg».proof.Proof.ParamsKer
import proofs.«114777_j46617575031250_1_alg».proof.Proof.LibSageLayer

set_option maxRecDepth 16384

noncomputable section

namespace Cert.Gin.Ker

open Idealize.ShloMosaic Idealize.ShloMosaic.TcCoe Idealize.ShloMosaic.ValueIdx Idealize.SL.Sem Cert.KernelIdeal Cert.KernelIdeal.Gen Cert.Gin

variable (m : (ℓ : Loc nD τ sig) → Buf (Elt Ideal) ℓ) (ρ : Dev nD → PrngReg) (c : Dev nD)

/-- A parameter vector laid as one row, read at (0, j), is the vector at j. -/
theorem row_apply (x : FVec Ideal S128 .f32) (j : Fin 128) : row x (ix2 (0 : Fin 1) j) = x (ix1 j) :=
  Cert.Sage.rowcast_apply x shapeCasts_S128_S1x128 j

/-- The last bias laid as one row, read at (0, j), is the bias at j. -/
theorem bias_row_apply (x : FVec Ideal S64 .f32) (j : Fin 64) :
    shapeCast S1x64 x shapeCasts_S64_S1x64 (ix2 (0 : Fin 1) j) = x (ix1 j) :=
  Cert.Sage.rowcast_apply x shapeCasts_S64_S1x64 j

/-! ## The features after each layer, as functions of the launch contents -/

/-- The features after the first branch's three layers: layer k applied to what layer k − 1 left, from the aggregated
    input features. -/
def feat0 : S100000x128.Idx → EReal := LayerParams.apply (R := 100000) (P0 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (agg (m ((c : Thread nD τ).loc main_arg1)) (m ((c : Thread nD τ).loc main_arg0)))
def feat1 : S100000x128.Idx → EReal := LayerParams.apply (R := 100000) (P1 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (feat0 m c)
def feat2 : S100000x128.Idx → EReal := LayerParams.apply (R := 100000) (P2 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (feat1 m c)

/-- The features after the second branch's three layers, from the aggregated result of the first branch. -/
def feat3 : S100000x128.Idx → EReal := LayerParams.apply (R := 100000) (P3 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (agg (m ((c : Thread nD τ).loc main_arg1)) (feat2 m c))
def feat4 : S100000x128.Idx → EReal := LayerParams.apply (R := 100000) (P4 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (feat3 m c)
def feat5 : S100000x128.Idx → EReal := LayerParams.apply (R := 100000) (P5 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (feat4 m c)

/-! ## Each region's result array

Region r's array is the layer of the arrays it finds (final r); what it finds is the previous region's array and the
layer's parameters cut out of the launch contents (entry r); a parameter row read at (0, j) is the vector at j. -/

theorem region0_value : (dat0 (V1 m ρ) c).arrAt 7 cfg0.N = feat0 m c := by
  refine (final0 (V1 m ρ) c).trans ?_
  obtain ⟨h1, h2, h3, h4, h5, h6, h7⟩ := entry0 m ρ c
  unfold res0
  rw [h1, h2, h3, h4, h5, h6, h7]
  simp only [row_apply]
  rfl

theorem region1_value : (dat1 (V3 m ρ) c).arrAt 7 cfg1.N = feat1 m c := by
  refine (final1 (V3 m ρ) c).trans ?_
  obtain ⟨h1, h2, h3, h4, h5, h6, h7⟩ := entry1 m ρ c
  unfold res1
  rw [h1, h2, h3, h4, h5, h6, h7, region0_value]
  simp only [row_apply]
  rfl

theorem region2_value : (dat2 (V5 m ρ) c).arrAt 7 cfg2.N = feat2 m c := by
  refine (final2 (V5 m ρ) c).trans ?_
  obtain ⟨h1, h2, h3, h4, h5, h6, h7⟩ := entry2 m ρ c
  unfold res2
  rw [h1, h2, h3, h4, h5, h6, h7, region1_value]
  simp only [row_apply]
  rfl

theorem region3_value : (dat3 (V7 m ρ) c).arrAt 7 cfg3.N = feat3 m c := by
  refine (final3 (V7 m ρ) c).trans ?_
  obtain ⟨h1, h2, h3, h4, h5, h6, h7⟩ := entry3 m ρ c
  unfold res3
  rw [h1, h2, h3, h4, h5, h6, h7, region2_value]
  simp only [row_apply]
  rfl

theorem region4_value : (dat4 (V9 m ρ) c).arrAt 7 cfg4.N = feat4 m c := by
  refine (final4 (V9 m ρ) c).trans ?_
  obtain ⟨h1, h2, h3, h4, h5, h6, h7⟩ := entry4 m ρ c
  unfold res4
  rw [h1, h2, h3, h4, h5, h6, h7, region3_value]
  simp only [row_apply]
  rfl

theorem region5_value : (dat5 (V11 m ρ) c).arrAt 7 cfg5.N = feat5 m c := by
  refine (final5 (V11 m ρ) c).trans ?_
  obtain ⟨h1, h2, h3, h4, h5, h6, h7⟩ := entry5 m ρ c
  unfold res5
  rw [h1, h2, h3, h4, h5, h6, h7, region4_value]
  simp only [row_apply]
  rfl

/-- The last region's array: the last stage of the sixth layer's features, the last weight matrix and the last bias. -/
theorem region6_value : (dat6 (V13 m ρ) c).arrAt 3 cfg6.N
    = head (R := 100000) (K := 128) (N := 64) (feat5 m c) (m ((c : Thread nD τ).loc main_arg9)) (fun j => (m ((c : Thread nD τ).loc main_arg10)) (ix1 j)) := by
  refine (final6 (V13 m ρ) c).trans ?_
  obtain ⟨h1, h2, h3⟩ := entry6 m ρ c
  unfold res6
  rw [h1, h2, h3, region5_value]
  exact congrArg (head (R := 100000) (K := 128) (N := 64) (feat5 m c) (m ((c : Thread nD τ).loc main_arg9)))
    (funext fun j => bias_row_apply (m ((c : Thread nD τ).loc main_arg10)) j)

/-! ## The kernel's result -/

/-- The result buffer at the last boundary of the run holds the network of the launch contents. -/
theorem kernel_value (m : (ℓ : Loc nD τ sig) → Buf (Elt Ideal) ℓ) (ρ : Dev nD → PrngReg) (c : Dev nD) :
    W14 m ρ c (Proc.devRef .tc main_v163)
      = value (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) (m ((c : Thread nD τ).loc main_arg10)) :=
  ((W14_arr m ρ c 3).trans (region6_value m ρ c)).trans rfl

end Cert.Gin.Ker

end
-- ==== Proof.RefOps.lean ====
/-
  The reference program's operations, in order, as thirteen consecutive lists: the cuts fall where a stage of the
  network ends or where the program's own text is cut, so that each list is short enough to be evaluated on its own.
-/
import proofs.«114777_j46617575031250_1_alg».proof.Proof.Gen.ReferenceIdeal
import Idealize.ShloMosaic.Lib.StableHlo.Run

noncomputable section

namespace Cert.Gin.Ref

open Cert.ReferenceIdeal Cert.ReferenceIdeal.Gen Idealize.ShloMosaic Idealize.ShloMosaic.TcCoe Idealize.SL.Sem Idealize.ShloMosaic.StableHlo

variable {F : FTy → Type} [FloatOps F]

/-- The first branch cut out of the six stacked parameter arrays, the edges' endpoints, and the input features aggregated over the edges. -/
abbrev Q0 : List (HloOp τ sig (Elt F)) :=
  [ unary main_arg3 main_v0 ((extractStridedSlice S1x3x128x128 ![0, 0, 0, 0] · slices_S2x3x128x128_S1x3x128x128_0_0_0_0) : (⟨S2x3x128x128, .f32⟩ : BufTy).Contents (Elt F) → (⟨S1x3x128x128, .f32⟩ : BufTy).Contents (Elt F)),
    reshape main_v0 main_v1 rfl shapeCasts_S1x3x128x128_S3x128x128,
    unary main_arg4 main_v2 ((extractStridedSlice S1x3x128 ![0, 0, 0] · slices_S2x3x128_S1x3x128_0_0_0) : (⟨S2x3x128, .f32⟩ : BufTy).Contents (Elt F) → (⟨S1x3x128, .f32⟩ : BufTy).Contents (Elt F)),
    reshape main_v2 main_v3 rfl shapeCasts_S1x3x128_S3x128,
    unary main_arg5 main_v4 ((extractStridedSlice S1x3x128 ![0, 0, 0] · slices_S2x3x128_S1x3x128_0_0_0) : (⟨S2x3x128, .f32⟩ : BufTy).Contents (Elt F) → (⟨S1x3x128, .f32⟩ : BufTy).Contents (Elt F)),
    reshape main_v4 main_v5 rfl shapeCasts_S1x3x128_S3x128,
    unary main_arg6 main_v6 ((extractStridedSlice S1x3x128 ![0, 0, 0] · slices_S2x3x128_S1x3x128_0_0_0) : (⟨S2x3x128, .f32⟩ : BufTy).Contents (Elt F) → (⟨S1x3x128, .f32⟩ : BufTy).Contents (Elt F)),
    reshape main_v6 main_v7 rfl shapeCasts_S1x3x128_S3x128,
    unary main_arg7 main_v8 ((extractStridedSlice S1x3x128 ![0, 0, 0] · slices_S2x3x128_S1x3x128_0_0_0) : (⟨S2x3x128, .f32⟩ : BufTy).Contents (Elt F) → (⟨S1x3x128, .f32⟩ : BufTy).Contents (Elt F)),
    reshape main_v8 main_v9 rfl shapeCasts_S1x3x128_S3x128,
    unary main_arg8 main_v10 ((extractStridedSlice S1x3x128 ![0, 0, 0] · slices_S2x3x128_S1x3x128_0_0_0) : (⟨S2x3x128, .f32⟩ : BufTy).Contents (Elt F) → (⟨S1x3x128, .f32⟩ : BufTy).Contents (Elt F)),
    reshape main_v10 main_v11 rfl shapeCasts_S1x3x128_S3x128,
    unary main_arg1 main_v12 ((extractStridedSlice S1x1600000 ![0, 0] · slices_S2x1600000_S1x1600000_0_0) : (⟨S2x1600000, .i32⟩ : BufTy).Contents (Elt F) → (⟨S1x1600000, .i32⟩ : BufTy).Contents (Elt F)),
    reshape main_v12 main_v13 rfl shapeCasts_S1x1600000_S1600000,
    unary main_arg1 main_v14 ((extractStridedSlice S1x1600000 ![1, 0] · slices_S2x1600000_S1x1600000_1_0) : (⟨S2x1600000, .i32⟩ : BufTy).Contents (Elt F) → (⟨S1x1600000, .i32⟩ : BufTy).Contents (Elt F)),
    reshape main_v14 main_v15 rfl shapeCasts_S1x1600000_S1600000,
    nullary main_c (constantI S_ 32 0#32),
    unary main_c main_v16 (broadcastInDim S1600000 ![] bcast_S_S1600000 : (⟨S_, .i32⟩ : BufTy).Contents (Elt F) → (⟨S1600000, .i32⟩ : BufTy).Contents (Elt F)),
    binary main_v13 main_v16 main_v17 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v18 (broadcastInDim S1600000 ![] bcast_S_S1600000 : (⟨S_, .i32⟩ : BufTy).Contents (Elt F) → (⟨S1600000, .i32⟩ : BufTy).Contents (Elt F)),
    binary main_v13 main_v18 main_v19 (addi : (⟨S1600000, .i32⟩ : BufTy).Contents (Elt F) → (⟨S1600000, .i32⟩ : BufTy).Contents (Elt F) → (⟨S1600000, .i32⟩ : BufTy).Contents (Elt F)),
    ternary main_v17 main_v19 main_v13 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v20 main_v21 (broadcastInDim S1600000x1 ![0] bcast_S1600000_S1600000x1_0 : (⟨S1600000, .i32⟩ : BufTy).Contents (Elt F) → (⟨S1600000x1, .i32⟩ : BufTy).Contents (Elt F)),
    binary main_arg0 main_v21 main_v22 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v23 (broadcastInDim S100000x128 ![] bcast_S_S100000x128 : (⟨S_, .f32⟩ : BufTy).Contents (Elt F) → (⟨S100000x128, .f32⟩ : BufTy).Contents (Elt F)),
    unary main_v15 main_v24 (broadcastInDim S1600000x1 ![0] bcast_S1600000_S1600000x1_0 : (⟨S1600000, .i32⟩ : BufTy).Contents (Elt F) → (⟨S1600000x1, .i32⟩ : BufTy).Contents (Elt F)),
    ternary main_v23 main_v24 main_v22 main_v25 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_arg0 main_v25 main_v26 (addf : (⟨S100000x128, .f32⟩ : BufTy).Contents (Elt F) → (⟨S100000x128, .f32⟩ : BufTy).Contents (Elt F) → (⟨S100000x128, .f32⟩ : BufTy).Contents (Elt F)) ]

/-- The first branch's first layer up to the product with the gain, and its shift vector laid out as a row. -/
abbrev Q1 : List (HloOp τ sig (Elt F)) :=
  [ unary main_v1 main_v27 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v27 main_v28 rfl shapeCasts_S1x128x128_S128x128,
    binary main_v26 main_v28 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v3 main_v30 ((extractStridedSlice S1x128 ![0, 0] · slices_S3x128_S1x128_0_0) : (⟨S3x128, .f32⟩ : BufTy).Contents (Elt F) → (⟨S1x128, .f32⟩ : BufTy).Contents (Elt F)),
    reshape main_v30 main_v31 rfl shapeCasts_S1x128_S128,
    unary main_v31 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v29 main_v33 main_v34 (addf : (⟨S100000x128, .f32⟩ : BufTy).Contents (Elt F) → (⟨S100000x128, .f32⟩ : BufTy).Contents (Elt F) → (⟨S100000x128, .f32⟩ : BufTy).Contents (Elt F)),
    unary main_v9 main_v35 ((extractStridedSlice S1x128 ![0, 0] · slices_S3x128_S1x128_0_0) : (⟨S3x128, .f32⟩ : BufTy).Contents (Elt F) → (⟨S1x128, .f32⟩ : BufTy).Contents (Elt F)),
    reshape main_v35 main_v36 rfl shapeCasts_S1x128_S128,
    unary main_v36 main_v37 (broadcastInDim S1x128 ![1] bcast_S128_S1x128_1 : (⟨S128, .f32⟩ : BufTy).Contents (Elt F) → (⟨S1x128, .f32⟩ : BufTy).Contents (Elt F)),
    unary main_v37 main_v38 (broadcastInDim S100000x128 ![0, 1] bcast_S1x128_S100000x128_0_1 : (⟨S1x128, .f32⟩ : BufTy).Contents (Elt F) → (⟨S100000x128, .f32⟩ : BufTy).Contents (Elt F)),
    binary main_v34 main_v38 main_v39 (subf : (⟨S100000x128, .f32⟩ : BufTy).Contents (Elt F) → (⟨S100000x128, .f32⟩ : BufTy).Contents (Elt F) → (⟨S100000x128, .f32⟩ : BufTy).Contents (Elt F)),
    unary main_v11 main_v40 ((extractStridedSlice S1x128 ![0, 0] · slices_S3x128_S1x128_0_0) : (⟨S3x128, .f32⟩ : BufTy).Contents (Elt F) → (⟨S1x128, .f32⟩ : BufTy).Contents (Elt F)),
    reshape main_v40 main_v41 rfl shapeCasts_S1x128_S128,
    nullary main_cst_1 (constant S_ .f32 0x3727C5AC#32),
    unary main_cst_1 main_v42 (broadcastInDim S128 ![] bcast_S_S128 : (⟨S_, .f32⟩ : BufTy).Contents (Elt F) → (⟨S128, .f32⟩ : BufTy).Contents (Elt F)),
    binary main_v41 main_v42 main_v43 (addf : (⟨S128, .f32⟩ : BufTy).Contents (Elt F) → (⟨S128, .f32⟩ : BufTy).Contents (Elt F) → (⟨S128, .f32⟩ : BufTy).Contents (Elt F)),
    unary main_v43 main_v44 (Host.rsqrt : (⟨S128, .f32⟩ : BufTy).Contents (Elt F) → (⟨S128, .f32⟩ : BufTy).Contents (Elt F)),
    unary main_v44 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v39 main_v46 main_v47 (mulf : (⟨S100000x128, .f32⟩ : BufTy).Contents (Elt F) → (⟨S100000x128, .f32⟩ : BufTy).Contents (Elt F) → (⟨S100000x128, .f32⟩ : BufTy).Contents (Elt F)),
    unary main_v5 main_v48 ((extractStridedSlice S1x128 ![0, 0] · slices_S3x128_S1x128_0_0) : (⟨S3x128, .f32⟩ : BufTy).Contents (Elt F) → (⟨S1x128, .f32⟩ : BufTy).Contents (Elt F)),
    reshape main_v48 main_v49 rfl shapeCasts_S1x128_S128,
    unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v47 main_v51 main_v52 (mulf : (⟨S100000x128, .f32⟩ : BufTy).Contents (Elt F) → (⟨S100000x128, .f32⟩ : BufTy).Contents (Elt F) → (⟨S100000x128, .f32⟩ : BufTy).Contents (Elt F)),
    unary main_v7 main_v53 ((extractStridedSlice S1x128 ![0, 0] · slices_S3x128_S1x128_0_0) : (⟨S3x128, .f32⟩ : BufTy).Contents (Elt F) → (⟨S1x128, .f32⟩ : BufTy).Contents (Elt F)),
    reshape main_v53 main_v54 rfl shapeCasts_S1x128_S128,
    unary main_v54 main_v55 (broadcastInDim S1x128 ![1] bcast_S128_S1x128_1 : (⟨S128, .f32⟩ : BufTy).Contents (Elt F) → (⟨S1x128, .f32⟩ : BufTy).Contents (Elt F)) ]

/-- The shift added and the maximum with zero: the first layer's result. -/
abbrev Q2 : List (HloOp τ sig (Elt F)) :=
  [ unary main_v55 main_v56 (broadcastInDim S100000x128 ![0, 1] bcast_S1x128_S100000x128_0_1 : (⟨S1x128, .f32⟩ : BufTy).Contents (Elt F) → (⟨S100000x128, .f32⟩ : BufTy).Contents (Elt F)),
    binary main_v52 main_v56 main_v57 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v57) (TRef.of (T := ⟨S100000x128, .f32⟩) main_call0_v0) (TRef.of (T := ⟨S100000x128, .f32⟩) main_v58) maximumf ]

/-- The first branch's second layer, whole. -/
abbrev Q3 : List (HloOp τ sig (Elt F)) :=
  [ unary main_v1 main_v59 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v59 main_v60 rfl shapeCasts_S1x128x128_S128x128,
    binary main_v58 main_v60 main_v61 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v3 main_v62 ((extractStridedSlice S1x128 ![1, 0] · slices_S3x128_S1x128_1_0) : (⟨S3x128, .f32⟩ : BufTy).Contents (Elt F) → (⟨S1x128, .f32⟩ : BufTy).Contents (Elt F)),
    reshape main_v62 main_v63 rfl shapeCasts_S1x128_S128,
    unary main_v63 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v61 main_v65 main_v66 (addf : (⟨S100000x128, .f32⟩ : BufTy).Contents (Elt F) → (⟨S100000x128, .f32⟩ : BufTy).Contents (Elt F) → (⟨S100000x128, .f32⟩ : BufTy).Contents (Elt F)),
    unary main_v9 main_v67 ((extractStridedSlice S1x128 ![1, 0] · slices_S3x128_S1x128_1_0) : (⟨S3x128, .f32⟩ : BufTy).Contents (Elt F) → (⟨S1x128, .f32⟩ : BufTy).Contents (Elt F)),
    reshape main_v67 main_v68 rfl shapeCasts_S1x128_S128,
    unary main_v68 main_v69 (broadcastInDim S1x128 ![1] bcast_S128_S1x128_1 : (⟨S128, .f32⟩ : BufTy).Contents (Elt F) → (⟨S1x128, .f32⟩ : BufTy).Contents (Elt F)),
    unary main_v69 main_v70 (broadcastInDim S100000x128 ![0, 1] bcast_S1x128_S100000x128_0_1 : (⟨S1x128, .f32⟩ : BufTy).Contents (Elt F) → (⟨S100000x128, .f32⟩ : BufTy).Contents (Elt F)),
    binary main_v66 main_v70 main_v71 (subf : (⟨S100000x128, .f32⟩ : BufTy).Contents (Elt F) → (⟨S100000x128, .f32⟩ : BufTy).Contents (Elt F) → (⟨S100000x128, .f32⟩ : BufTy).Contents (Elt F)),
    unary main_v11 main_v72 ((extractStridedSlice S1x128 ![1, 0] · slices_S3x128_S1x128_1_0) : (⟨S3x128, .f32⟩ : BufTy).Contents (Elt F) → (⟨S1x128, .f32⟩ : BufTy).Contents (Elt F)),
    reshape main_v72 main_v73 rfl shapeCasts_S1x128_S128,
    nullary main_cst_2 (constant S_ .f32 0x3727C5AC#32),
    unary main_cst_2 main_v74 (broadcastInDim S128 ![] bcast_S_S128 : (⟨S_, .f32⟩ : BufTy).Contents (Elt F) → (⟨S128, .f32⟩ : BufTy).Contents (Elt F)),
    binary main_v73 main_v74 main_v75 (addf : (⟨S128, .f32⟩ : BufTy).Contents (Elt F) → (⟨S128, .f32⟩ : BufTy).Contents (Elt F) → (⟨S128, .f32⟩ : BufTy).Contents (Elt F)),
    unary main_v75 main_v76 (Host.rsqrt : (⟨S128, .f32⟩ : BufTy).Contents (Elt F) → (⟨S128, .f32⟩ : BufTy).Contents (Elt F)),
    unary main_v76 main_v77 (broadcastInDim S1x128 ![1] bcast_S128_S1x128_1 : (⟨S128, .f32⟩ : BufTy).Contents (Elt F) → (⟨S1x128, .f32⟩ : BufTy).Contents (Elt F)),
    unary main_v77 main_v78 (broadcastInDim S100000x128 ![0, 1] bcast_S1x128_S100000x128_0_1 : (⟨S1x128, .f32⟩ : BufTy).Contents (Elt F) → (⟨S100000x128, .f32⟩ : BufTy).Contents (Elt F)),
    binary main_v71 main_v78 main_v79 (mulf : (⟨S100000x128, .f32⟩ : BufTy).Contents (Elt F) → (⟨S100000x128, .f32⟩ : BufTy).Contents (Elt F) → (⟨S100000x128, .f32⟩ : BufTy).Contents (Elt F)),
    unary main_v5 main_v80 ((extractStridedSlice S1x128 ![1, 0] · slices_S3x128_S1x128_1_0) : (⟨S3x128, .f32⟩ : BufTy).Contents (Elt F) → (⟨S1x128, .f32⟩ : BufTy).Contents (Elt F)),
    reshape main_v80 main_v81 rfl shapeCasts_S1x128_S128,
    unary main_v81 main_v82 (broadcastInDim S1x128 ![1] bcast_S128_S1x128_1 : (⟨S128, .f32⟩ : BufTy).Contents (Elt F) → (⟨S1x128, .f32⟩ : BufTy).Contents (Elt F)),
    unary main_v82 main_v83 (broadcastInDim S100000x128 ![0, 1] bcast_S1x128_S100000x128_0_1 : (⟨S1x128, .f32⟩ : BufTy).Contents (Elt F) → (⟨S100000x128, .f32⟩ : BufTy).Contents (Elt F)),
    binary main_v79 main_v83 main_v84 (mulf : (⟨S100000x128, .f32⟩ : BufTy).Contents (Elt F) → (⟨S100000x128, .f32⟩ : BufTy).Contents (Elt F) → (⟨S100000x128, .f32⟩ : BufTy).Contents (Elt F)),
    unary main_v7 main_v85 ((extractStridedSlice S1x128 ![1, 0] · slices_S3x128_S1x128_1_0) : (⟨S3x128, .f32⟩ : BufTy).Contents (Elt F) → (⟨S1x128, .f32⟩ : BufTy).Contents (Elt F)),
    reshape main_v85 main_v86 rfl shapeCasts_S1x128_S128,
    unary main_v86 main_v87 (broadcastInDim S1x128 ![1] bcast_S128_S1x128_1 : (⟨S128, .f32⟩ : BufTy).Contents (Elt F) → (⟨S1x128, .f32⟩ : BufTy).Contents (Elt F)),
    unary main_v87 main_v88 (broadcastInDim S100000x128 ![0, 1] bcast_S1x128_S100000x128_0_1 : (⟨S1x128, .f32⟩ : BufTy).Contents (Elt F) → (⟨S100000x128, .f32⟩ : BufTy).Contents (Elt F)),
    binary main_v84 main_v88 main_v89 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v89) (TRef.of (T := ⟨S100000x128, .f32⟩) main_call1_v0) (TRef.of (T := ⟨S100000x128, .f32⟩) main_v90) maximumf ]

/-- The first branch's third layer up to the product with the reciprocal square root, and its gain vector. -/
abbrev Q4 : List (HloOp τ sig (Elt F)) :=
  [ unary main_v1 main_v91 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v91 main_v92 rfl shapeCasts_S1x128x128_S128x128,
    binary main_v90 main_v92 main_v93 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v3 main_v94 ((extractStridedSlice S1x128 ![2, 0] · slices_S3x128_S1x128_2_0) : (⟨S3x128, .f32⟩ : BufTy).Contents (Elt F) → (⟨S1x128, .f32⟩ : BufTy).Contents (Elt F)),
    reshape main_v94 main_v95 rfl shapeCasts_S1x128_S128,
    unary main_v95 main_v96 (broadcastInDim S1x128 ![1] bcast_S128_S1x128_1 : (⟨S128, .f32⟩ : BufTy).Contents (Elt F) → (⟨S1x128, .f32⟩ : BufTy).Contents (Elt F)),
    unary main_v96 main_v97 (broadcastInDim S100000x128 ![0, 1] bcast_S1x128_S100000x128_0_1 : (⟨S1x128, .f32⟩ : BufTy).Contents (Elt F) → (⟨S100000x128, .f32⟩ : BufTy).Contents (Elt F)),
    binary main_v93 main_v97 main_v98 (addf : (⟨S100000x128, .f32⟩ : BufTy).Contents (Elt F) → (⟨S100000x128, .f32⟩ : BufTy).Contents (Elt F) → (⟨S100000x128, .f32⟩ : BufTy).Contents (Elt F)),
    unary main_v9 main_v99 ((extractStridedSlice S1x128 ![2, 0] · slices_S3x128_S1x128_2_0) : (⟨S3x128, .f32⟩ : BufTy).Contents (Elt F) → (⟨S1x128, .f32⟩ : BufTy).Contents (Elt F)),
    reshape main_v99 main_v100 rfl shapeCasts_S1x128_S128,
    unary main_v100 main_v101 (broadcastInDim S1x128 ![1] bcast_S128_S1x128_1 : (⟨S128, .f32⟩ : BufTy).Contents (Elt F) → (⟨S1x128, .f32⟩ : BufTy).Contents (Elt F)),
    unary main_v101 main_v102 (broadcastInDim S100000x128 ![0, 1] bcast_S1x128_S100000x128_0_1 : (⟨S1x128, .f32⟩ : BufTy).Contents (Elt F) → (⟨S100000x128, .f32⟩ : BufTy).Contents (Elt F)),
    binary main_v98 main_v102 main_v103 (subf : (⟨S100000x128, .f32⟩ : BufTy).Contents (Elt F) → (⟨S100000x128, .f32⟩ : BufTy).Contents (Elt F) → (⟨S100000x128, .f32⟩ : BufTy).Contents (Elt F)),
    unary main_v11 main_v104 ((extractStridedSlice S1x128 ![2, 0] · slices_S3x128_S1x128_2_0) : (⟨S3x128, .f32⟩ : BufTy).Contents (Elt F) → (⟨S1x128, .f32⟩ : BufTy).Contents (Elt F)),
    reshape main_v104 main_v105 rfl shapeCasts_S1x128_S128,
    nullary main_cst_3 (constant S_ .f32 0x3727C5AC#32),
    unary main_cst_3 main_v106 (broadcastInDim S128 ![] bcast_S_S128 : (⟨S_, .f32⟩ : BufTy).Contents (Elt F) → (⟨S128, .f32⟩ : BufTy).Contents (Elt F)),
    binary main_v105 main_v106 main_v107 (addf : (⟨S128, .f32⟩ : BufTy).Contents (Elt F) → (⟨S128, .f32⟩ : BufTy).Contents (Elt F) → (⟨S128, .f32⟩ : BufTy).Contents (Elt F)),
    unary main_v107 main_v108 (Host.rsqrt : (⟨S128, .f32⟩ : BufTy).Contents (Elt F) → (⟨S128, .f32⟩ : BufTy).Contents (Elt F)),
    unary main_v108 main_v109 (broadcastInDim S1x128 ![1] bcast_S128_S1x128_1 : (⟨S128, .f32⟩ : BufTy).Contents (Elt F) → (⟨S1x128, .f32⟩ : BufTy).Contents (Elt F)),
    unary main_v109 main_v110 (broadcastInDim S100000x128 ![0, 1] bcast_S1x128_S100000x128_0_1 : (⟨S1x128, .f32⟩ : BufTy).Contents (Elt F) → (⟨S100000x128, .f32⟩ : BufTy).Contents (Elt F)),
    binary main_v103 main_v110 main_v111 (mulf : (⟨S100000x128, .f32⟩ : BufTy).Contents (Elt F) → (⟨S100000x128, .f32⟩ : BufTy).Contents (Elt F) → (⟨S100000x128, .f32⟩ : BufTy).Contents (Elt F)),
    unary main_v5 main_v112 ((extractStridedSlice S1x128 ![2, 0] · slices_S3x128_S1x128_2_0) : (⟨S3x128, .f32⟩ : BufTy).Contents (Elt F) → (⟨S1x128, .f32⟩ : BufTy).Contents (Elt F)),
    reshape main_v112 main_v113 rfl shapeCasts_S1x128_S128 ]

/-- The rest of the third layer and the maximum with zero, taken twice: the first block's result. -/
abbrev Q5 : List (HloOp τ sig (Elt F)) :=
  [ unary main_v113 main_v114 (broadcastInDim S1x128 ![1] bcast_S128_S1x128_1 : (⟨S128, .f32⟩ : BufTy).Contents (Elt F) → (⟨S1x128, .f32⟩ : BufTy).Contents (Elt F)),
    unary main_v114 main_v115 (broadcastInDim S100000x128 ![0, 1] bcast_S1x128_S100000x128_0_1 : (⟨S1x128, .f32⟩ : BufTy).Contents (Elt F) → (⟨S100000x128, .f32⟩ : BufTy).Contents (Elt F)),
    binary main_v111 main_v115 main_v116 (mulf : (⟨S100000x128, .f32⟩ : BufTy).Contents (Elt F) → (⟨S100000x128, .f32⟩ : BufTy).Contents (Elt F) → (⟨S100000x128, .f32⟩ : BufTy).Contents (Elt F)),
    unary main_v7 main_v117 ((extractStridedSlice S1x128 ![2, 0] · slices_S3x128_S1x128_2_0) : (⟨S3x128, .f32⟩ : BufTy).Contents (Elt F) → (⟨S1x128, .f32⟩ : BufTy).Contents (Elt F)),
    reshape main_v117 main_v118 rfl shapeCasts_S1x128_S128,
    unary main_v118 main_v119 (broadcastInDim S1x128 ![1] bcast_S128_S1x128_1 : (⟨S128, .f32⟩ : BufTy).Contents (Elt F) → (⟨S1x128, .f32⟩ : BufTy).Contents (Elt F)),
    unary main_v119 main_v120 (broadcastInDim S100000x128 ![0, 1] bcast_S1x128_S100000x128_0_1 : (⟨S1x128, .f32⟩ : BufTy).Contents (Elt F) → (⟨S100000x128, .f32⟩ : BufTy).Contents (Elt F)),
    binary main_v116 main_v120 main_v121 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v121) (TRef.of (T := ⟨S100000x128, .f32⟩) main_call2_v0) (TRef.of (T := ⟨S100000x128, .f32⟩) main_v122) maximumf,
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v122) (TRef.of (T := ⟨S100000x128, .f32⟩) main_call3_v0) (TRef.of (T := ⟨S100000x128, .f32⟩) main_v123) maximumf ]

/-- The second branch cut out of the stacked parameter arrays and the first block's result aggregated over the edges. -/
abbrev Q6 : List (HloOp τ sig (Elt F)) :=
  [ unary main_arg3 main_v124 ((extractStridedSlice S1x3x128x128 ![1, 0, 0, 0] · slices_S2x3x128x128_S1x3x128x128_1_0_0_0) : (⟨S2x3x128x128, .f32⟩ : BufTy).Contents (Elt F) → (⟨S1x3x128x128, .f32⟩ : BufTy).Contents (Elt F)),
    reshape main_v124 main_v125 rfl shapeCasts_S1x3x128x128_S3x128x128,
    unary main_arg4 main_v126 ((extractStridedSlice S1x3x128 ![1, 0, 0] · slices_S2x3x128_S1x3x128_1_0_0) : (⟨S2x3x128, .f32⟩ : BufTy).Contents (Elt F) → (⟨S1x3x128, .f32⟩ : BufTy).Contents (Elt F)),
    reshape main_v126 main_v127 rfl shapeCasts_S1x3x128_S3x128,
    unary main_arg5 main_v128 ((extractStridedSlice S1x3x128 ![1, 0, 0] · slices_S2x3x128_S1x3x128_1_0_0) : (⟨S2x3x128, .f32⟩ : BufTy).Contents (Elt F) → (⟨S1x3x128, .f32⟩ : BufTy).Contents (Elt F)),
    reshape main_v128 main_v129 rfl shapeCasts_S1x3x128_S3x128,
    unary main_arg6 main_v130 ((extractStridedSlice S1x3x128 ![1, 0, 0] · slices_S2x3x128_S1x3x128_1_0_0) : (⟨S2x3x128, .f32⟩ : BufTy).Contents (Elt F) → (⟨S1x3x128, .f32⟩ : BufTy).Contents (Elt F)),
    reshape main_v130 main_v131 rfl shapeCasts_S1x3x128_S3x128,
    unary main_arg7 main_v132 ((extractStridedSlice S1x3x128 ![1, 0, 0] · slices_S2x3x128_S1x3x128_1_0_0) : (⟨S2x3x128, .f32⟩ : BufTy).Contents (Elt F) → (⟨S1x3x128, .f32⟩ : BufTy).Contents (Elt F)),
    reshape main_v132 main_v133 rfl shapeCasts_S1x3x128_S3x128,
    unary main_arg8 main_v134 ((extractStridedSlice S1x3x128 ![1, 0, 0] · slices_S2x3x128_S1x3x128_1_0_0) : (⟨S2x3x128, .f32⟩ : BufTy).Contents (Elt F) → (⟨S1x3x128, .f32⟩ : BufTy).Contents (Elt F)),
    reshape main_v134 main_v135 rfl shapeCasts_S1x3x128_S3x128,
    unary main_arg1 main_v136 ((extractStridedSlice S1x1600000 ![0, 0] · slices_S2x1600000_S1x1600000_0_0) : (⟨S2x1600000, .i32⟩ : BufTy).Contents (Elt F) → (⟨S1x1600000, .i32⟩ : BufTy).Contents (Elt F)),
    reshape main_v136 main_v137 rfl shapeCasts_S1x1600000_S1600000,
    unary main_arg1 main_v138 ((extractStridedSlice S1x1600000 ![1, 0] · slices_S2x1600000_S1x1600000_1_0) : (⟨S2x1600000, .i32⟩ : BufTy).Contents (Elt F) → (⟨S1x1600000, .i32⟩ : BufTy).Contents (Elt F)),
    reshape main_v138 main_v139 rfl shapeCasts_S1x1600000_S1600000,
    nullary main_c_4 (constantI S_ 32 0#32),
    unary main_c_4 main_v140 (broadcastInDim S1600000 ![] bcast_S_S1600000 : (⟨S_, .i32⟩ : BufTy).Contents (Elt F) → (⟨S1600000, .i32⟩ : BufTy).Contents (Elt F)),
    binary main_v137 main_v140 main_v141 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v142 (broadcastInDim S1600000 ![] bcast_S_S1600000 : (⟨S_, .i32⟩ : BufTy).Contents (Elt F) → (⟨S1600000, .i32⟩ : BufTy).Contents (Elt F)),
    binary main_v137 main_v142 main_v143 (addi : (⟨S1600000, .i32⟩ : BufTy).Contents (Elt F) → (⟨S1600000, .i32⟩ : BufTy).Contents (Elt F) → (⟨S1600000, .i32⟩ : BufTy).Contents (Elt F)),
    ternary main_v141 main_v143 main_v137 main_v144 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v144 main_v145 (broadcastInDim S1600000x1 ![0] bcast_S1600000_S1600000x1_0 : (⟨S1600000, .i32⟩ : BufTy).Contents (Elt F) → (⟨S1600000x1, .i32⟩ : BufTy).Contents (Elt F)),
    binary main_v123 main_v145 main_v146 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v147 (broadcastInDim S100000x128 ![] bcast_S_S100000x128 : (⟨S_, .f32⟩ : BufTy).Contents (Elt F) → (⟨S100000x128, .f32⟩ : BufTy).Contents (Elt F)),
    unary main_v139 main_v148 (broadcastInDim S1600000x1 ![0] bcast_S1600000_S1600000x1_0 : (⟨S1600000, .i32⟩ : BufTy).Contents (Elt F) → (⟨S1600000x1, .i32⟩ : BufTy).Contents (Elt F)),
    ternary main_v147 main_v148 main_v146 main_v149 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v123 main_v149 main_v150 (addf : (⟨S100000x128, .f32⟩ : BufTy).Contents (Elt F) → (⟨S100000x128, .f32⟩ : BufTy).Contents (Elt F) → (⟨S100000x128, .f32⟩ : BufTy).Contents (Elt F)) ]

/-- The second branch's first layer up to the reciprocal square root of the offset variance, laid out as a row. -/
abbrev Q7 : List (HloOp τ sig (Elt F)) :=
  [ unary main_v125 main_v151 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v151 main_v152 rfl shapeCasts_S1x128x128_S128x128,
    binary main_v150 main_v152 main_v153 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v127 main_v154 ((extractStridedSlice S1x128 ![0, 0] · slices_S3x128_S1x128_0_0) : (⟨S3x128, .f32⟩ : BufTy).Contents (Elt F) → (⟨S1x128, .f32⟩ : BufTy).Contents (Elt F)),
    reshape main_v154 main_v155 rfl shapeCasts_S1x128_S128,
    unary main_v155 main_v156 (broadcastInDim S1x128 ![1] bcast_S128_S1x128_1 : (⟨S128, .f32⟩ : BufTy).Contents (Elt F) → (⟨S1x128, .f32⟩ : BufTy).Contents (Elt F)),
    unary main_v156 main_v157 (broadcastInDim S100000x128 ![0, 1] bcast_S1x128_S100000x128_0_1 : (⟨S1x128, .f32⟩ : BufTy).Contents (Elt F) → (⟨S100000x128, .f32⟩ : BufTy).Contents (Elt F)),
    binary main_v153 main_v157 main_v158 (addf : (⟨S100000x128, .f32⟩ : BufTy).Contents (Elt F) → (⟨S100000x128, .f32⟩ : BufTy).Contents (Elt F) → (⟨S100000x128, .f32⟩ : BufTy).Contents (Elt F)),
    unary main_v133 main_v159 ((extractStridedSlice S1x128 ![0, 0] · slices_S3x128_S1x128_0_0) : (⟨S3x128, .f32⟩ : BufTy).Contents (Elt F) → (⟨S1x128, .f32⟩ : BufTy).Contents (Elt F)),
    reshape main_v159 main_v160 rfl shapeCasts_S1x128_S128,
    unary main_v160 main_v161 (broadcastInDim S1x128 ![1] bcast_S128_S1x128_1 : (⟨S128, .f32⟩ : BufTy).Contents (Elt F) → (⟨S1x128, .f32⟩ : BufTy).Contents (Elt F)),
    unary main_v161 main_v162 (broadcastInDim S100000x128 ![0, 1] bcast_S1x128_S100000x128_0_1 : (⟨S1x128, .f32⟩ : BufTy).Contents (Elt F) → (⟨S100000x128, .f32⟩ : BufTy).Contents (Elt F)),
    binary main_v158 main_v162 main_v163 (subf : (⟨S100000x128, .f32⟩ : BufTy).Contents (Elt F) → (⟨S100000x128, .f32⟩ : BufTy).Contents (Elt F) → (⟨S100000x128, .f32⟩ : BufTy).Contents (Elt F)),
    unary main_v135 main_v164 ((extractStridedSlice S1x128 ![0, 0] · slices_S3x128_S1x128_0_0) : (⟨S3x128, .f32⟩ : BufTy).Contents (Elt F) → (⟨S1x128, .f32⟩ : BufTy).Contents (Elt F)),
    reshape main_v164 main_v165 rfl shapeCasts_S1x128_S128,
    nullary main_cst_7 (constant S_ .f32 0x3727C5AC#32),
    unary main_cst_7 main_v166 (broadcastInDim S128 ![] bcast_S_S128 : (⟨S_, .f32⟩ : BufTy).Contents (Elt F) → (⟨S128, .f32⟩ : BufTy).Contents (Elt F)),
    binary main_v165 main_v166 main_v167 (addf : (⟨S128, .f32⟩ : BufTy).Contents (Elt F) → (⟨S128, .f32⟩ : BufTy).Contents (Elt F) → (⟨S128, .f32⟩ : BufTy).Contents (Elt F)),
    unary main_v167 main_v168 (Host.rsqrt : (⟨S128, .f32⟩ : BufTy).Contents (Elt F) → (⟨S128, .f32⟩ : BufTy).Contents (Elt F)),
    unary main_v168 main_v169 (broadcastInDim S1x128 ![1] bcast_S128_S1x128_1 : (⟨S128, .f32⟩ : BufTy).Contents (Elt F) → (⟨S1x128, .f32⟩ : BufTy).Contents (Elt F)) ]

/-- The rest of that layer: the second branch's first layer's result. -/
abbrev Q8 : List (HloOp τ sig (Elt F)) :=
  [ unary main_v169 main_v170 (broadcastInDim S100000x128 ![0, 1] bcast_S1x128_S100000x128_0_1 : (⟨S1x128, .f32⟩ : BufTy).Contents (Elt F) → (⟨S100000x128, .f32⟩ : BufTy).Contents (Elt F)),
    binary main_v163 main_v170 main_v171 (mulf : (⟨S100000x128, .f32⟩ : BufTy).Contents (Elt F) → (⟨S100000x128, .f32⟩ : BufTy).Contents (Elt F) → (⟨S100000x128, .f32⟩ : BufTy).Contents (Elt F)),
    unary main_v129 main_v172 ((extractStridedSlice S1x128 ![0, 0] · slices_S3x128_S1x128_0_0) : (⟨S3x128, .f32⟩ : BufTy).Contents (Elt F) → (⟨S1x128, .f32⟩ : BufTy).Contents (Elt F)),
    reshape main_v172 main_v173 rfl shapeCasts_S1x128_S128,
    unary main_v173 main_v174 (broadcastInDim S1x128 ![1] bcast_S128_S1x128_1 : (⟨S128, .f32⟩ : BufTy).Contents (Elt F) → (⟨S1x128, .f32⟩ : BufTy).Contents (Elt F)),
    unary main_v174 main_v175 (broadcastInDim S100000x128 ![0, 1] bcast_S1x128_S100000x128_0_1 : (⟨S1x128, .f32⟩ : BufTy).Contents (Elt F) → (⟨S100000x128, .f32⟩ : BufTy).Contents (Elt F)),
    binary main_v171 main_v175 main_v176 (mulf : (⟨S100000x128, .f32⟩ : BufTy).Contents (Elt F) → (⟨S100000x128, .f32⟩ : BufTy).Contents (Elt F) → (⟨S100000x128, .f32⟩ : BufTy).Contents (Elt F)),
    unary main_v131 main_v177 ((extractStridedSlice S1x128 ![0, 0] · slices_S3x128_S1x128_0_0) : (⟨S3x128, .f32⟩ : BufTy).Contents (Elt F) → (⟨S1x128, .f32⟩ : BufTy).Contents (Elt F)),
    reshape main_v177 main_v178 rfl shapeCasts_S1x128_S128,
    unary main_v178 main_v179 (broadcastInDim S1x128 ![1] bcast_S128_S1x128_1 : (⟨S128, .f32⟩ : BufTy).Contents (Elt F) → (⟨S1x128, .f32⟩ : BufTy).Contents (Elt F)),
    unary main_v179 main_v180 (broadcastInDim S100000x128 ![0, 1] bcast_S1x128_S100000x128_0_1 : (⟨S1x128, .f32⟩ : BufTy).Contents (Elt F) → (⟨S100000x128, .f32⟩ : BufTy).Contents (Elt F)),
    binary main_v176 main_v180 main_v181 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v181) (TRef.of (T := ⟨S100000x128, .f32⟩) main_call4_v0) (TRef.of (T := ⟨S100000x128, .f32⟩) main_v182) maximumf ]

/-- The second branch's second layer, whole. -/
abbrev Q9 : List (HloOp τ sig (Elt F)) :=
  [ unary main_v125 main_v183 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v183 main_v184 rfl shapeCasts_S1x128x128_S128x128,
    binary main_v182 main_v184 main_v185 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v127 main_v186 ((extractStridedSlice S1x128 ![1, 0] · slices_S3x128_S1x128_1_0) : (⟨S3x128, .f32⟩ : BufTy).Contents (Elt F) → (⟨S1x128, .f32⟩ : BufTy).Contents (Elt F)),
    reshape main_v186 main_v187 rfl shapeCasts_S1x128_S128,
    unary main_v187 main_v188 (broadcastInDim S1x128 ![1] bcast_S128_S1x128_1 : (⟨S128, .f32⟩ : BufTy).Contents (Elt F) → (⟨S1x128, .f32⟩ : BufTy).Contents (Elt F)),
    unary main_v188 main_v189 (broadcastInDim S100000x128 ![0, 1] bcast_S1x128_S100000x128_0_1 : (⟨S1x128, .f32⟩ : BufTy).Contents (Elt F) → (⟨S100000x128, .f32⟩ : BufTy).Contents (Elt F)),
    binary main_v185 main_v189 main_v190 (addf : (⟨S100000x128, .f32⟩ : BufTy).Contents (Elt F) → (⟨S100000x128, .f32⟩ : BufTy).Contents (Elt F) → (⟨S100000x128, .f32⟩ : BufTy).Contents (Elt F)),
    unary main_v133 main_v191 ((extractStridedSlice S1x128 ![1, 0] · slices_S3x128_S1x128_1_0) : (⟨S3x128, .f32⟩ : BufTy).Contents (Elt F) → (⟨S1x128, .f32⟩ : BufTy).Contents (Elt F)),
    reshape main_v191 main_v192 rfl shapeCasts_S1x128_S128,
    unary main_v192 main_v193 (broadcastInDim S1x128 ![1] bcast_S128_S1x128_1 : (⟨S128, .f32⟩ : BufTy).Contents (Elt F) → (⟨S1x128, .f32⟩ : BufTy).Contents (Elt F)),
    unary main_v193 main_v194 (broadcastInDim S100000x128 ![0, 1] bcast_S1x128_S100000x128_0_1 : (⟨S1x128, .f32⟩ : BufTy).Contents (Elt F) → (⟨S100000x128, .f32⟩ : BufTy).Contents (Elt F)),
    binary main_v190 main_v194 main_v195 (subf : (⟨S100000x128, .f32⟩ : BufTy).Contents (Elt F) → (⟨S100000x128, .f32⟩ : BufTy).Contents (Elt F) → (⟨S100000x128, .f32⟩ : BufTy).Contents (Elt F)),
    unary main_v135 main_v196 ((extractStridedSlice S1x128 ![1, 0] · slices_S3x128_S1x128_1_0) : (⟨S3x128, .f32⟩ : BufTy).Contents (Elt F) → (⟨S1x128, .f32⟩ : BufTy).Contents (Elt F)),
    reshape main_v196 main_v197 rfl shapeCasts_S1x128_S128,
    nullary main_cst_8 (constant S_ .f32 0x3727C5AC#32),
    unary main_cst_8 main_v198 (broadcastInDim S128 ![] bcast_S_S128 : (⟨S_, .f32⟩ : BufTy).Contents (Elt F) → (⟨S128, .f32⟩ : BufTy).Contents (Elt F)),
    binary main_v197 main_v198 main_v199 (addf : (⟨S128, .f32⟩ : BufTy).Contents (Elt F) → (⟨S128, .f32⟩ : BufTy).Contents (Elt F) → (⟨S128, .f32⟩ : BufTy).Contents (Elt F)),
    unary main_v199 main_v200 (Host.rsqrt : (⟨S128, .f32⟩ : BufTy).Contents (Elt F) → (⟨S128, .f32⟩ : BufTy).Contents (Elt F)),
    unary main_v200 main_v201 (broadcastInDim S1x128 ![1] bcast_S128_S1x128_1 : (⟨S128, .f32⟩ : BufTy).Contents (Elt F) → (⟨S1x128, .f32⟩ : BufTy).Contents (Elt F)),
    unary main_v201 main_v202 (broadcastInDim S100000x128 ![0, 1] bcast_S1x128_S100000x128_0_1 : (⟨S1x128, .f32⟩ : BufTy).Contents (Elt F) → (⟨S100000x128, .f32⟩ : BufTy).Contents (Elt F)),
    binary main_v195 main_v202 main_v203 (mulf : (⟨S100000x128, .f32⟩ : BufTy).Contents (Elt F) → (⟨S100000x128, .f32⟩ : BufTy).Contents (Elt F) → (⟨S100000x128, .f32⟩ : BufTy).Contents (Elt F)),
    unary main_v129 main_v204 ((extractStridedSlice S1x128 ![1, 0] · slices_S3x128_S1x128_1_0) : (⟨S3x128, .f32⟩ : BufTy).Contents (Elt F) → (⟨S1x128, .f32⟩ : BufTy).Contents (Elt F)),
    reshape main_v204 main_v205 rfl shapeCasts_S1x128_S128,
    unary main_v205 main_v206 (broadcastInDim S1x128 ![1] bcast_S128_S1x128_1 : (⟨S128, .f32⟩ : BufTy).Contents (Elt F) → (⟨S1x128, .f32⟩ : BufTy).Contents (Elt F)),
    unary main_v206 main_v207 (broadcastInDim S100000x128 ![0, 1] bcast_S1x128_S100000x128_0_1 : (⟨S1x128, .f32⟩ : BufTy).Contents (Elt F) → (⟨S100000x128, .f32⟩ : BufTy).Contents (Elt F)),
    binary main_v203 main_v207 main_v208 (mulf : (⟨S100000x128, .f32⟩ : BufTy).Contents (Elt F) → (⟨S100000x128, .f32⟩ : BufTy).Contents (Elt F) → (⟨S100000x128, .f32⟩ : BufTy).Contents (Elt F)),
    unary main_v131 main_v209 ((extractStridedSlice S1x128 ![1, 0] · slices_S3x128_S1x128_1_0) : (⟨S3x128, .f32⟩ : BufTy).Contents (Elt F) → (⟨S1x128, .f32⟩ : BufTy).Contents (Elt F)),
    reshape main_v209 main_v210 rfl shapeCasts_S1x128_S128,
    unary main_v210 main_v211 (broadcastInDim S1x128 ![1] bcast_S128_S1x128_1 : (⟨S128, .f32⟩ : BufTy).Contents (Elt F) → (⟨S1x128, .f32⟩ : BufTy).Contents (Elt F)),
    unary main_v211 main_v212 (broadcastInDim S100000x128 ![0, 1] bcast_S1x128_S100000x128_0_1 : (⟨S1x128, .f32⟩ : BufTy).Contents (Elt F) → (⟨S100000x128, .f32⟩ : BufTy).Contents (Elt F)),
    binary main_v208 main_v212 main_v213 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v213) (TRef.of (T := ⟨S100000x128, .f32⟩) main_call5_v0) (TRef.of (T := ⟨S100000x128, .f32⟩) main_v214) maximumf ]

/-- The second branch's third layer up to the subtraction of the mean, and its variance vector's slice. -/
abbrev Q10 : List (HloOp τ sig (Elt F)) :=
  [ unary main_v125 main_v215 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v215 main_v216 rfl shapeCasts_S1x128x128_S128x128,
    binary main_v214 main_v216 main_v217 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v127 main_v218 ((extractStridedSlice S1x128 ![2, 0] · slices_S3x128_S1x128_2_0) : (⟨S3x128, .f32⟩ : BufTy).Contents (Elt F) → (⟨S1x128, .f32⟩ : BufTy).Contents (Elt F)),
    reshape main_v218 main_v219 rfl shapeCasts_S1x128_S128,
    unary main_v219 main_v220 (broadcastInDim S1x128 ![1] bcast_S128_S1x128_1 : (⟨S128, .f32⟩ : BufTy).Contents (Elt F) → (⟨S1x128, .f32⟩ : BufTy).Contents (Elt F)),
    unary main_v220 main_v221 (broadcastInDim S100000x128 ![0, 1] bcast_S1x128_S100000x128_0_1 : (⟨S1x128, .f32⟩ : BufTy).Contents (Elt F) → (⟨S100000x128, .f32⟩ : BufTy).Contents (Elt F)),
    binary main_v217 main_v221 main_v222 (addf : (⟨S100000x128, .f32⟩ : BufTy).Contents (Elt F) → (⟨S100000x128, .f32⟩ : BufTy).Contents (Elt F) → (⟨S100000x128, .f32⟩ : BufTy).Contents (Elt F)),
    unary main_v133 main_v223 ((extractStridedSlice S1x128 ![2, 0] · slices_S3x128_S1x128_2_0) : (⟨S3x128, .f32⟩ : BufTy).Contents (Elt F) → (⟨S1x128, .f32⟩ : BufTy).Contents (Elt F)),
    reshape main_v223 main_v224 rfl shapeCasts_S1x128_S128,
    unary main_v224 main_v225 (broadcastInDim S1x128 ![1] bcast_S128_S1x128_1 : (⟨S128, .f32⟩ : BufTy).Contents (Elt F) → (⟨S1x128, .f32⟩ : BufTy).Contents (Elt F)),
    unary main_v225 main_v226 (broadcastInDim S100000x128 ![0, 1] bcast_S1x128_S100000x128_0_1 : (⟨S1x128, .f32⟩ : BufTy).Contents (Elt F) → (⟨S100000x128, .f32⟩ : BufTy).Contents (Elt F)),
    binary main_v222 main_v226 main_v227 (subf : (⟨S100000x128, .f32⟩ : BufTy).Contents (Elt F) → (⟨S100000x128, .f32⟩ : BufTy).Contents (Elt F) → (⟨S100000x128, .f32⟩ : BufTy).Contents (Elt F)),
    unary main_v135 main_v228 ((extractStridedSlice S1x128 ![2, 0] · slices_S3x128_S1x128_2_0) : (⟨S3x128, .f32⟩ : BufTy).Contents (Elt F) → (⟨S1x128, .f32⟩ : BufTy).Contents (Elt F)) ]

/-- The rest of the third layer and the maximum with zero, taken twice: the second block's result. -/
abbrev Q11 : List (HloOp τ sig (Elt F)) :=
  [ reshape main_v228 main_v229 rfl shapeCasts_S1x128_S128,
    nullary main_cst_9 (constant S_ .f32 0x3727C5AC#32),
    unary main_cst_9 main_v230 (broadcastInDim S128 ![] bcast_S_S128 : (⟨S_, .f32⟩ : BufTy).Contents (Elt F) → (⟨S128, .f32⟩ : BufTy).Contents (Elt F)),
    binary main_v229 main_v230 main_v231 (addf : (⟨S128, .f32⟩ : BufTy).Contents (Elt F) → (⟨S128, .f32⟩ : BufTy).Contents (Elt F) → (⟨S128, .f32⟩ : BufTy).Contents (Elt F)),
    unary main_v231 main_v232 (Host.rsqrt : (⟨S128, .f32⟩ : BufTy).Contents (Elt F) → (⟨S128, .f32⟩ : BufTy).Contents (Elt F)),
    unary main_v232 main_v233 (broadcastInDim S1x128 ![1] bcast_S128_S1x128_1 : (⟨S128, .f32⟩ : BufTy).Contents (Elt F) → (⟨S1x128, .f32⟩ : BufTy).Contents (Elt F)),
    unary main_v233 main_v234 (broadcastInDim S100000x128 ![0, 1] bcast_S1x128_S100000x128_0_1 : (⟨S1x128, .f32⟩ : BufTy).Contents (Elt F) → (⟨S100000x128, .f32⟩ : BufTy).Contents (Elt F)),
    binary main_v227 main_v234 main_v235 (mulf : (⟨S100000x128, .f32⟩ : BufTy).Contents (Elt F) → (⟨S100000x128, .f32⟩ : BufTy).Contents (Elt F) → (⟨S100000x128, .f32⟩ : BufTy).Contents (Elt F)),
    unary main_v129 main_v236 ((extractStridedSlice S1x128 ![2, 0] · slices_S3x128_S1x128_2_0) : (⟨S3x128, .f32⟩ : BufTy).Contents (Elt F) → (⟨S1x128, .f32⟩ : BufTy).Contents (Elt F)),
    reshape main_v236 main_v237 rfl shapeCasts_S1x128_S128,
    unary main_v237 main_v238 (broadcastInDim S1x128 ![1] bcast_S128_S1x128_1 : (⟨S128, .f32⟩ : BufTy).Contents (Elt F) → (⟨S1x128, .f32⟩ : BufTy).Contents (Elt F)),
    unary main_v238 main_v239 (broadcastInDim S100000x128 ![0, 1] bcast_S1x128_S100000x128_0_1 : (⟨S1x128, .f32⟩ : BufTy).Contents (Elt F) → (⟨S100000x128, .f32⟩ : BufTy).Contents (Elt F)),
    binary main_v235 main_v239 main_v240 (mulf : (⟨S100000x128, .f32⟩ : BufTy).Contents (Elt F) → (⟨S100000x128, .f32⟩ : BufTy).Contents (Elt F) → (⟨S100000x128, .f32⟩ : BufTy).Contents (Elt F)),
    unary main_v131 main_v241 ((extractStridedSlice S1x128 ![2, 0] · slices_S3x128_S1x128_2_0) : (⟨S3x128, .f32⟩ : BufTy).Contents (Elt F) → (⟨S1x128, .f32⟩ : BufTy).Contents (Elt F)),
    reshape main_v241 main_v242 rfl shapeCasts_S1x128_S128,
    unary main_v242 main_v243 (broadcastInDim S1x128 ![1] bcast_S128_S1x128_1 : (⟨S128, .f32⟩ : BufTy).Contents (Elt F) → (⟨S1x128, .f32⟩ : BufTy).Contents (Elt F)),
    unary main_v243 main_v244 (broadcastInDim S100000x128 ![0, 1] bcast_S1x128_S100000x128_0_1 : (⟨S1x128, .f32⟩ : BufTy).Contents (Elt F) → (⟨S100000x128, .f32⟩ : BufTy).Contents (Elt F)),
    binary main_v240 main_v244 main_v245 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x128, .f32⟩) main_call6_v0) (broadcastInDim S100000x128 ![] bcast_S_S100000x128),
    TRef.binary (TRef.of (T := ⟨S100000x128, .f32⟩) main_v245) (TRef.of (T := ⟨S100000x128, .f32⟩) main_call6_v0) (TRef.of (T := ⟨S100000x128, .f32⟩) main_v246) maximumf,
    TRef.nullary (TRef.of (T := ⟨S_, .f32⟩) main_call7_cst) (constant S_ .f32 0x00000000#32),
    TRef.unary (TRef.of (T := ⟨S_, .f32⟩) main_call7_cst) (TRef.of (T := ⟨S100000x128, .f32⟩) main_call7_v0) (broadcastInDim S100000x128 ![] bcast_S_S100000x128),
    TRef.binary (TRef.of (T := ⟨S100000x128, .f32⟩) main_v246) (TRef.of (T := ⟨S100000x128, .f32⟩) main_call7_v0) (TRef.of (T := ⟨S100000x128, .f32⟩) main_v247) maximumf ]

/-- The logits and, row by row, their maximum, the shifted logits, the logarithm of the sum of their exponentials and the difference. -/
abbrev Q12 : List (HloOp τ sig (Elt F)) :=
  [ binary main_v247 main_arg9 main_v248 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg10 main_v249 (broadcastInDim S1x64 ![1] bcast_S64_S1x64_1 : (⟨S64, .f32⟩ : BufTy).Contents (Elt F) → (⟨S1x64, .f32⟩ : BufTy).Contents (Elt F)),
    unary main_v249 main_v250 (broadcastInDim S100000x64 ![0, 1] bcast_S1x64_S100000x64_0_1 : (⟨S1x64, .f32⟩ : BufTy).Contents (Elt F) → (⟨S100000x64, .f32⟩ : BufTy).Contents (Elt F)),
    binary main_v248 main_v250 main_v251 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call8_cst) (constant S_ .f32 0xFF800000#32),
    TRef.binary (TRef.of (T := ⟨S100000x64, .f32⟩) main_v251) (TRef.of (T := ⟨S_, .f32⟩) main_call8_cst) (TRef.of (T := ⟨S100000, .f32⟩) main_call8_v0) (fun x v => Host.reduce FloatOps.maximumf x v reducesTo_S100000x64_S100000_d1 h_S_),
    TRef.nullary (TRef.of (T := ⟨S_, .f32⟩) main_call8_cst_0) (constant S_ .f32 0xFF800000#32),
    TRef.unary (TRef.of (T := ⟨S_, .f32⟩) main_call8_cst_0) (TRef.of (T := ⟨S100000, .f32⟩) main_call8_v1) (broadcastInDim S100000 ![] bcast_S_S100000),
    TRef.binary (TRef.of (T := ⟨S100000, .f32⟩) main_call8_v1) (TRef.of (T := ⟨S100000, .f32⟩) main_call8_v0) (TRef.of (T := ⟨S100000, .f32⟩) main_call8_v2) maximumf,
    TRef.unary (TRef.of (T := ⟨S100000, .f32⟩) main_call8_v2) (TRef.of (T := ⟨S100000x1, .f32⟩) main_call8_v3) (broadcastInDim S100000x1 ![0] bcast_S100000_S100000x1_0),
    TRef.unary (TRef.of (T := ⟨S100000x1, .f32⟩) main_call8_v3) (TRef.of (T := ⟨S100000x64, .f32⟩) main_call8_v4) (broadcastInDim S100000x64 ![0, 1] bcast_S100000x1_S100000x64_0_1),
    TRef.binary (TRef.of (T := ⟨S100000x64, .f32⟩) main_v251) (TRef.of (T := ⟨S100000x64, .f32⟩) main_call8_v4) (TRef.of (T := ⟨S100000x64, .f32⟩) main_call8_v5) subf,
    TRef.unary (TRef.of (T := ⟨S100000x64, .f32⟩) main_call8_v5) (TRef.of (T := ⟨S100000x64, .f32⟩) main_call8_v6) Host.exp,
    TRef.nullary (TRef.of (T := ⟨S_, .f32⟩) main_call8_cst_1) (constant S_ .f32 0x00000000#32),
    TRef.binary (TRef.of (T := ⟨S100000x64, .f32⟩) main_call8_v6) (TRef.of (T := ⟨S_, .f32⟩) main_call8_cst_1) (TRef.of (T := ⟨S100000, .f32⟩) main_call8_v7) (fun x v => Host.reduceAdd x v reducesTo_S100000x64_S100000_d1 h_S_),
    TRef.unary (TRef.of (T := ⟨S100000, .f32⟩) main_call8_v7) (TRef.of (T := ⟨S100000x1, .f32⟩) main_call8_v8) (broadcastInDim S100000x1 ![0] bcast_S100000_S100000x1_0),
    TRef.unary (TRef.of (T := ⟨S100000x1, .f32⟩) main_call8_v8) (TRef.of (T := ⟨S100000x1, .f32⟩) main_call8_v9) Host.log,
    TRef.unary (TRef.of (T := ⟨S100000x1, .f32⟩) main_call8_v9) (TRef.of (T := ⟨S100000x64, .f32⟩) main_call8_v10) (broadcastInDim S100000x64 ![0, 1] bcast_S100000x1_S100000x64_0_1),
    TRef.binary (TRef.of (T := ⟨S100000x64, .f32⟩) main_call8_v5) (TRef.of (T := ⟨S100000x64, .f32⟩) main_call8_v10) (TRef.of (T := ⟨S100000x64, .f32⟩) main_v252) subf ]

/-- The whole program: the thirteen lists one after the other. -/
abbrev Qall : List (HloOp τ sig (Elt F)) :=
  Q0 ++ Q1 ++ Q2 ++ Q3 ++ Q4 ++ Q5 ++ Q6 ++ Q7 ++ Q8 ++ Q9 ++ Q10 ++ Q11 ++ Q12

end Cert.Gin.Ref

end
-- ==== Proof.RefMain0.lean ====
/-
  The first of the five consecutive parts of the reference program's text is the straight line of the lists
  Q0, Q1: a called function's operations stand where it is called, over that call's buffers. Each of the lists
  touches TensorCore buffers only and allocates none.
-/
import proofs.«114777_j46617575031250_1_alg».proof.Proof.RefOps
import Idealize.ShloMosaic.Lib.StableHlo.Run

noncomputable section

namespace Cert.Gin.Ref

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The part is its operations run in order. -/
theorem part0_eq (d : Dev nD) : main_part0 (F := F) d = seq (Q0 ++ Q1) := rfl

theorem Q0_sub : (Q0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩

theorem Q0_fresh : ∀ op ∈ (Q0 : List (HloOp τ sig (Elt F))), op.fresh = ∅ := by
  intro _ h; (repeat (cases h with | head => rfl | tail _ h => ?_)); exact nomatch h

theorem Q1_sub : (Q1 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub ..⟩

theorem Q1_fresh : ∀ op ∈ (Q1 : List (HloOp τ sig (Elt F))), op.fresh = ∅ := by
  intro _ h; (repeat (cases h with | head => rfl | tail _ h => ?_)); exact nomatch h

end Cert.Gin.Ref

end
-- ==== Proof.RefMain1.lean ====
/-
  The second of the five consecutive parts of the reference program's text is the straight line of the lists
  Q2, Q3, Q4: a called function's operations stand where it is called, over that call's buffers. Each of the lists
  touches TensorCore buffers only and allocates none.
-/
import proofs.«114777_j46617575031250_1_alg».proof.Proof.RefOps
import Idealize.ShloMosaic.Lib.StableHlo.Run

noncomputable section

namespace Cert.Gin.Ref

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The part is its operations run in order. -/
theorem part1_eq (d : Dev nD) : main_part1 (F := F) d = seq (Q2 ++ Q3 ++ Q4) := rfl

theorem Q2_sub : (Q2 : List (HloOp τ sig (Elt F))).Forall fun op => op.bufs ⊆ tcRefs τ sig :=
  ⟨unary_bufs_sub .., binary_bufs_sub .., nullary_bufs_sub .., unary_bufs_sub .., binary_bufs_sub ..⟩

theorem Q2_fresh : ∀ op ∈ (Q2 : List (HloOp τ sig (Elt F))), op.fresh = ∅ := by
  intro _ h; (repeat (cases h with | head => rfl | tail _ h => ?_)); exact nomatch h

theorem Q3_sub : (Q3 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem Q3_fresh : ∀ op ∈ (Q3 : List (HloOp τ sig (Elt F))), op.fresh = ∅ := by
  intro _ h; (repeat (cases h with | head => rfl | tail _ h => ?_)); exact nomatch h

theorem Q4_sub : (Q4 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub ..⟩

theorem Q4_fresh : ∀ op ∈ (Q4 : List (HloOp τ sig (Elt F))), op.fresh = ∅ := by
  intro _ h; (repeat (cases h with | head => rfl | tail _ h => ?_)); exact nomatch h

end Cert.Gin.Ref

end
-- ==== Proof.RefMain2.lean ====
/-
  The third of the five consecutive parts of the reference program's text is the straight line of the lists
  Q5, Q6, Q7: a called function's operations stand where it is called, over that call's buffers. Each of the lists
  touches TensorCore buffers only and allocates none.
-/
import proofs.«114777_j46617575031250_1_alg».proof.Proof.RefOps
import Idealize.ShloMosaic.Lib.StableHlo.Run

noncomputable section

namespace Cert.Gin.Ref

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The part is its operations run in order. -/
theorem part2_eq (d : Dev nD) : main_part2 (F := F) d = seq (Q5 ++ Q6 ++ Q7) := rfl

theorem Q5_sub : (Q5 : List (HloOp τ sig (Elt F))).Forall fun op => op.bufs ⊆ tcRefs τ sig :=
  ⟨unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub ..⟩

theorem Q5_fresh : ∀ op ∈ (Q5 : List (HloOp τ sig (Elt F))), op.fresh = ∅ := by
  intro _ h; (repeat (cases h with | head => rfl | tail _ h => ?_)); exact nomatch h

theorem Q6_sub : (Q6 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub ..⟩

theorem Q6_fresh : ∀ op ∈ (Q6 : List (HloOp τ sig (Elt F))), op.fresh = ∅ := by
  intro _ h; (repeat (cases h with | head => rfl | tail _ h => ?_)); exact nomatch h

theorem Q7_sub : (Q7 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub ..⟩

theorem Q7_fresh : ∀ op ∈ (Q7 : List (HloOp τ sig (Elt F))), op.fresh = ∅ := by
  intro _ h; (repeat (cases h with | head => rfl | tail _ h => ?_)); exact nomatch h

end Cert.Gin.Ref

end
-- ==== Proof.RefMain3.lean ====
/-
  The fourth of the five consecutive parts of the reference program's text is the straight line of the lists
  Q8, Q9, Q10: a called function's operations stand where it is called, over that call's buffers. Each of the lists
  touches TensorCore buffers only and allocates none.
-/
import proofs.«114777_j46617575031250_1_alg».proof.Proof.RefOps
import Idealize.ShloMosaic.Lib.StableHlo.Run

noncomputable section

namespace Cert.Gin.Ref

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The part is its operations run in order. -/
theorem part3_eq (d : Dev nD) : main_part3 (F := F) d = seq (Q8 ++ Q9 ++ Q10) := rfl

theorem Q8_sub : (Q8 : List (HloOp τ sig (Elt F))).Forall fun op => op.bufs ⊆ tcRefs τ sig :=
  ⟨unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem Q8_fresh : ∀ op ∈ (Q8 : List (HloOp τ sig (Elt F))), op.fresh = ∅ := by
  intro _ h; (repeat (cases h with | head => rfl | tail _ h => ?_)); exact nomatch h

theorem Q9_sub : (Q9 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem Q9_fresh : ∀ op ∈ (Q9 : List (HloOp τ sig (Elt F))), op.fresh = ∅ := by
  intro _ h; (repeat (cases h with | head => rfl | tail _ h => ?_)); exact nomatch h

theorem Q10_sub : (Q10 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub ..⟩

theorem Q10_fresh : ∀ op ∈ (Q10 : List (HloOp τ sig (Elt F))), op.fresh = ∅ := by
  intro _ h; (repeat (cases h with | head => rfl | tail _ h => ?_)); exact nomatch h

end Cert.Gin.Ref

end
-- ==== Proof.RefMain4.lean ====
/-
  The fifth of the five consecutive parts of the reference program's text is the straight line of the lists
  Q11, Q12: a called function's operations stand where it is called, over that call's buffers. Each of the lists
  touches TensorCore buffers only and allocates none.
-/
import proofs.«114777_j46617575031250_1_alg».proof.Proof.RefOps
import Idealize.ShloMosaic.Lib.StableHlo.Run

noncomputable section

namespace Cert.Gin.Ref

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The part is its operations run in order. -/
theorem part4_eq (d : Dev nD) : main_part4 (F := F) d = seq (Q11 ++ Q12) := rfl

theorem Q11_sub : (Q11 : List (HloOp τ sig (Elt F))).Forall fun op => op.bufs ⊆ tcRefs τ sig :=
  ⟨reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub ..⟩

theorem Q11_fresh : ∀ op ∈ (Q11 : List (HloOp τ sig (Elt F))), op.fresh = ∅ := by
  intro _ h; (repeat (cases h with | head => rfl | tail _ h => ?_)); exact nomatch h

theorem Q12_sub : (Q12 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem Q12_fresh : ∀ op ∈ (Q12 : List (HloOp τ sig (Elt F))), op.fresh = ∅ := by
  intro _ h; (repeat (cases h with | head => rfl | tail _ h => ?_)); exact nomatch h

end Cert.Gin.Ref

end
-- ==== Proof.RefMain.lean ====
/-
  The reference program is the straight line of its operations, and so its run ends with every buffer at the fold of
  the operations' results over the launch contents: the five parts of the program's text, each the straight line of
  its lists, are run one after the other.
-/
import proofs.«114777_j46617575031250_1_alg».proof.Proof.RefOps
import proofs.«114777_j46617575031250_1_alg».proof.Proof.RefMain0
import proofs.«114777_j46617575031250_1_alg».proof.Proof.RefMain1
import proofs.«114777_j46617575031250_1_alg».proof.Proof.RefMain2
import proofs.«114777_j46617575031250_1_alg».proof.Proof.RefMain3
import proofs.«114777_j46617575031250_1_alg».proof.Proof.RefMain4
import Idealize.ShloMosaic.Lib.StableHlo.Run

noncomputable section

namespace Cert.Gin.Ref

open Cert.ReferenceIdeal Cert.ReferenceIdeal.Gen Idealize.ShloMosaic Idealize.ShloMosaic.TcCoe Idealize.SL.Sem Idealize.ShloMosaic.StableHlo

variable {F : FTy → Type} [FloatOps F]

/-- Two lists that allocate no buffer, one after the other, allocate none. -/
theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.mp h).elim (h₁ op) (h₂ op)

/-- Every operation of the program touches TensorCore buffers only. -/
theorem Qall_sub : (Qall : List (HloOp τ sig (Elt F))).Forall fun op => op.bufs ⊆ tcRefs τ sig :=
  (List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨Q0_sub, Q1_sub⟩), Q2_sub⟩), Q3_sub⟩), Q4_sub⟩), Q5_sub⟩), Q6_sub⟩), Q7_sub⟩), Q8_sub⟩), Q9_sub⟩), Q10_sub⟩), Q11_sub⟩), Q12_sub⟩)

/-- No operation of the program allocates a buffer. -/
theorem Qall_fresh : ∀ op ∈ (Qall : List (HloOp τ sig (Elt F))), op.fresh = ∅ :=
  (fresh_append (fresh_append (fresh_append (fresh_append (fresh_append (fresh_append (fresh_append (fresh_append (fresh_append (fresh_append (fresh_append (fresh_append Q0_fresh Q1_fresh) Q2_fresh) Q3_fresh) Q4_fresh) Q5_fresh) Q6_fresh) Q7_fresh) Q8_fresh) Q9_fresh) Q10_fresh) Q11_fresh) Q12_fresh)

/-- The program is its operations run in order: its five parts are, and a line of lists one after the other is the
    lines run one after the other. -/
theorem main_eq (c : Dev nD) : main (F := F) c = seq Qall := by
  have h : main (F := F) c
      = (main_part0 c >>= fun _ => main_part1 c >>= fun _ => main_part2 c >>= fun _ => main_part3 c >>= fun _ => main_part4 c) := rfl
  rw [h, part0_eq, part1_eq, part2_eq, part3_eq, part4_eq]
  simp only [Qall, seq_append, bind_assoc]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of the
    program terminates with every TensorCore buffer at the fold of the operations' results over its launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after Qall (launchContents m c) (Proc.devRef .tc b) :=
  run_seq scopedRefs_eq scopedSems_eq defs main (fun _ => Qall) main_eq (fun _ => Qall_sub) m ρ (fun _ => Qall_fresh)

end Cert.Gin.Ref

end
-- ==== Proof.ParamsRef.lean ====
/-
  The pieces of the network as this program's text spells them, each a function of the argument arrays: the
  neighbourhood aggregation `h + scatter_add (gather h src) dst` (the source indices wrapped once when negative, as
  jnp indexing does), and, for the branch `a` and the layer `k`, the weight matrix and the five parameter vectors cut
  out of the stacked arguments by a slice and a reshape on each of the two leading axes.
-/
import proofs.«114777_j46617575031250_1_alg».proof.Proof.Gen.ReferenceIdeal
import proofs.«114777_j46617575031250_1_alg».proof.Proof.Spec

noncomputable section

namespace Cert.Gin.Ref

open Idealize.ShloMosaic Idealize.ShloMosaic.ValueIdx Cert.ReferenceIdeal Cert.ReferenceIdeal.Gen Cert.Gin

/-- The source endpoints of the edges, wrapped once when negative. -/
def src (e : IVec S2x1600000 32) : IVec S1600000 32 :=
  select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000)

/-- Every node's features plus the sum of the features of the sources of the edges that end at it. -/
def agg (e : IVec S2x1600000 32) (h : FVec Ideal S100000x128 .f32) : FVec Ideal S100000x128 .f32 :=
  addf h (Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x128_S1600000x1_S1600000x128_1_0_n_n_0_1_1128 h (broadcastInDim S1600000x1 ![0] bcast_S1600000_S1600000x1_0 (src e))))

/-- Branch 0 / branch 1 of a stack of three parameter vectors. -/
def stackA0 (x : FVec Ideal S2x3x128 .f32) : FVec Ideal S3x128 .f32 :=
  shapeCast _ (extractStridedSlice S1x3x128 ![0, 0, 0] x slices_S2x3x128_S1x3x128_0_0_0) shapeCasts_S1x3x128_S3x128
def stackA1 (x : FVec Ideal S2x3x128 .f32) : FVec Ideal S3x128 .f32 :=
  shapeCast _ (extractStridedSlice S1x3x128 ![1, 0, 0] x slices_S2x3x128_S1x3x128_1_0_0) shapeCasts_S1x3x128_S3x128

/-- Layer 0 / 1 / 2 of a branch's three parameter vectors. -/
def vecK0 (s : FVec Ideal S3x128 .f32) : FVec Ideal S128 .f32 :=
  shapeCast _ (extractStridedSlice S1x128 ![0, 0] s slices_S3x128_S1x128_0_0) shapeCasts_S1x128_S128
def vecK1 (s : FVec Ideal S3x128 .f32) : FVec Ideal S128 .f32 :=
  shapeCast _ (extractStridedSlice S1x128 ![1, 0] s slices_S3x128_S1x128_1_0) shapeCasts_S1x128_S128
def vecK2 (s : FVec Ideal S3x128 .f32) : FVec Ideal S128 .f32 :=
  shapeCast _ (extractStridedSlice S1x128 ![2, 0] s slices_S3x128_S1x128_2_0) shapeCasts_S1x128_S128

/-- Branch 0 / branch 1 of the stacked weight matrices. -/
def wstackA0 (x : FVec Ideal S2x3x128x128 .f32) : FVec Ideal S3x128x128 .f32 :=
  shapeCast _ (extractStridedSlice S1x3x128x128 ![0, 0, 0, 0] x slices_S2x3x128x128_S1x3x128x128_0_0_0_0) shapeCasts_S1x3x128x128_S3x128x128
def wstackA1 (x : FVec Ideal S2x3x128x128 .f32) : FVec Ideal S3x128x128 .f32 :=
  shapeCast _ (extractStridedSlice S1x3x128x128 ![1, 0, 0, 0] x slices_S2x3x128x128_S1x3x128x128_1_0_0_0) shapeCasts_S1x3x128x128_S3x128x128

/-- Layer 0 / 1 / 2 of a branch's three weight matrices. -/
def wmatK0 (s : FVec Ideal S3x128x128 .f32) : FVec Ideal S128x128 .f32 :=
  shapeCast _ (extractStridedSlice S1x128x128 ![0, 0, 0] s slices_S3x128x128_S1x128x128_0_0_0) shapeCasts_S1x128x128_S128x128
def wmatK1 (s : FVec Ideal S3x128x128 .f32) : FVec Ideal S128x128 .f32 :=
  shapeCast _ (extractStridedSlice S1x128x128 ![1, 0, 0] s slices_S3x128x128_S1x128x128_1_0_0) shapeCasts_S1x128x128_S128x128
def wmatK2 (s : FVec Ideal S3x128x128 .f32) : FVec Ideal S128x128 .f32 :=
  shapeCast _ (extractStridedSlice S1x128x128 ![2, 0, 0] s slices_S3x128x128_S1x128x128_2_0_0) shapeCasts_S1x128x128_S128x128

/-- A layer's parameters from its weight matrix and its five vectors `b g β μ v`. -/
def params (w : FVec Ideal S128x128 .f32) (b g β μ v : FVec Ideal S128 .f32) : LayerParams 128 128 :=
  ⟨w, fun j => b (ix1 j), fun j => g (ix1 j), fun j => β (ix1 j), fun j => μ (ix1 j), fun j => v (ix1 j)⟩

/-- The six layers' parameters, from the stacked arguments `conv_w conv_b bn_g bn_b bn_m bn_v`. -/
def P0 (x3 : FVec Ideal S2x3x128x128 .f32) (x4 x5 x6 x7 x8 : FVec Ideal S2x3x128 .f32) : LayerParams 128 128 :=
  params (wmatK0 (wstackA0 x3)) (vecK0 (stackA0 x4)) (vecK0 (stackA0 x5)) (vecK0 (stackA0 x6)) (vecK0 (stackA0 x7)) (vecK0 (stackA0 x8))
def P1 (x3 : FVec Ideal S2x3x128x128 .f32) (x4 x5 x6 x7 x8 : FVec Ideal S2x3x128 .f32) : LayerParams 128 128 :=
  params (wmatK1 (wstackA0 x3)) (vecK1 (stackA0 x4)) (vecK1 (stackA0 x5)) (vecK1 (stackA0 x6)) (vecK1 (stackA0 x7)) (vecK1 (stackA0 x8))
def P2 (x3 : FVec Ideal S2x3x128x128 .f32) (x4 x5 x6 x7 x8 : FVec Ideal S2x3x128 .f32) : LayerParams 128 128 :=
  params (wmatK2 (wstackA0 x3)) (vecK2 (stackA0 x4)) (vecK2 (stackA0 x5)) (vecK2 (stackA0 x6)) (vecK2 (stackA0 x7)) (vecK2 (stackA0 x8))
def P3 (x3 : FVec Ideal S2x3x128x128 .f32) (x4 x5 x6 x7 x8 : FVec Ideal S2x3x128 .f32) : LayerParams 128 128 :=
  params (wmatK0 (wstackA1 x3)) (vecK0 (stackA1 x4)) (vecK0 (stackA1 x5)) (vecK0 (stackA1 x6)) (vecK0 (stackA1 x7)) (vecK0 (stackA1 x8))
def P4 (x3 : FVec Ideal S2x3x128x128 .f32) (x4 x5 x6 x7 x8 : FVec Ideal S2x3x128 .f32) : LayerParams 128 128 :=
  params (wmatK1 (wstackA1 x3)) (vecK1 (stackA1 x4)) (vecK1 (stackA1 x5)) (vecK1 (stackA1 x6)) (vecK1 (stackA1 x7)) (vecK1 (stackA1 x8))
def P5 (x3 : FVec Ideal S2x3x128x128 .f32) (x4 x5 x6 x7 x8 : FVec Ideal S2x3x128 .f32) : LayerParams 128 128 :=
  params (wmatK2 (wstackA1 x3)) (vecK2 (stackA1 x4)) (vecK2 (stackA1 x5)) (vecK2 (stackA1 x6)) (vecK2 (stackA1 x7)) (vecK2 (stackA1 x8))

/-- The network of this program's argument arrays. -/
def value (x0 : FVec Ideal S100000x128 .f32) (x1 : IVec S2x1600000 32) (x3 : FVec Ideal S2x3x128x128 .f32)
    (x4 x5 x6 x7 x8 : FVec Ideal S2x3x128 .f32) (x9 : FVec Ideal S128x64 .f32) (x10 : FVec Ideal S64 .f32) :
    FVec Ideal S100000x64 .f32 :=
  net (agg x1) (P0 x3 x4 x5 x6 x7 x8) (P1 x3 x4 x5 x6 x7 x8) (P2 x3 x4 x5 x6 x7 x8) (P3 x3 x4 x5 x6 x7 x8)
    (P4 x3 x4 x5 x6 x7 x8) (P5 x3 x4 x5 x6 x7 x8) x9 (fun j => x10 (ix1 j)) x0

end Cert.Gin.Ref

end
-- ==== Proof.RefValue.lean ====
/-
  The reference's stretches of whole-array operations, read at an entry: each stretch "matrix product, plus bias, minus
  mean, times rsqrt (variance + eps), times scale, plus shift, maximum with zero" is one layer; the maximum with zero
  applied a second time changes nothing; the last stretch is the last stage, the maximum of the starting value with the
  row maximum being the row maximum.
-/
import proofs.«114777_j46617575031250_1_alg».proof.Proof.Gen.ReferenceIdeal
import proofs.«114777_j46617575031250_1_alg».proof.Proof.Spec
import proofs.«114777_j46617575031250_1_alg».proof.Proof.LibSageLayer
import Idealize.ShloMosaic.PureOps.Reduce

noncomputable section

open scoped BigOperators

namespace Cert.Gin.Ref

open Idealize.ShloMosaic Idealize.ShloMosaic.ValueIdx Idealize.ShloMosaic.StackMember Cert.ReferenceIdeal Cert.ReferenceIdeal.Gen Cert.Gin Cert.Sage

/-- The 128-wide product's dimension numbers are the plain ones. -/
theorem dot128_plain : dot_S100000x128_S128x128_S100000x128_1_0_0_1_n_n = DotDims.plain 100000 128 128 := rfl

/-- The 64-wide product's dimension numbers are the plain ones. -/
theorem dot64_plain : dot_S100000x128_S128x64_S100000x64_1_0_0_1_n_n = DotDims.plain 100000 128 64 := rfl

/-- A vector laid as one row and the row laid along every row, read at (p, q), is the vector at q. -/
theorem rowvec_apply {R N : Nat} (x : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (q : Fin N) :
    broadcastInDim ⟨2, ![R, N]⟩ ![0, 1] h2 (broadcastInDim ⟨2, ![1, N]⟩ ![1] h1 x) (ix2 p q) = x (ix1 q) := by
  rw [broadcastInDim_oneRow_apply, broadcastInDim_vecRow_apply]

/-- The reciprocal square root of the variance plus the offset, read at an entry. -/
theorem rsqrt_apply (v : FVec Ideal S128 .f32) (q : Fin 128) :
    Host.rsqrt (F := Ideal) (addf v (broadcastInDim S128 ![] bcast_S_S128 (constant (F := Ideal) S_ .f32 0x3727C5AC#32))) (ix1 q)
      = Ideal.rsqrt (v (ix1 q) + eps) := rfl

/-- One stretch of the program — product, plus bias, minus mean, times the reciprocal square root, times scale, plus
    shift, maximum with zero — is one layer. -/
theorem hlayer_eq (h : FVec Ideal S100000x128 .f32) (W : FVec Ideal S128x128 .f32) (b μ v g β : FVec Ideal S128 .f32) :
    maximumf (addf (mulf (mulf (subf (addf (Host.dotGeneral (F := Ideal) dot_S100000x128_S128x128_S100000x128_1_0_0_1_n_n none h W)
        (broadcastInDim S100000x128 ![0, 1] bcast_S1x128_S100000x128_0_1 (broadcastInDim S1x128 ![1] bcast_S128_S1x128_1 b)))
        (broadcastInDim S100000x128 ![0, 1] bcast_S1x128_S100000x128_0_1 (broadcastInDim S1x128 ![1] bcast_S128_S1x128_1 μ)))
        (broadcastInDim S100000x128 ![0, 1] bcast_S1x128_S100000x128_0_1 (broadcastInDim S1x128 ![1] bcast_S128_S1x128_1
          (Host.rsqrt (F := Ideal) (addf v (broadcastInDim S128 ![] bcast_S_S128 (constant (F := Ideal) S_ .f32 0x3727C5AC#32)))))))
        (broadcastInDim S100000x128 ![0, 1] bcast_S1x128_S100000x128_0_1 (broadcastInDim S1x128 ![1] bcast_S128_S1x128_1 g)))
        (broadcastInDim S100000x128 ![0, 1] bcast_S1x128_S100000x128_0_1 (broadcastInDim S1x128 ![1] bcast_S128_S1x128_1 β)))
      (broadcastInDim S100000x128 ![] bcast_S_S100000x128 (constant (F := Ideal) S_ .f32 0x00000000#32))
      = layer h W (fun j => b (ix1 j)) (fun j => g (ix1 j)) (fun j => β (ix1 j)) (fun j => μ (ix1 j)) (fun j => v (ix1 j)) := by
  funext i
  obtain ⟨p, q, rfl⟩ : ∃ (p : Fin 100000) (q : Fin 128), i = ix2 p q := ⟨i 0, i 1, eq_ix2 i⟩
  rw [relu_host_apply, addf_apply, mulf_apply, mulf_apply, subf_apply, addf_apply, rowvec_apply, rowvec_apply, rowvec_apply,
    rowvec_apply, rowvec_apply, rsqrt_apply, dot128_plain, dotGeneral_plain_apply]
  rfl

/-- The maximum with zero of a layer's value is the layer's value. -/
theorem relu_idem (h : FVec Ideal S100000x128 .f32) (W : FVec Ideal S128x128 .f32) (b g β μ v : Fin 128 → EReal) :
    maximumf (layer h W b g β μ v : FVec Ideal S100000x128 .f32)
        (broadcastInDim S100000x128 ![] bcast_S_S100000x128 (constant (F := Ideal) S_ .f32 0x00000000#32))
      = layer h W b g β μ v := by
  funext i
  rw [relu_host_apply]
  exact max_zero_idem _

/-- The same stretch with the maximum with zero taken twice is still one layer. -/
theorem hlayer2_eq (h : FVec Ideal S100000x128 .f32) (W : FVec Ideal S128x128 .f32) (b μ v g β : FVec Ideal S128 .f32) :
    maximumf (maximumf (addf (mulf (mulf (subf (addf (Host.dotGeneral (F := Ideal) dot_S100000x128_S128x128_S100000x128_1_0_0_1_n_n none h W) (broadcastInDim S100000x128 ![0, 1] bcast_S1x128_S100000x128_0_1 (broadcastInDim S1x128 ![1] bcast_S128_S1x128_1 b))) (broadcastInDim S100000x128 ![0, 1] bcast_S1x128_S100000x128_0_1 (broadcastInDim S1x128 ![1] bcast_S128_S1x128_1 μ))) (broadcastInDim S100000x128 ![0, 1] bcast_S1x128_S100000x128_0_1 (broadcastInDim S1x128 ![1] bcast_S128_S1x128_1 (Host.rsqrt (F := Ideal) (addf v (broadcastInDim S128 ![] bcast_S_S128 (constant (F := Ideal) S_ .f32 0x3727C5AC#32))))))) (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 β))) (broadcastInDim S100000x128 ![] bcast_S_S100000x128 (constant (F := Ideal) S_ .f32 0x00000000#32)))
      (broadcastInDim S100000x128 ![] bcast_S_S100000x128 (constant (F := Ideal) S_ .f32 0x00000000#32))
      = layer h W (fun j => b (ix1 j)) (fun j => g (ix1 j)) (fun j => β (ix1 j)) (fun j => μ (ix1 j)) (fun j => v (ix1 j)) := by
  rw [hlayer_eq, relu_idem]

/-! ## The last stage -/

/-- Dropping axis 1 of a [100000, 64] array. -/
theorem red64 : S100000x64.Reduces [1] S100000 := by decide

/-- The row index `p` with the column `k` put back is (p, k). -/
theorem lift_row (h : S100000x64.Reduces [1] S100000) (p : Fin 100000) (k : Fin (S100000x64.size 1)) :
    h.lift (ix1 p) k = ix2 p (⟨k.val, k.isLt⟩ : Fin 64) := by
  funext c; apply Fin.ext
  fin_cases c <;> rfl

/-- Each row's maximum, folded from `negInf`. -/
def rmax (Z : FVec Ideal S100000x64 .f32) (p : Fin 100000) : EReal :=
  (Finset.univ : Finset (Fin 64)).fold max negInf (fun j => Z (ix2 p j))

/-- The maximum of the starting value with the host's row maximum is the row maximum. -/
theorem rowmax_apply (Z : FVec Ideal S100000x64 .f32) (p : Fin 100000) :
    (maximumf (broadcastInDim S100000 ![] bcast_S_S100000 (constant (F := Ideal) S_ .f32 0xFF800000#32)) (Host.reduce (FloatOps.maximumf (F := Ideal) (φ := .f32)) Z (constant (F := Ideal) S_ .f32 0xFF800000#32) reducesTo_S100000x64_S100000_d1 h_S_)) (ix1 p) = rmax Z p := by
  rw [maximumf_apply, Host.reduce_eq_fold_single (FloatOps.maximumf (F := Ideal) (φ := .f32)) Z _ reducesTo_S100000x64_S100000_d1 red64 h_S_]
  have hf : (Z ∘ red64.lift (ix1 p)) = fun k : Fin 64 => Z (ix2 p k) := funext fun k => congrArg Z (lift_row red64 p k)
  show max negInf ((Finset.univ : Finset (Fin 64)).fold max negInf (Z ∘ red64.lift (ix1 p))) = _
  rw [hf]
  exact max_eq_right ((Finset.le_fold_max _).mpr (Or.inl le_rfl))

/-- The host's row sum from zero is the sum over the row. -/
theorem rowsum_apply (E : FVec Ideal S100000x64 .f32) (p : Fin 100000) :
    Host.reduceAdd (F := Ideal) E (constant (F := Ideal) S_ .f32 0x00000000#32) reducesTo_S100000x64_S100000_d1 h_S_ (ix1 p)
      = ∑ j : Fin 64, E (ix2 p j) := by
  show Ideal.hostReduceAdd reducesTo_S100000x64_S100000_d1 E (Ideal.ofBits .f32 0x00000000#32) (ix1 p) = _
  rw [Ideal.hostReduceAdd_single _ red64, Ideal.ofBits_zero_f32, zero_add]
  exact Finset.sum_congr rfl (fun k _ => congrArg E (lift_row red64 p k))

/-- A vector laid as one column, read at (p, 0), is the vector at p. -/
theorem col1_apply (x : FVec Ideal S100000 .f32) (p : Fin 100000) :
    broadcastInDim S100000x1 ![0] bcast_S100000_S100000x1_0 x (ix2 p (0 : Fin 1)) = x (ix1 p) := by
  refine broadcastInDim_apply ![0] bcast_S100000_S100000x1_0 x (ix2 p (0 : Fin 1)) (ix1 p) ?_
  intro a
  match a with
  | ⟨0, _⟩ => rfl

/-- A column laid along every column, read at (p, j), is the column at (p, 0). -/
theorem col64_apply (y : FVec Ideal S100000x1 .f32) (p : Fin 100000) (j : Fin 64) :
    broadcastInDim S100000x64 ![0, 1] bcast_S100000x1_S100000x64_0_1 y (ix2 p j) = y (ix2 p (0 : Fin 1)) := by
  refine broadcastInDim_apply ![0, 1] bcast_S100000x1_S100000x64_0_1 y (ix2 p j) (ix2 p (0 : Fin 1)) ?_
  intro a
  fin_cases a <;> rfl

theorem hostLog_apply {s : Shape} (y : FVec Ideal s .f32) (i : s.Idx) : Host.log (F := Ideal) y i = Ideal.log (y i) := rfl

theorem hostExp_apply {s : Shape} (y : FVec Ideal s .f32) (i : s.Idx) : Host.exp (F := Ideal) y i = Ideal.exp (y i) := rfl

/-- The program's last stretch over an array of logits, read at an entry. -/
theorem hlsm_apply (Z : FVec Ideal S100000x64 .f32) (p : Fin 100000) (j : Fin 64) :
    (subf (subf Z (broadcastInDim S100000x64 ![0, 1] bcast_S100000x1_S100000x64_0_1 (broadcastInDim S100000x1 ![0] bcast_S100000_S100000x1_0 (maximumf (broadcastInDim S100000 ![] bcast_S_S100000 (constant (F := Ideal) S_ .f32 0xFF800000#32)) (Host.reduce (FloatOps.maximumf (F := Ideal) (φ := .f32)) Z (constant (F := Ideal) S_ .f32 0xFF800000#32) reducesTo_S100000x64_S100000_d1 h_S_))))) (broadcastInDim S100000x64 ![0, 1] bcast_S100000x1_S100000x64_0_1 (Host.log (F := Ideal) (broadcastInDim S100000x1 ![0] bcast_S100000_S100000x1_0 (Host.reduceAdd (F := Ideal) (Host.exp (F := Ideal) (subf Z (broadcastInDim S100000x64 ![0, 1] bcast_S100000x1_S100000x64_0_1 (broadcastInDim S100000x1 ![0] bcast_S100000_S100000x1_0 (maximumf (broadcastInDim S100000 ![] bcast_S_S100000 (constant (F := Ideal) S_ .f32 0xFF800000#32)) (Host.reduce (FloatOps.maximumf (F := Ideal) (φ := .f32)) Z (constant (F := Ideal) S_ .f32 0xFF800000#32) reducesTo_S100000x64_S100000_d1 h_S_)))))) (constant (F := Ideal) S_ .f32 0x00000000#32) reducesTo_S100000x64_S100000_d1 h_S_))))) (ix2 p j)
      = (Z (ix2 p j) - rmax Z p) - Ideal.log (∑ j' : Fin 64, Ideal.exp (Z (ix2 p j') - rmax Z p)) := by
  rw [subf_apply, subf_apply, col64_apply, col1_apply, rowmax_apply, col64_apply, hostLog_apply, col1_apply, rowsum_apply]
  refine congrArg (fun s => (Z (ix2 p j) - rmax Z p) - Ideal.log s) ?_
  refine Finset.sum_congr rfl (fun j' _ => ?_)
  rw [hostExp_apply, subf_apply, col64_apply, col1_apply, rowmax_apply]

/-- The logits read at an entry. -/
theorem logits_apply (H : FVec Ideal S100000x128 .f32) (Wf : FVec Ideal S128x64 .f32) (bf : FVec Ideal S64 .f32)
    (p : Fin 100000) (j : Fin 64) :
    (addf (Host.dotGeneral (F := Ideal) dot_S100000x128_S128x64_S100000x64_1_0_0_1_n_n none H Wf) (broadcastInDim S100000x64 ![0, 1] bcast_S1x64_S100000x64_0_1 (broadcastInDim S1x64 ![1] bcast_S64_S1x64_1 bf))) (ix2 p j) = logitAt (fun k => H (ix2 p k)) Wf (fun j => bf (ix1 j)) j := by
  rw [addf_apply, rowvec_apply, dot64_plain, dotGeneral_plain_apply]
  rfl

/-- The program's last stretch over an array whose row `p` holds the logits of the row `x`, read at an entry of that row,
    is the last stage's entry. -/
theorem hlsm_of_logits {K : Nat} (Z : FVec Ideal S100000x64 .f32) (x : Fin K → EReal) (w : (⟨2, ![K, 64]⟩ : Shape).Idx → EReal)
    (b : Fin 64 → EReal) (p : Fin 100000) (hZ : ∀ j : Fin 64, Z (ix2 p j) = logitAt x w b j) (j : Fin 64) :
    (subf (subf Z (broadcastInDim S100000x64 ![0, 1] bcast_S100000x1_S100000x64_0_1 (broadcastInDim S100000x1 ![0] bcast_S100000_S100000x1_0 (maximumf (broadcastInDim S100000 ![] bcast_S_S100000 (constant (F := Ideal) S_ .f32 0xFF800000#32)) (Host.reduce (FloatOps.maximumf (F := Ideal) (φ := .f32)) Z (constant (F := Ideal) S_ .f32 0xFF800000#32) reducesTo_S100000x64_S100000_d1 h_S_))))) (broadcastInDim S100000x64 ![0, 1] bcast_S100000x1_S100000x64_0_1 (Host.log (F := Ideal) (broadcastInDim S100000x1 ![0] bcast_S100000_S100000x1_0 (Host.reduceAdd (F := Ideal) (Host.exp (F := Ideal) (subf Z (broadcastInDim S100000x64 ![0, 1] bcast_S100000x1_S100000x64_0_1 (broadcastInDim S100000x1 ![0] bcast_S100000_S100000x1_0 (maximumf (broadcastInDim S100000 ![] bcast_S_S100000 (constant (F := Ideal) S_ .f32 0xFF800000#32)) (Host.reduce (FloatOps.maximumf (F := Ideal) (φ := .f32)) Z (constant (F := Ideal) S_ .f32 0xFF800000#32) reducesTo_S100000x64_S100000_d1 h_S_)))))) (constant (F := Ideal) S_ .f32 0x00000000#32) reducesTo_S100000x64_S100000_d1 h_S_))))) (ix2 p j)
      = headAt x w b j := by
  rw [hlsm_apply]
  have hM : rmax Z p = rowMax x w b := congrArg (fun f => Finset.fold max negInf f Finset.univ) (funext hZ)
  rw [hM, hZ j]
  unfold headAt
  refine congrArg (fun s => (logitAt x w b j - rowMax x w b) - Ideal.log s) ?_
  exact Finset.sum_congr rfl (fun j' _ => by rw [hZ j'])

/-- The program's last stretch is the last stage. -/
theorem hhead_eq (H : FVec Ideal S100000x128 .f32) (Wf : FVec Ideal S128x64 .f32) (bf : FVec Ideal S64 .f32) :
    (subf (subf (addf (Host.dotGeneral (F := Ideal) dot_S100000x128_S128x64_S100000x64_1_0_0_1_n_n none H Wf) (broadcastInDim S100000x64 ![0, 1] bcast_S1x64_S100000x64_0_1 (broadcastInDim S1x64 ![1] bcast_S64_S1x64_1 bf))) (broadcastInDim S100000x64 ![0, 1] bcast_S100000x1_S100000x64_0_1 (broadcastInDim S100000x1 ![0] bcast_S100000_S100000x1_0 (maximumf (broadcastInDim S100000 ![] bcast_S_S100000 (constant (F := Ideal) S_ .f32 0xFF800000#32)) (Host.reduce (FloatOps.maximumf (F := Ideal) (φ := .f32)) (addf (Host.dotGeneral (F := Ideal) dot_S100000x128_S128x64_S100000x64_1_0_0_1_n_n none H Wf) (broadcastInDim S100000x64 ![0, 1] bcast_S1x64_S100000x64_0_1 (broadcastInDim S1x64 ![1] bcast_S64_S1x64_1 bf))) (constant (F := Ideal) S_ .f32 0xFF800000#32) reducesTo_S100000x64_S100000_d1 h_S_))))) (broadcastInDim S100000x64 ![0, 1] bcast_S100000x1_S100000x64_0_1 (Host.log (F := Ideal) (broadcastInDim S100000x1 ![0] bcast_S100000_S100000x1_0 (Host.reduceAdd (F := Ideal) (Host.exp (F := Ideal) (subf (addf (Host.dotGeneral (F := Ideal) dot_S100000x128_S128x64_S100000x64_1_0_0_1_n_n none H Wf) (broadcastInDim S100000x64 ![0, 1] bcast_S1x64_S100000x64_0_1 (broadcastInDim S1x64 ![1] bcast_S64_S1x64_1 bf))) (broadcastInDim S100000x64 ![0, 1] bcast_S100000x1_S100000x64_0_1 (broadcastInDim S100000x1 ![0] bcast_S100000_S100000x1_0 (maximumf (broadcastInDim S100000 ![] bcast_S_S100000 (constant (F := Ideal) S_ .f32 0xFF800000#32)) (Host.reduce (FloatOps.maximumf (F := Ideal) (φ := .f32)) (addf (Host.dotGeneral (F := Ideal) dot_S100000x128_S128x64_S100000x64_1_0_0_1_n_n none H Wf) (broadcastInDim S100000x64 ![0, 1] bcast_S1x64_S100000x64_0_1 (broadcastInDim S1x64 ![1] bcast_S64_S1x64_1 bf))) (constant (F := Ideal) S_ .f32 0xFF800000#32) reducesTo_S100000x64_S100000_d1 h_S_)))))) (constant (F := Ideal) S_ .f32 0x00000000#32) reducesTo_S100000x64_S100000_d1 h_S_)))))
      = head H Wf (fun j => bf (ix1 j)) := by
  funext i
  obtain ⟨p, j, rfl⟩ : ∃ (p : Fin 100000) (j : Fin 64), i = ix2 p j := ⟨i 0, i 1, eq_ix2 i⟩
  exact hlsm_of_logits _ _ _ _ p (fun j => logits_apply H Wf bf p j) j

end Cert.Gin.Ref

end
-- ==== Proof.RStretch0.lean ====
import proofs.«114777_j46617575031250_1_alg».proof.Proof.RefOps
import proofs.«114777_j46617575031250_1_alg».proof.Proof.Spec
import proofs.«114777_j46617575031250_1_alg».proof.Proof.ParamsRef
import proofs.«114777_j46617575031250_1_alg».proof.Proof.RefValue

set_option maxRecDepth 16384
-- one theorem at a time: each walks a long line of operations
set_option Elab.async false

noncomputable section

namespace Cert.Gin.Ref

open Idealize.ShloMosaic Idealize.ShloMosaic.TcCoe Idealize.ShloMosaic.ValueIdx Idealize.SL.Sem Idealize.ShloMosaic.StableHlo
  Cert.ReferenceIdeal Cert.ReferenceIdeal.Gen Cert.Gin

attribute [local irreducible] Host.scatterAdd Host.gather Host.reduce Host.reduceAdd

/-! ## The first aggregation and the first branch's stacked parameters -/

theorem r0_v26 (W : Valuation τ sig (Elt Ideal)) :
    (after (Q0 (F := Ideal)) W) (Proc.devRef .tc main_v26) = agg (W (Proc.devRef .tc main_arg1)) (W (Proc.devRef .tc main_arg0)) := by
  after_results_simp
  rfl
theorem r0_v1 (W : Valuation τ sig (Elt Ideal)) :
    (after (Q0 (F := Ideal)) W) (Proc.devRef .tc main_v1) = wstackA0 (W (Proc.devRef .tc main_arg3)) := rfl
theorem r0_v3 (W : Valuation τ sig (Elt Ideal)) :
    (after (Q0 (F := Ideal)) W) (Proc.devRef .tc main_v3) = stackA0 (W (Proc.devRef .tc main_arg4)) := rfl
theorem r0_v5 (W : Valuation τ sig (Elt Ideal)) :
    (after (Q0 (F := Ideal)) W) (Proc.devRef .tc main_v5) = stackA0 (W (Proc.devRef .tc main_arg5)) := rfl
theorem r0_v7 (W : Valuation τ sig (Elt Ideal)) :
    (after (Q0 (F := Ideal)) W) (Proc.devRef .tc main_v7) = stackA0 (W (Proc.devRef .tc main_arg6)) := rfl
theorem r0_v9 (W : Valuation τ sig (Elt Ideal)) :
    (after (Q0 (F := Ideal)) W) (Proc.devRef .tc main_v9) = stackA0 (W (Proc.devRef .tc main_arg7)) := rfl
theorem r0_v11 (W : Valuation τ sig (Elt Ideal)) :
    (after (Q0 (F := Ideal)) W) (Proc.devRef .tc main_v11) = stackA0 (W (Proc.devRef .tc main_arg8)) := rfl

/-! ## The first branch's three layers -/

/-- The first branch's first layer. -/
theorem r1_out (W : Valuation τ sig (Elt Ideal)) :
    (after (Q2 (F := Ideal)) (after (Q1 (F := Ideal)) W)) (Proc.devRef .tc main_v58)
      = layer (W (Proc.devRef .tc main_v26)) (wmatK0 (W (Proc.devRef .tc main_v1)))
          (fun j => vecK0 (W (Proc.devRef .tc main_v3)) (ix1 j)) (fun j => vecK0 (W (Proc.devRef .tc main_v5)) (ix1 j)) (fun j => vecK0 (W (Proc.devRef .tc main_v7)) (ix1 j))
          (fun j => vecK0 (W (Proc.devRef .tc main_v9)) (ix1 j)) (fun j => vecK0 (W (Proc.devRef .tc main_v11)) (ix1 j)) := by
  refine Eq.trans ?_ (hlayer_eq (W (Proc.devRef .tc main_v26)) (wmatK0 (W (Proc.devRef .tc main_v1))) (vecK0 (W (Proc.devRef .tc main_v3))) (vecK0 (W (Proc.devRef .tc main_v9))) (vecK0 (W (Proc.devRef .tc main_v11))) (vecK0 (W (Proc.devRef .tc main_v5))) (vecK0 (W (Proc.devRef .tc main_v7))))
  rfl
/-- The first branch's second layer. -/
theorem r2_out (W : Valuation τ sig (Elt Ideal)) :
    (after (Q3 (F := Ideal)) W) (Proc.devRef .tc main_v90)
      = layer (W (Proc.devRef .tc main_v58)) (wmatK1 (W (Proc.devRef .tc main_v1)))
          (fun j => vecK1 (W (Proc.devRef .tc main_v3)) (ix1 j)) (fun j => vecK1 (W (Proc.devRef .tc main_v5)) (ix1 j)) (fun j => vecK1 (W (Proc.devRef .tc main_v7)) (ix1 j))
          (fun j => vecK1 (W (Proc.devRef .tc main_v9)) (ix1 j)) (fun j => vecK1 (W (Proc.devRef .tc main_v11)) (ix1 j)) := by
  refine Eq.trans ?_ (hlayer_eq (W (Proc.devRef .tc main_v58)) (wmatK1 (W (Proc.devRef .tc main_v1))) (vecK1 (W (Proc.devRef .tc main_v3))) (vecK1 (W (Proc.devRef .tc main_v9))) (vecK1 (W (Proc.devRef .tc main_v11))) (vecK1 (W (Proc.devRef .tc main_v5))) (vecK1 (W (Proc.devRef .tc main_v7))))
  rfl
/-- The first branch's third layer, its maximum with zero taken twice. -/
theorem r3_out (W : Valuation τ sig (Elt Ideal)) :
    (after (Q5 (F := Ideal)) (after (Q4 (F := Ideal)) W)) (Proc.devRef .tc main_v123)
      = layer (W (Proc.devRef .tc main_v90)) (wmatK2 (W (Proc.devRef .tc main_v1)))
          (fun j => vecK2 (W (Proc.devRef .tc main_v3)) (ix1 j)) (fun j => vecK2 (W (Proc.devRef .tc main_v5)) (ix1 j)) (fun j => vecK2 (W (Proc.devRef .tc main_v7)) (ix1 j))
          (fun j => vecK2 (W (Proc.devRef .tc main_v9)) (ix1 j)) (fun j => vecK2 (W (Proc.devRef .tc main_v11)) (ix1 j)) := by
  refine Eq.trans ?_ (hlayer2_eq (W (Proc.devRef .tc main_v90)) (wmatK2 (W (Proc.devRef .tc main_v1))) (vecK2 (W (Proc.devRef .tc main_v3))) (vecK2 (W (Proc.devRef .tc main_v9))) (vecK2 (W (Proc.devRef .tc main_v11))) (vecK2 (W (Proc.devRef .tc main_v5))) (vecK2 (W (Proc.devRef .tc main_v7))))
  rfl

/-! ## What these pieces do not write they keep -/

theorem k1_v1 (W : Valuation τ sig (Elt Ideal)) :
    (after (Q2 (F := Ideal)) (after (Q1 (F := Ideal)) W)) (Proc.devRef .tc main_v1) = (W (Proc.devRef .tc main_v1)) := rfl
theorem k1_v3 (W : Valuation τ sig (Elt Ideal)) :
    (after (Q2 (F := Ideal)) (after (Q1 (F := Ideal)) W)) (Proc.devRef .tc main_v3) = (W (Proc.devRef .tc main_v3)) := rfl
theorem k1_v5 (W : Valuation τ sig (Elt Ideal)) :
    (after (Q2 (F := Ideal)) (after (Q1 (F := Ideal)) W)) (Proc.devRef .tc main_v5) = (W (Proc.devRef .tc main_v5)) := rfl
theorem k1_v7 (W : Valuation τ sig (Elt Ideal)) :
    (after (Q2 (F := Ideal)) (after (Q1 (F := Ideal)) W)) (Proc.devRef .tc main_v7) = (W (Proc.devRef .tc main_v7)) := rfl
theorem k1_v9 (W : Valuation τ sig (Elt Ideal)) :
    (after (Q2 (F := Ideal)) (after (Q1 (F := Ideal)) W)) (Proc.devRef .tc main_v9) = (W (Proc.devRef .tc main_v9)) := rfl
theorem k1_v11 (W : Valuation τ sig (Elt Ideal)) :
    (after (Q2 (F := Ideal)) (after (Q1 (F := Ideal)) W)) (Proc.devRef .tc main_v11) = (W (Proc.devRef .tc main_v11)) := rfl
theorem k2_v1 (W : Valuation τ sig (Elt Ideal)) :
    (after (Q3 (F := Ideal)) W) (Proc.devRef .tc main_v1) = (W (Proc.devRef .tc main_v1)) := rfl
theorem k2_v3 (W : Valuation τ sig (Elt Ideal)) :
    (after (Q3 (F := Ideal)) W) (Proc.devRef .tc main_v3) = (W (Proc.devRef .tc main_v3)) := rfl
theorem k2_v5 (W : Valuation τ sig (Elt Ideal)) :
    (after (Q3 (F := Ideal)) W) (Proc.devRef .tc main_v5) = (W (Proc.devRef .tc main_v5)) := rfl
theorem k2_v7 (W : Valuation τ sig (Elt Ideal)) :
    (after (Q3 (F := Ideal)) W) (Proc.devRef .tc main_v7) = (W (Proc.devRef .tc main_v7)) := rfl
theorem k2_v9 (W : Valuation τ sig (Elt Ideal)) :
    (after (Q3 (F := Ideal)) W) (Proc.devRef .tc main_v9) = (W (Proc.devRef .tc main_v9)) := rfl
theorem k2_v11 (W : Valuation τ sig (Elt Ideal)) :
    (after (Q3 (F := Ideal)) W) (Proc.devRef .tc main_v11) = (W (Proc.devRef .tc main_v11)) := rfl

end Cert.Gin.Ref

end
-- ==== Proof.RStretch1a.lean ====
/-
  The second aggregation and the second branch's stacked parameters, as the piece of the reference's operations that
  computes them leaves them, for any contents before it.
-/
import proofs.«114777_j46617575031250_1_alg».proof.Proof.RefOps
import proofs.«114777_j46617575031250_1_alg».proof.Proof.Spec
import proofs.«114777_j46617575031250_1_alg».proof.Proof.ParamsRef
import proofs.«114777_j46617575031250_1_alg».proof.Proof.RefValue

set_option maxRecDepth 16384
set_option Elab.async false

noncomputable section

namespace Cert.Gin.Ref

open Idealize.ShloMosaic Idealize.ShloMosaic.TcCoe Idealize.ShloMosaic.ValueIdx Idealize.SL.Sem Idealize.ShloMosaic.StableHlo
  Cert.ReferenceIdeal Cert.ReferenceIdeal.Gen Cert.Gin

attribute [local irreducible] Host.scatterAdd Host.gather Host.reduce Host.reduceAdd

/-! ## The second aggregation and the second branch's stacked parameters -/

theorem r4_v125 (W : Valuation τ sig (Elt Ideal)) :
    (after (Q6 (F := Ideal)) W) (Proc.devRef .tc main_v125) = wstackA1 (W (Proc.devRef .tc main_arg3)) := rfl
theorem r4_v127 (W : Valuation τ sig (Elt Ideal)) :
    (after (Q6 (F := Ideal)) W) (Proc.devRef .tc main_v127) = stackA1 (W (Proc.devRef .tc main_arg4)) := rfl
theorem r4_v129 (W : Valuation τ sig (Elt Ideal)) :
    (after (Q6 (F := Ideal)) W) (Proc.devRef .tc main_v129) = stackA1 (W (Proc.devRef .tc main_arg5)) := rfl
theorem r4_v131 (W : Valuation τ sig (Elt Ideal)) :
    (after (Q6 (F := Ideal)) W) (Proc.devRef .tc main_v131) = stackA1 (W (Proc.devRef .tc main_arg6)) := rfl
theorem r4_v133 (W : Valuation τ sig (Elt Ideal)) :
    (after (Q6 (F := Ideal)) W) (Proc.devRef .tc main_v133) = stackA1 (W (Proc.devRef .tc main_arg7)) := rfl
theorem r4_v135 (W : Valuation τ sig (Elt Ideal)) :
    (after (Q6 (F := Ideal)) W) (Proc.devRef .tc main_v135) = stackA1 (W (Proc.devRef .tc main_arg8)) := rfl
theorem r4_v150 (W : Valuation τ sig (Elt Ideal)) :
    (after (Q6 (F := Ideal)) W) (Proc.devRef .tc main_v150) = agg (W (Proc.devRef .tc main_arg1)) (W (Proc.devRef .tc main_v123)) := by
  after_results_simp
  rfl

end Cert.Gin.Ref

end
-- ==== Proof.RStretch1b.lean ====
/-
  The second branch's first layer, as the two pieces of the reference's operations that compute it leave it, and the
  stacked parameters they do not write.
-/
import proofs.«114777_j46617575031250_1_alg».proof.Proof.RefOps
import proofs.«114777_j46617575031250_1_alg».proof.Proof.Spec
import proofs.«114777_j46617575031250_1_alg».proof.Proof.ParamsRef
import proofs.«114777_j46617575031250_1_alg».proof.Proof.RefValue

set_option maxRecDepth 16384
set_option Elab.async false

noncomputable section

namespace Cert.Gin.Ref

open Idealize.ShloMosaic Idealize.ShloMosaic.TcCoe Idealize.ShloMosaic.ValueIdx Idealize.SL.Sem Idealize.ShloMosaic.StableHlo
  Cert.ReferenceIdeal Cert.ReferenceIdeal.Gen Cert.Gin

attribute [local irreducible] Host.scatterAdd Host.gather Host.reduce Host.reduceAdd

/-- The second branch's first layer. -/
theorem r5_out (W : Valuation τ sig (Elt Ideal)) :
    (after (Q8 (F := Ideal)) (after (Q7 (F := Ideal)) W)) (Proc.devRef .tc main_v182)
      = layer (W (Proc.devRef .tc main_v150)) (wmatK0 (W (Proc.devRef .tc main_v125)))
          (fun j => vecK0 (W (Proc.devRef .tc main_v127)) (ix1 j)) (fun j => vecK0 (W (Proc.devRef .tc main_v129)) (ix1 j)) (fun j => vecK0 (W (Proc.devRef .tc main_v131)) (ix1 j))
          (fun j => vecK0 (W (Proc.devRef .tc main_v133)) (ix1 j)) (fun j => vecK0 (W (Proc.devRef .tc main_v135)) (ix1 j)) := by
  refine Eq.trans ?_ (hlayer_eq (W (Proc.devRef .tc main_v150)) (wmatK0 (W (Proc.devRef .tc main_v125))) (vecK0 (W (Proc.devRef .tc main_v127))) (vecK0 (W (Proc.devRef .tc main_v133))) (vecK0 (W (Proc.devRef .tc main_v135))) (vecK0 (W (Proc.devRef .tc main_v129))) (vecK0 (W (Proc.devRef .tc main_v131))))
  rfl

/-! ## What these pieces do not write they keep -/

theorem k5_v125 (W : Valuation τ sig (Elt Ideal)) :
    (after (Q8 (F := Ideal)) (after (Q7 (F := Ideal)) W)) (Proc.devRef .tc main_v125) = (W (Proc.devRef .tc main_v125)) := rfl
theorem k5_v127 (W : Valuation τ sig (Elt Ideal)) :
    (after (Q8 (F := Ideal)) (after (Q7 (F := Ideal)) W)) (Proc.devRef .tc main_v127) = (W (Proc.devRef .tc main_v127)) := rfl
theorem k5_v129 (W : Valuation τ sig (Elt Ideal)) :
    (after (Q8 (F := Ideal)) (after (Q7 (F := Ideal)) W)) (Proc.devRef .tc main_v129) = (W (Proc.devRef .tc main_v129)) := rfl
theorem k5_v131 (W : Valuation τ sig (Elt Ideal)) :
    (after (Q8 (F := Ideal)) (after (Q7 (F := Ideal)) W)) (Proc.devRef .tc main_v131) = (W (Proc.devRef .tc main_v131)) := rfl
theorem k5_v133 (W : Valuation τ sig (Elt Ideal)) :
    (after (Q8 (F := Ideal)) (after (Q7 (F := Ideal)) W)) (Proc.devRef .tc main_v133) = (W (Proc.devRef .tc main_v133)) := rfl
theorem k5_v135 (W : Valuation τ sig (Elt Ideal)) :
    (after (Q8 (F := Ideal)) (after (Q7 (F := Ideal)) W)) (Proc.devRef .tc main_v135) = (W (Proc.devRef .tc main_v135)) := rfl

end Cert.Gin.Ref

end
-- ==== Proof.RStretch1c.lean ====
/-
  The second branch's second layer, as the piece of the reference's operations that computes it leaves it, and the
  stacked parameters it does not write.
-/
import proofs.«114777_j46617575031250_1_alg».proof.Proof.RefOps
import proofs.«114777_j46617575031250_1_alg».proof.Proof.Spec
import proofs.«114777_j46617575031250_1_alg».proof.Proof.ParamsRef
import proofs.«114777_j46617575031250_1_alg».proof.Proof.RefValue

set_option maxRecDepth 16384
set_option Elab.async false

noncomputable section

namespace Cert.Gin.Ref

open Idealize.ShloMosaic Idealize.ShloMosaic.TcCoe Idealize.ShloMosaic.ValueIdx Idealize.SL.Sem Idealize.ShloMosaic.StableHlo
  Cert.ReferenceIdeal Cert.ReferenceIdeal.Gen Cert.Gin

attribute [local irreducible] Host.scatterAdd Host.gather Host.reduce Host.reduceAdd

/-- The second branch's second layer. -/
theorem r6_out (W : Valuation τ sig (Elt Ideal)) :
    (after (Q9 (F := Ideal)) W) (Proc.devRef .tc main_v214)
      = layer (W (Proc.devRef .tc main_v182)) (wmatK1 (W (Proc.devRef .tc main_v125)))
          (fun j => vecK1 (W (Proc.devRef .tc main_v127)) (ix1 j)) (fun j => vecK1 (W (Proc.devRef .tc main_v129)) (ix1 j)) (fun j => vecK1 (W (Proc.devRef .tc main_v131)) (ix1 j))
          (fun j => vecK1 (W (Proc.devRef .tc main_v133)) (ix1 j)) (fun j => vecK1 (W (Proc.devRef .tc main_v135)) (ix1 j)) := by
  refine Eq.trans ?_ (hlayer_eq (W (Proc.devRef .tc main_v182)) (wmatK1 (W (Proc.devRef .tc main_v125))) (vecK1 (W (Proc.devRef .tc main_v127))) (vecK1 (W (Proc.devRef .tc main_v133))) (vecK1 (W (Proc.devRef .tc main_v135))) (vecK1 (W (Proc.devRef .tc main_v129))) (vecK1 (W (Proc.devRef .tc main_v131))))
  rfl

/-! ## What this piece does not write it keeps -/

theorem k6_v125 (W : Valuation τ sig (Elt Ideal)) :
    (after (Q9 (F := Ideal)) W) (Proc.devRef .tc main_v125) = (W (Proc.devRef .tc main_v125)) := rfl
theorem k6_v127 (W : Valuation τ sig (Elt Ideal)) :
    (after (Q9 (F := Ideal)) W) (Proc.devRef .tc main_v127) = (W (Proc.devRef .tc main_v127)) := rfl
theorem k6_v129 (W : Valuation τ sig (Elt Ideal)) :
    (after (Q9 (F := Ideal)) W) (Proc.devRef .tc main_v129) = (W (Proc.devRef .tc main_v129)) := rfl
theorem k6_v131 (W : Valuation τ sig (Elt Ideal)) :
    (after (Q9 (F := Ideal)) W) (Proc.devRef .tc main_v131) = (W (Proc.devRef .tc main_v131)) := rfl
theorem k6_v133 (W : Valuation τ sig (Elt Ideal)) :
    (after (Q9 (F := Ideal)) W) (Proc.devRef .tc main_v133) = (W (Proc.devRef .tc main_v133)) := rfl
theorem k6_v135 (W : Valuation τ sig (Elt Ideal)) :
    (after (Q9 (F := Ideal)) W) (Proc.devRef .tc main_v135) = (W (Proc.devRef .tc main_v135)) := rfl

end Cert.Gin.Ref

end
-- ==== Proof.RStretch1d.lean ====
/-
  The second branch's third layer, its maximum with zero taken twice, as the two pieces of the reference's operations
  that compute it leave it.
-/
import proofs.«114777_j46617575031250_1_alg».proof.Proof.RefOps
import proofs.«114777_j46617575031250_1_alg».proof.Proof.Spec
import proofs.«114777_j46617575031250_1_alg».proof.Proof.ParamsRef
import proofs.«114777_j46617575031250_1_alg».proof.Proof.RefValue

set_option maxRecDepth 16384
set_option Elab.async false

noncomputable section

namespace Cert.Gin.Ref

open Idealize.ShloMosaic Idealize.ShloMosaic.TcCoe Idealize.ShloMosaic.ValueIdx Idealize.SL.Sem Idealize.ShloMosaic.StableHlo
  Cert.ReferenceIdeal Cert.ReferenceIdeal.Gen Cert.Gin

attribute [local irreducible] Host.scatterAdd Host.gather Host.reduce Host.reduceAdd

/-- The second branch's third layer, its maximum with zero taken twice. -/
theorem r7_out (W : Valuation τ sig (Elt Ideal)) :
    (after (Q11 (F := Ideal)) (after (Q10 (F := Ideal)) W)) (Proc.devRef .tc main_v247)
      = layer (W (Proc.devRef .tc main_v214)) (wmatK2 (W (Proc.devRef .tc main_v125)))
          (fun j => vecK2 (W (Proc.devRef .tc main_v127)) (ix1 j)) (fun j => vecK2 (W (Proc.devRef .tc main_v129)) (ix1 j)) (fun j => vecK2 (W (Proc.devRef .tc main_v131)) (ix1 j))
          (fun j => vecK2 (W (Proc.devRef .tc main_v133)) (ix1 j)) (fun j => vecK2 (W (Proc.devRef .tc main_v135)) (ix1 j)) := by
  refine Eq.trans ?_ (hlayer2_eq (W (Proc.devRef .tc main_v214)) (wmatK2 (W (Proc.devRef .tc main_v125))) (vecK2 (W (Proc.devRef .tc main_v127))) (vecK2 (W (Proc.devRef .tc main_v133))) (vecK2 (W (Proc.devRef .tc main_v135))) (vecK2 (W (Proc.devRef .tc main_v129))) (vecK2 (W (Proc.devRef .tc main_v131))))
  rfl

end Cert.Gin.Ref

end
-- ==== Proof.RStretch1e.lean ====
/-
  The last stage, as the piece of the reference's operations that computes it leaves it.
-/
import proofs.«114777_j46617575031250_1_alg».proof.Proof.RefOps
import proofs.«114777_j46617575031250_1_alg».proof.Proof.Spec
import proofs.«114777_j46617575031250_1_alg».proof.Proof.ParamsRef
import proofs.«114777_j46617575031250_1_alg».proof.Proof.RefValue

set_option maxRecDepth 16384
set_option Elab.async false

noncomputable section

namespace Cert.Gin.Ref

open Idealize.ShloMosaic Idealize.ShloMosaic.TcCoe Idealize.ShloMosaic.ValueIdx Idealize.SL.Sem Idealize.ShloMosaic.StableHlo
  Cert.ReferenceIdeal Cert.ReferenceIdeal.Gen Cert.Gin

attribute [local irreducible] Host.scatterAdd Host.gather Host.reduce Host.reduceAdd

/-- Contents carried to a buffer's own type and back are the contents. -/
theorem call_ofBuf_toBuf {T : BufTy} (x : TRef sig T) (v : T.Contents (Elt Ideal)) : x.ofBuf (x.toBuf v) = v := by
  obtain ⟨r, rfl, _, _⟩ := x
  rfl

/-- The last stage. -/
theorem r8_out (W : Valuation τ sig (Elt Ideal)) :
    (after (Q12 (F := Ideal)) W) (Proc.devRef .tc main_v252)
      = head (W (Proc.devRef .tc main_v247)) (W (Proc.devRef .tc main_arg9)) (fun j => (W (Proc.devRef .tc main_arg10)) (ix1 j)) := by
  refine Eq.trans ?_ (hhead_eq (W (Proc.devRef .tc main_v247)) (W (Proc.devRef .tc main_arg9)) (W (Proc.devRef .tc main_arg10)))
  after_results_simp
  have e1 : ∀ v, (TRef.of (sig := sig) (T := ⟨S100000x64, .f32⟩) main_v251).ofBuf (Val := Elt Ideal) v = v := fun _ => rfl
  have e2 : ∀ v, (TRef.of (sig := sig) (T := ⟨S100000x64, .f32⟩) main_v252).toBuf (Val := Elt Ideal) v = v := fun _ => rfl
  simp only [call_ofBuf_toBuf, e1, e2]

end Cert.Gin.Ref

end
-- ==== Proof.RStretch1.lean ====
/-
  The second branch and the last stage of the reference's operations, piece by piece: what each piece leaves in the
  buffer it computes, as the layer (or the last stage) of what it found, and what it leaves untouched.
-/
import proofs.«114777_j46617575031250_1_alg».proof.Proof.RStretch1a
import proofs.«114777_j46617575031250_1_alg».proof.Proof.RStretch1b
import proofs.«114777_j46617575031250_1_alg».proof.Proof.RStretch1c
import proofs.«114777_j46617575031250_1_alg».proof.Proof.RStretch1d
import proofs.«114777_j46617575031250_1_alg».proof.Proof.RStretch1e
-- ==== Proof.RStretch2.lean ====
import proofs.«114777_j46617575031250_1_alg».proof.Proof.RefOps
import proofs.«114777_j46617575031250_1_alg».proof.Proof.Spec
import proofs.«114777_j46617575031250_1_alg».proof.Proof.ParamsRef
import proofs.«114777_j46617575031250_1_alg».proof.Proof.RefValue

set_option maxRecDepth 16384
-- one theorem at a time: each walks a long line of operations
set_option Elab.async false

noncomputable section

namespace Cert.Gin.Ref

open Idealize.ShloMosaic Idealize.ShloMosaic.TcCoe Idealize.ShloMosaic.ValueIdx Idealize.SL.Sem Idealize.ShloMosaic.StableHlo
  Cert.ReferenceIdeal Cert.ReferenceIdeal.Gen Cert.Gin

attribute [local irreducible] Host.scatterAdd Host.gather Host.reduce Host.reduceAdd

/-! ## The arguments are written by no piece before the one that reads them -/

theorem kpre_arg1 (W : Valuation τ sig (Elt Ideal)) :
    (after (Q5 (F := Ideal)) (after (Q4 (F := Ideal)) (after (Q3 (F := Ideal)) (after (Q2 (F := Ideal)) (after (Q1 (F := Ideal)) (after (Q0 (F := Ideal)) W)))))) (Proc.devRef .tc main_arg1) = (W (Proc.devRef .tc main_arg1)) := rfl
theorem kpre_arg3 (W : Valuation τ sig (Elt Ideal)) :
    (after (Q5 (F := Ideal)) (after (Q4 (F := Ideal)) (after (Q3 (F := Ideal)) (after (Q2 (F := Ideal)) (after (Q1 (F := Ideal)) (after (Q0 (F := Ideal)) W)))))) (Proc.devRef .tc main_arg3) = (W (Proc.devRef .tc main_arg3)) := rfl
theorem kpre_arg4 (W : Valuation τ sig (Elt Ideal)) :
    (after (Q5 (F := Ideal)) (after (Q4 (F := Ideal)) (after (Q3 (F := Ideal)) (after (Q2 (F := Ideal)) (after (Q1 (F := Ideal)) (after (Q0 (F := Ideal)) W)))))) (Proc.devRef .tc main_arg4) = (W (Proc.devRef .tc main_arg4)) := rfl
theorem kpre_arg5 (W : Valuation τ sig (Elt Ideal)) :
    (after (Q5 (F := Ideal)) (after (Q4 (F := Ideal)) (after (Q3 (F := Ideal)) (after (Q2 (F := Ideal)) (after (Q1 (F := Ideal)) (after (Q0 (F := Ideal)) W)))))) (Proc.devRef .tc main_arg5) = (W (Proc.devRef .tc main_arg5)) := rfl
theorem kpre_arg6 (W : Valuation τ sig (Elt Ideal)) :
    (after (Q5 (F := Ideal)) (after (Q4 (F := Ideal)) (after (Q3 (F := Ideal)) (after (Q2 (F := Ideal)) (after (Q1 (F := Ideal)) (after (Q0 (F := Ideal)) W)))))) (Proc.devRef .tc main_arg6) = (W (Proc.devRef .tc main_arg6)) := rfl
theorem kpre_arg7 (W : Valuation τ sig (Elt Ideal)) :
    (after (Q5 (F := Ideal)) (after (Q4 (F := Ideal)) (after (Q3 (F := Ideal)) (after (Q2 (F := Ideal)) (after (Q1 (F := Ideal)) (after (Q0 (F := Ideal)) W)))))) (Proc.devRef .tc main_arg7) = (W (Proc.devRef .tc main_arg7)) := rfl
theorem kpre_arg8 (W : Valuation τ sig (Elt Ideal)) :
    (after (Q5 (F := Ideal)) (after (Q4 (F := Ideal)) (after (Q3 (F := Ideal)) (after (Q2 (F := Ideal)) (after (Q1 (F := Ideal)) (after (Q0 (F := Ideal)) W)))))) (Proc.devRef .tc main_arg8) = (W (Proc.devRef .tc main_arg8)) := rfl
theorem kpre_arg9 (W : Valuation τ sig (Elt Ideal)) :
    (after (Q11 (F := Ideal)) (after (Q10 (F := Ideal)) (after (Q9 (F := Ideal)) (after (Q8 (F := Ideal)) (after (Q7 (F := Ideal)) (after (Q6 (F := Ideal)) (after (Q5 (F := Ideal)) (after (Q4 (F := Ideal)) (after (Q3 (F := Ideal)) (after (Q2 (F := Ideal)) (after (Q1 (F := Ideal)) (after (Q0 (F := Ideal)) W)))))))))))) (Proc.devRef .tc main_arg9) = (W (Proc.devRef .tc main_arg9)) := rfl
theorem kpre_arg10 (W : Valuation τ sig (Elt Ideal)) :
    (after (Q11 (F := Ideal)) (after (Q10 (F := Ideal)) (after (Q9 (F := Ideal)) (after (Q8 (F := Ideal)) (after (Q7 (F := Ideal)) (after (Q6 (F := Ideal)) (after (Q5 (F := Ideal)) (after (Q4 (F := Ideal)) (after (Q3 (F := Ideal)) (after (Q2 (F := Ideal)) (after (Q1 (F := Ideal)) (after (Q0 (F := Ideal)) W)))))))))))) (Proc.devRef .tc main_arg10) = (W (Proc.devRef .tc main_arg10)) := rfl

end Cert.Gin.Ref

end
-- ==== Proof.RefRunH.lean ====
/-
  The reference's run: every execution ends with the result buffer at the network of the argument arrays and the
  arguments unchanged.  The program is a straight line of operations, each writing a buffer of its own; the line is cut
  into thirteen pieces, and what a buffer holds after a piece is computed piece by piece: the first piece aggregates
  the input and cuts the first branch's stacked parameters, the next pieces are the branch's three layers, then the
  second aggregation and the second branch's parameters, its three layers, and the last stage.
-/
import proofs.«114777_j46617575031250_1_alg».proof.Proof.RefMain
import proofs.«114777_j46617575031250_1_alg».proof.Proof.RStretch0
import proofs.«114777_j46617575031250_1_alg».proof.Proof.RStretch1
import proofs.«114777_j46617575031250_1_alg».proof.Proof.RStretch2
import Idealize.ShloMosaic.Lib.Pipeline.Frame

set_option maxRecDepth 16384
-- one theorem at a time: each walks the whole line of operations
set_option Elab.async false

noncomputable section

namespace Cert.Gin.Ref

open Idealize.ShloMosaic Idealize.ShloMosaic.TcCoe Idealize.ShloMosaic.ValueIdx Idealize.SL.Sem Idealize.ShloMosaic.StableHlo
  Cert.ReferenceIdeal Cert.ReferenceIdeal.Gen Cert.Gin

/-- The whole line folds piece by piece. -/
theorem after_pieces (V : Valuation τ sig (Elt Ideal)) :
    after (Qall (F := Ideal)) V = (after (Q12 (F := Ideal)) (after (Q11 (F := Ideal)) (after (Q10 (F := Ideal)) (after (Q9 (F := Ideal)) (after (Q8 (F := Ideal)) (after (Q7 (F := Ideal)) (after (Q6 (F := Ideal)) (after (Q5 (F := Ideal)) (after (Q4 (F := Ideal)) (after (Q3 (F := Ideal)) (after (Q2 (F := Ideal)) (after (Q1 (F := Ideal)) (after (Q0 (F := Ideal)) V))))))))))))) := by
  simp only [Qall, after_append]

/-- The result buffer at the end of the line holds the network of the argument arrays. -/
theorem out_eq (V : Valuation τ sig (Elt Ideal)) :
    after (Qall (F := Ideal)) V (Proc.devRef .tc main_v252)
      = value (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [after_pieces]
  rw [r8_out (after (Q11 (F := Ideal)) (after (Q10 (F := Ideal)) (after (Q9 (F := Ideal)) (after (Q8 (F := Ideal)) (after (Q7 (F := Ideal)) (after (Q6 (F := Ideal)) (after (Q5 (F := Ideal)) (after (Q4 (F := Ideal)) (after (Q3 (F := Ideal)) (after (Q2 (F := Ideal)) (after (Q1 (F := Ideal)) (after (Q0 (F := Ideal)) V)))))))))))),
    kpre_arg9 V,
    kpre_arg10 V,
    r7_out (after (Q9 (F := Ideal)) (after (Q8 (F := Ideal)) (after (Q7 (F := Ideal)) (after (Q6 (F := Ideal)) (after (Q5 (F := Ideal)) (after (Q4 (F := Ideal)) (after (Q3 (F := Ideal)) (after (Q2 (F := Ideal)) (after (Q1 (F := Ideal)) (after (Q0 (F := Ideal)) V)))))))))),
    k6_v125 (after (Q8 (F := Ideal)) (after (Q7 (F := Ideal)) (after (Q6 (F := Ideal)) (after (Q5 (F := Ideal)) (after (Q4 (F := Ideal)) (after (Q3 (F := Ideal)) (after (Q2 (F := Ideal)) (after (Q1 (F := Ideal)) (after (Q0 (F := Ideal)) V))))))))),
    k6_v127 (after (Q8 (F := Ideal)) (after (Q7 (F := Ideal)) (after (Q6 (F := Ideal)) (after (Q5 (F := Ideal)) (after (Q4 (F := Ideal)) (after (Q3 (F := Ideal)) (after (Q2 (F := Ideal)) (after (Q1 (F := Ideal)) (after (Q0 (F := Ideal)) V))))))))),
    k6_v129 (after (Q8 (F := Ideal)) (after (Q7 (F := Ideal)) (after (Q6 (F := Ideal)) (after (Q5 (F := Ideal)) (after (Q4 (F := Ideal)) (after (Q3 (F := Ideal)) (after (Q2 (F := Ideal)) (after (Q1 (F := Ideal)) (after (Q0 (F := Ideal)) V))))))))),
    k6_v131 (after (Q8 (F := Ideal)) (after (Q7 (F := Ideal)) (after (Q6 (F := Ideal)) (after (Q5 (F := Ideal)) (after (Q4 (F := Ideal)) (after (Q3 (F := Ideal)) (after (Q2 (F := Ideal)) (after (Q1 (F := Ideal)) (after (Q0 (F := Ideal)) V))))))))),
    k6_v133 (after (Q8 (F := Ideal)) (after (Q7 (F := Ideal)) (after (Q6 (F := Ideal)) (after (Q5 (F := Ideal)) (after (Q4 (F := Ideal)) (after (Q3 (F := Ideal)) (after (Q2 (F := Ideal)) (after (Q1 (F := Ideal)) (after (Q0 (F := Ideal)) V))))))))),
    k6_v135 (after (Q8 (F := Ideal)) (after (Q7 (F := Ideal)) (after (Q6 (F := Ideal)) (after (Q5 (F := Ideal)) (after (Q4 (F := Ideal)) (after (Q3 (F := Ideal)) (after (Q2 (F := Ideal)) (after (Q1 (F := Ideal)) (after (Q0 (F := Ideal)) V))))))))),
    r6_out (after (Q8 (F := Ideal)) (after (Q7 (F := Ideal)) (after (Q6 (F := Ideal)) (after (Q5 (F := Ideal)) (after (Q4 (F := Ideal)) (after (Q3 (F := Ideal)) (after (Q2 (F := Ideal)) (after (Q1 (F := Ideal)) (after (Q0 (F := Ideal)) V))))))))),
    k5_v125 (after (Q6 (F := Ideal)) (after (Q5 (F := Ideal)) (after (Q4 (F := Ideal)) (after (Q3 (F := Ideal)) (after (Q2 (F := Ideal)) (after (Q1 (F := Ideal)) (after (Q0 (F := Ideal)) V))))))),
    k5_v127 (after (Q6 (F := Ideal)) (after (Q5 (F := Ideal)) (after (Q4 (F := Ideal)) (after (Q3 (F := Ideal)) (after (Q2 (F := Ideal)) (after (Q1 (F := Ideal)) (after (Q0 (F := Ideal)) V))))))),
    k5_v129 (after (Q6 (F := Ideal)) (after (Q5 (F := Ideal)) (after (Q4 (F := Ideal)) (after (Q3 (F := Ideal)) (after (Q2 (F := Ideal)) (after (Q1 (F := Ideal)) (after (Q0 (F := Ideal)) V))))))),
    k5_v131 (after (Q6 (F := Ideal)) (after (Q5 (F := Ideal)) (after (Q4 (F := Ideal)) (after (Q3 (F := Ideal)) (after (Q2 (F := Ideal)) (after (Q1 (F := Ideal)) (after (Q0 (F := Ideal)) V))))))),
    k5_v133 (after (Q6 (F := Ideal)) (after (Q5 (F := Ideal)) (after (Q4 (F := Ideal)) (after (Q3 (F := Ideal)) (after (Q2 (F := Ideal)) (after (Q1 (F := Ideal)) (after (Q0 (F := Ideal)) V))))))),
    k5_v135 (after (Q6 (F := Ideal)) (after (Q5 (F := Ideal)) (after (Q4 (F := Ideal)) (after (Q3 (F := Ideal)) (after (Q2 (F := Ideal)) (after (Q1 (F := Ideal)) (after (Q0 (F := Ideal)) V))))))),
    r5_out (after (Q6 (F := Ideal)) (after (Q5 (F := Ideal)) (after (Q4 (F := Ideal)) (after (Q3 (F := Ideal)) (after (Q2 (F := Ideal)) (after (Q1 (F := Ideal)) (after (Q0 (F := Ideal)) V))))))),
    r4_v125 (after (Q5 (F := Ideal)) (after (Q4 (F := Ideal)) (after (Q3 (F := Ideal)) (after (Q2 (F := Ideal)) (after (Q1 (F := Ideal)) (after (Q0 (F := Ideal)) V)))))),
    r4_v127 (after (Q5 (F := Ideal)) (after (Q4 (F := Ideal)) (after (Q3 (F := Ideal)) (after (Q2 (F := Ideal)) (after (Q1 (F := Ideal)) (after (Q0 (F := Ideal)) V)))))),
    r4_v129 (after (Q5 (F := Ideal)) (after (Q4 (F := Ideal)) (after (Q3 (F := Ideal)) (after (Q2 (F := Ideal)) (after (Q1 (F := Ideal)) (after (Q0 (F := Ideal)) V)))))),
    r4_v131 (after (Q5 (F := Ideal)) (after (Q4 (F := Ideal)) (after (Q3 (F := Ideal)) (after (Q2 (F := Ideal)) (after (Q1 (F := Ideal)) (after (Q0 (F := Ideal)) V)))))),
    r4_v133 (after (Q5 (F := Ideal)) (after (Q4 (F := Ideal)) (after (Q3 (F := Ideal)) (after (Q2 (F := Ideal)) (after (Q1 (F := Ideal)) (after (Q0 (F := Ideal)) V)))))),
    r4_v135 (after (Q5 (F := Ideal)) (after (Q4 (F := Ideal)) (after (Q3 (F := Ideal)) (after (Q2 (F := Ideal)) (after (Q1 (F := Ideal)) (after (Q0 (F := Ideal)) V)))))),
    r4_v150 (after (Q5 (F := Ideal)) (after (Q4 (F := Ideal)) (after (Q3 (F := Ideal)) (after (Q2 (F := Ideal)) (after (Q1 (F := Ideal)) (after (Q0 (F := Ideal)) V)))))),
    kpre_arg1 V,
    kpre_arg3 V,
    kpre_arg4 V,
    kpre_arg5 V,
    kpre_arg6 V,
    kpre_arg7 V,
    kpre_arg8 V,
    r3_out (after (Q3 (F := Ideal)) (after (Q2 (F := Ideal)) (after (Q1 (F := Ideal)) (after (Q0 (F := Ideal)) V)))),
    k2_v1 (after (Q2 (F := Ideal)) (after (Q1 (F := Ideal)) (after (Q0 (F := Ideal)) V))),
    k2_v3 (after (Q2 (F := Ideal)) (after (Q1 (F := Ideal)) (after (Q0 (F := Ideal)) V))),
    k2_v5 (after (Q2 (F := Ideal)) (after (Q1 (F := Ideal)) (after (Q0 (F := Ideal)) V))),
    k2_v7 (after (Q2 (F := Ideal)) (after (Q1 (F := Ideal)) (after (Q0 (F := Ideal)) V))),
    k2_v9 (after (Q2 (F := Ideal)) (after (Q1 (F := Ideal)) (after (Q0 (F := Ideal)) V))),
    k2_v11 (after (Q2 (F := Ideal)) (after (Q1 (F := Ideal)) (after (Q0 (F := Ideal)) V))),
    r2_out (after (Q2 (F := Ideal)) (after (Q1 (F := Ideal)) (after (Q0 (F := Ideal)) V))),
    k1_v1 (after (Q0 (F := Ideal)) V),
    k1_v3 (after (Q0 (F := Ideal)) V),
    k1_v5 (after (Q0 (F := Ideal)) V),
    k1_v7 (after (Q0 (F := Ideal)) V),
    k1_v9 (after (Q0 (F := Ideal)) V),
    k1_v11 (after (Q0 (F := Ideal)) V),
    r1_out (after (Q0 (F := Ideal)) V),
    r0_v1 V,
    r0_v3 V,
    r0_v5 V,
    r0_v7 V,
    r0_v9 V,
    r0_v11 V,
    r0_v26 V]
  rfl

/-! The line writes no argument. -/

theorem kall_arg0 (V : Valuation τ sig (Elt Ideal)) :
    after (Qall (F := Ideal)) V (Proc.devRef .tc main_arg0) = V (Proc.devRef .tc main_arg0) := rfl

theorem kall_arg1 (V : Valuation τ sig (Elt Ideal)) :
    after (Qall (F := Ideal)) V (Proc.devRef .tc main_arg1) = V (Proc.devRef .tc main_arg1) := rfl

theorem kall_arg2 (V : Valuation τ sig (Elt Ideal)) :
    after (Qall (F := Ideal)) V (Proc.devRef .tc main_arg2) = V (Proc.devRef .tc main_arg2) := rfl

theorem kall_arg3 (V : Valuation τ sig (Elt Ideal)) :
    after (Qall (F := Ideal)) V (Proc.devRef .tc main_arg3) = V (Proc.devRef .tc main_arg3) := rfl

theorem kall_arg4 (V : Valuation τ sig (Elt Ideal)) :
    after (Qall (F := Ideal)) V (Proc.devRef .tc main_arg4) = V (Proc.devRef .tc main_arg4) := rfl

theorem kall_arg5 (V : Valuation τ sig (Elt Ideal)) :
    after (Qall (F := Ideal)) V (Proc.devRef .tc main_arg5) = V (Proc.devRef .tc main_arg5) := rfl

theorem kall_arg6 (V : Valuation τ sig (Elt Ideal)) :
    after (Qall (F := Ideal)) V (Proc.devRef .tc main_arg6) = V (Proc.devRef .tc main_arg6) := rfl

theorem kall_arg7 (V : Valuation τ sig (Elt Ideal)) :
    after (Qall (F := Ideal)) V (Proc.devRef .tc main_arg7) = V (Proc.devRef .tc main_arg7) := rfl

theorem kall_arg8 (V : Valuation τ sig (Elt Ideal)) :
    after (Qall (F := Ideal)) V (Proc.devRef .tc main_arg8) = V (Proc.devRef .tc main_arg8) := rfl

theorem kall_arg9 (V : Valuation τ sig (Elt Ideal)) :
    after (Qall (F := Ideal)) V (Proc.devRef .tc main_arg9) = V (Proc.devRef .tc main_arg9) := rfl

theorem kall_arg10 (V : Valuation τ sig (Elt Ideal)) :
    after (Qall (F := Ideal)) V (Proc.devRef .tc main_arg10) = V (Proc.devRef .tc main_arg10) := rfl

/-- On every device, from any memory with zero counters: every weakly fair execution of the program terminates with the
    result buffer at the network of the argument arrays and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v252) = value (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run (Cert.ReferenceIdeal.defs (F := Ideal)) _ _).mono (fun _ h c => ⟨(h c main_v252).trans (out_eq _),
      (h c main_arg0).trans (kall_arg0 _),
      (h c main_arg1).trans (kall_arg1 _),
      (h c main_arg2).trans (kall_arg2 _),
      (h c main_arg3).trans (kall_arg3 _),
      (h c main_arg4).trans (kall_arg4 _),
      (h c main_arg5).trans (kall_arg5 _),
      (h c main_arg6).trans (kall_arg6 _),
      (h c main_arg7).trans (kall_arg7 _),
      (h c main_arg8).trans (kall_arg8 _),
      (h c main_arg9).trans (kall_arg9 _),
      (h c main_arg10).trans (kall_arg10 _)⟩)
    (run_raw (F := Ideal) m ρ)

end Cert.Gin.Ref

end
-- ==== Proof.lean ====
/-
  A graph network — twice: aggregate every node's features over its incoming edges, then three layers
  "linear, batch normalisation with stored statistics, maximum with zero" — followed by a linear layer and a row-wise
  log-softmax, as seven TensorCore regions over row blocks of 5000 nodes, against the same network in plain array code.

  Over the extended reals the two programs compute one function of the argument arrays, `Cert.Gin.net`
  (Proof/Spec.lean). On the kernel's side each region's result array is the layer (or the last stage) of the arrays the
  region finds (Proof/KRegion0 … KRegion6: a block of 5000 rows depends on the same rows of the features only, and the
  twenty blocks fill the array), what each region finds is read through the host operations between the regions
  (Proof/KEntry), and the composition is Proof/KValue; the matrix unit's product into a zero accumulator is the sum over
  the contracted coordinate and the change of float format is the identity (Proof/Ops). On the reference's side every
  stretch of host operations "product, bias, mean, rsqrt of variance plus eps, scale, shift, maximum with zero" is the same
  layer, the maximum with zero applied twice is applied once, and the maximum of the starting value with a row's
  maximum is the row's maximum (Proof/RefRunH). The two programs cut the parameters out of the stacked arguments by the
  same slices and aggregate by the same gather and scatter-add, so the two networks are one term. No law used needs the
  inputs finite: both sides apply the same operations in the same order, and sums over a finite index set do not
  depend on the order of their terms.
-/
import proofs.«114777_j46617575031250_1_alg».proof.Defs
import proofs.«114777_j46617575031250_1_alg».proof.Proof.Gen.Kernel
import proofs.«114777_j46617575031250_1_alg».proof.Proof.Gen.Kernel.Skeleton
import proofs.«114777_j46617575031250_1_alg».proof.Proof.Gen.Kernel.Launch
import proofs.«114777_j46617575031250_1_alg».proof.Proof.Gen.Kernel.Points
import proofs.«114777_j46617575031250_1_alg».proof.Proof.Gen.Kernel.Frame
import proofs.«114777_j46617575031250_1_alg».proof.Proof.Gen.KernelIdeal
import proofs.«114777_j46617575031250_1_alg».proof.Proof.Gen.KernelIdeal.Skeleton
import proofs.«114777_j46617575031250_1_alg».proof.Proof.Gen.KernelIdeal.Launch
import proofs.«114777_j46617575031250_1_alg».proof.Proof.Gen.KernelIdeal.Points
import proofs.«114777_j46617575031250_1_alg».proof.Proof.Gen.KernelIdeal.Frame
import proofs.«114777_j46617575031250_1_alg».proof.Proof.Gen.ReferenceIdeal
import proofs.«114777_j46617575031250_1_alg».proof.Proof.Gen.Pre_finite_inputs
import proofs.«114777_j46617575031250_1_alg».proof.Proof.KRun
import proofs.«114777_j46617575031250_1_alg».proof.Proof.KValue
import proofs.«114777_j46617575031250_1_alg».proof.Proof.RefRunH
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run with its result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Gin.Ref.run m ρ)

/-- The ideal pass rewrote nothing. -/
theorem preserves : Cert.preserves_Kernel_KernelIdeal := trivial

/-- Both programs end with the network of the argument arrays in their result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gin.Ker.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.Gin.Ker.kernel_value m ρ c), (h c).2⟩) (Cert.Gin.Ker.run_result (F := Ideal) m ρ)
  · refine (θ_run Cert.ReferenceIdeal.defs _ _).mono (fun r h c => ⟨(h c).1.trans ?_, (h c).2⟩) (Cert.Gin.Ref.run m' ρ')
    obtain ⟨a0, a1, a2, a3, a4, a5, a6, a7, a8, a9, a10⟩ := hagree c
    rw [a0, a1, a3, a4, a5, a6, a7, a8, a9, a10]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
